-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S65536x5 : Shape := ⟨2, ![65536, 5]⟩
abbrev S65536x2 : Shape := ⟨2, ![65536, 2]⟩
abbrev S1000000x128 : Shape := ⟨2, ![1000000, 128]⟩
abbrev S1000000x1 : Shape := ⟨2, ![1000000, 1]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S65536x5 : S_.BroadcastsInDim S65536x5 (![] : Fin 0 → Fin S65536x5.rank)
  reducesTo_S65536x5_S_d0_1 : S65536x5.ReducesTo [0, 1] S_
  bcast_S_S1000000x128 : S_.BroadcastsInDim S1000000x128 (![] : Fin 0 → Fin S1000000x128.rank)
  reducesTo_S1000000x128_S_d0_1 : S1000000x128.ReducesTo [0, 1] S_
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_arg8 : FVec F S1000000x1 .f32) (main_v13 : IVec S_ 1) (main_v16 : IVec S1000000x128 1) : IVec S_ 1 :=
  let main_c_5 : IVec S_ 1 := constantI S_ 1 1#1
  let main_v17 : IVec S_ 1 := (fun x v => Host.reduce IntOp.andi x v reducesTo_S1000000x128_S_d0_1 h_S_) main_v16 main_c_5
  let main_v18 : IVec S_ 1 := andi main_v13 main_v17
  let main_v19 : FVec F S1000000x1 .f32 := Host.absf main_arg8
  let main_cst_6 : FVec F S_ .f32 := constant S_ .f32 0x7F800000#32
  let main_v20 : FVec F S1000000x1 .f32 := broadcastInDim S1000000x1 ![] bcast_S_S1000000x1 main_cst_6
  let main_v21 : IVec S1000000x1 1 := cmpf .olt main_v19 main_v20
  let main_c_7 : IVec S_ 1 := constantI S_ 1 1#1
  let main_v22 : IVec S_ 1 := (fun x v => Host.reduce IntOp.andi x v reducesTo_S1000000x1_S_d0_1 h_S_) main_v21 main_c_7
  let main_v23 : IVec S_ 1 := andi main_v18 main_v22
  main_v23

def fn {F : FTy → Type} [FloatOps F] (main_arg0 : IVec S65536 32) (main_arg1 : IVec S65536 32) (main_arg2 : FVec F S65536 .f32) (main_arg3 : IVec S65536x5 32) (main_arg4 : FVec F S65536x5 .f32) (main_arg5 : IVec S65536x2 32) (main_arg6 : FVec F S65536x5 .f32) (main_arg7 : FVec F S1000000x128 .f32) (main_arg8 : FVec F S1000000x1 .f32) : IVec S_ 1 :=
  let main_v0 : FVec F S65536 .f32 := Host.absf main_arg2
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S65536x5 .f32 := Host.absf main_arg4
  let main_cst_0 : FVec F S_ .f32 := constant S_ .f32 0x7F800000#32
  let main_v5 : FVec F S65536x5 .f32 := broadcastInDim S65536x5 ![] bcast_S_S65536x5 main_cst_0
  let main_v6 : IVec S65536x5 1 := cmpf .olt main_v4 main_v5
  let main_c_1 : IVec S_ 1 := constantI S_ 1 1#1
  let main_v7 : IVec S_ 1 := (fun x v => Host.reduce IntOp.andi x v reducesTo_S65536x5_S_d0_1 h_S_) main_v6 main_c_1
  let main_v8 : IVec S_ 1 := andi main_v3 main_v7
  let main_v9 : FVec F S65536x5 .f32 := Host.absf main_arg6
  let main_cst_2 : FVec F S_ .f32 := constant S_ .f32 0x7F800000#32
  let main_v10 : FVec F S65536x5 .f32 := broadcastInDim S65536x5 ![] bcast_S_S65536x5 main_cst_2
  let main_v11 : IVec S65536x5 1 := cmpf .olt main_v9 main_v10
  let main_c_3 : IVec S_ 1 := constantI S_ 1 1#1
  let main_v12 : IVec S_ 1 := (fun x v => Host.reduce IntOp.andi x v reducesTo_S65536x5_S_d0_1 h_S_) main_v11 main_c_3
  let main_v13 : IVec S_ 1 := andi main_v8 main_v12
  let main_v14 : FVec F S1000000x128 .f32 := Host.absf main_arg7
  let main_cst_4 : FVec F S_ .f32 := constant S_ .f32 0x7F800000#32
  let main_v15 : FVec F S1000000x128 .f32 := broadcastInDim S1000000x128 ![] bcast_S_S1000000x128 main_cst_4
  let main_v16 : IVec S1000000x128 1 := cmpf .olt main_v14 main_v15
  fn_part1 (F := F) main_arg8 main_v13 main_v16
-- ==== Kernel.lean ====
abbrev S65536 : Shape := ⟨1, ![65536]⟩
abbrev S65536x5 : Shape := ⟨2, ![65536, 5]⟩
abbrev S65536x2 : Shape := ⟨2, ![65536, 2]⟩
abbrev S1000000x128 : Shape := ⟨2, ![1000000, 128]⟩
abbrev S1000000x1 : Shape := ⟨2, ![1000000, 1]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x128 : Shape := ⟨2, ![65536, 128]⟩
abbrev S65536x5x1 : Shape := ⟨3, ![65536, 5, 1]⟩
abbrev S1x1x1 : Shape := ⟨3, ![1, 1, 1]⟩
abbrev S65536x5x128 : Shape := ⟨3, ![65536, 5, 128]⟩
abbrev S65536x2x1 : Shape := ⟨3, ![65536, 2, 1]⟩
abbrev S65536x2x128 : Shape := ⟨3, ![65536, 2, 128]⟩
abbrev S1024x128 : Shape := ⟨2, ![1024, 128]⟩
abbrev S1024x5x128 : Shape := ⟨3, ![1024, 5, 128]⟩
abbrev S1024x2x128 : Shape := ⟨3, ![1024, 2, 128]⟩
abbrev S1024x1 : Shape := ⟨2, ![1024, 1]⟩
abbrev S1024x5 : Shape := ⟨2, ![1024, 5]⟩
abbrev S1024 : Shape := ⟨1, ![1024]⟩
abbrev S1024x1x128 : Shape := ⟨3, ![1024, 1, 128]⟩
abbrev S1024x2 : Shape := ⟨2, ![1024, 2]⟩

abbrev nBuf : Space → Nat
  | .hbm => 127
  | .vmem => 18
  | .smem => 0
  | _ => 0

abbrev bufTy : (tb : Table) → Fin (tcTables nBuf tb) → BufTy
  | .hbm, ⟨0, _⟩ => ⟨S65536, .i32⟩
  | .hbm, ⟨1, _⟩ => ⟨S65536, .i32⟩
  | .hbm, ⟨2, _⟩ => ⟨S65536, .f32⟩
  | .hbm, ⟨3, _⟩ => ⟨S65536x5, .i32⟩
  | .hbm, ⟨4, _⟩ => ⟨S65536x5, .f32⟩
  | .hbm, ⟨5, _⟩ => ⟨S65536x2, .i32⟩
  | .hbm, ⟨6, _⟩ => ⟨S65536x5, .f32⟩
  | .hbm, ⟨7, _⟩ => ⟨S1000000x128, .f32⟩
  | .hbm, ⟨8, _⟩ => ⟨S1000000x1, .f32⟩
  | .hbm, ⟨9, _⟩ => ⟨S_, .i32⟩
  | .hbm, ⟨10, _⟩ => ⟨S65536, .i32⟩
  | .hbm, ⟨11, _⟩ => ⟨S65536, .i1⟩
  | .hbm, ⟨12, _⟩ => ⟨S_, .i32⟩
  | .hbm, ⟨13, _⟩ => ⟨S65536, .i32⟩
  | .hbm, ⟨14, _⟩ => ⟨S65536, .i32⟩
  | .hbm, ⟨15, _⟩ => ⟨S65536, .i32⟩
  | .hbm, ⟨16, _⟩ => ⟨S65536x1, .i32⟩
  | .hbm, ⟨17, _⟩ => ⟨S1, .i32⟩
  | .hbm, ⟨18, _⟩ => ⟨S_, .i32⟩
  | .hbm, ⟨19, _⟩ => ⟨S65536x1, .i32⟩
  | .hbm, ⟨20, _⟩ => ⟨S65536x1, .i1⟩
  | .hbm, ⟨21, _⟩ => ⟨S1x1, .i32⟩
  | .hbm, ⟨22, _⟩ => ⟨S65536x1, .i32⟩
  | .hbm, ⟨23, _⟩ => ⟨S65536x1, .i1⟩
  | .hbm, ⟨24, _⟩ => ⟨S65536x1, .i1⟩
  | .hbm, ⟨25, _⟩ => ⟨S_, .i1⟩
  | .hbm, ⟨26, _⟩ => ⟨S65536, .i1⟩
  | .hbm, ⟨27, _⟩ => ⟨S65536x128, .f32⟩
  | .hbm, ⟨28, _⟩ => ⟨S65536x128, .i1⟩
  | .hbm, ⟨29, _⟩ => ⟨S_, .f32⟩
  | .hbm, ⟨30, _⟩ => ⟨S65536x128, .f32⟩
  | .hbm, ⟨31, _⟩ => ⟨S65536x128, .f32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S1, .i32⟩
  | .hbm, ⟨41, _⟩ => ⟨S_, .i32⟩
  | .hbm, ⟨42, _⟩ => ⟨S65536x1, .i32⟩
  | .hbm, ⟨43, _⟩ => ⟨S65536x1, .i1⟩
  | .hbm, ⟨44, _⟩ => ⟨S1x1, .i32⟩
  | .hbm, ⟨45, _⟩ => ⟨S65536x1, .i32⟩
  | .hbm, ⟨46, _⟩ => ⟨S65536x1, .i1⟩
  | .hbm, ⟨47, _⟩ => ⟨S65536x1, .i1⟩
  | .hbm, ⟨48, _⟩ => ⟨S_, .i1⟩
  | .hbm, ⟨49, _⟩ => ⟨S65536, .i1⟩
  | .hbm, ⟨50, _⟩ => ⟨S65536x128, .f32⟩
  | .hbm, ⟨51, _⟩ => ⟨S65536x128, .i1⟩
  | .hbm, ⟨52, _⟩ => ⟨S_, .f32⟩
  | .hbm, ⟨53, _⟩ => ⟨S65536x128, .f32⟩
  | .hbm, ⟨54, _⟩ => ⟨S65536x128, .f32⟩
  | .hbm, ⟨55, _⟩ => ⟨S_, .i32⟩
  | .hbm, ⟨56, _⟩ => ⟨S65536x5, .i32⟩
  | .hbm, ⟨57, _⟩ => ⟨S65536x5, .i1⟩
  | .hbm, ⟨58, _⟩ => ⟨S_, .i32⟩
  | .hbm, ⟨59, _⟩ => ⟨S65536x5, .i32⟩
  | .hbm, ⟨60, _⟩ => ⟨S65536x5, .i32⟩
  | .hbm, ⟨61, _⟩ => ⟨S65536x5, .i32⟩
  | .hbm, ⟨62, _⟩ => ⟨S65536x5x1, .i32⟩
  | .hbm, ⟨63, _⟩ => ⟨S1, .i32⟩
  | .hbm, ⟨64, _⟩ => ⟨S_, .i32⟩
  | .hbm, ⟨65, _⟩ => ⟨S65536x5x1, .i32⟩
  | .hbm, ⟨66, _⟩ => ⟨S65536x5x1, .i1⟩
  | .hbm, ⟨67, _⟩ => ⟨S1x1x1, .i32⟩
  | .hbm, ⟨68, _⟩ => ⟨S65536x5x1, .i32⟩
  | .hbm, ⟨69, _⟩ => ⟨S65536x5x1, .i1⟩
  | .hbm, ⟨70, _⟩ => ⟨S65536x5x1, .i1⟩
  | .hbm, ⟨71, _⟩ => ⟨S_, .i1⟩
  | .hbm, ⟨72, _⟩ => ⟨S65536x5, .i1⟩
  | .hbm, ⟨73, _⟩ => ⟨S65536x5x128, .f32⟩
  | .hbm, ⟨74, _⟩ => ⟨S65536x5x128, .i1⟩
  | .hbm, ⟨75, _⟩ => ⟨S_, .f32⟩
  | .hbm, ⟨76, _⟩ => ⟨S65536x5x128, .f32⟩
  | .hbm, ⟨77, _⟩ => ⟨S65536x5x128, .f32⟩
  | .hbm, ⟨78, _⟩ => ⟨S_, .i32⟩
  | .hbm, ⟨79, _⟩ => ⟨S65536x2, .i32⟩
  | .hbm, ⟨80, _⟩ => ⟨S65536x2, .i1⟩
  | .hbm, ⟨81, _⟩ => ⟨S_, .i32⟩
  | .hbm, ⟨82, _⟩ => ⟨S65536x2, .i32⟩
  | .hbm, ⟨83, _⟩ => ⟨S65536x2, .i32⟩
  | .hbm, ⟨84, _⟩ => ⟨S65536x2, .i32⟩
  | .hbm, ⟨85, _⟩ => ⟨S65536x2x1, .i32⟩
  | .hbm, ⟨86, _⟩ => ⟨S1, .i32⟩
  | .hbm, ⟨87, _⟩ => ⟨S_, .i32⟩
  | .hbm, ⟨88, _⟩ => ⟨S65536x2x1, .i32⟩
  | .hbm, ⟨89, _⟩ => ⟨S65536x2x1, .i1⟩
  | .hbm, ⟨90, _⟩ => ⟨S1x1x1, .i32⟩
  | .hbm, ⟨91, _⟩ => ⟨S65536x2x1, .i32⟩
  | .hbm, ⟨92, _⟩ => ⟨S65536x2x1, .i1⟩
  | .hbm, ⟨93, _⟩ => ⟨S65536x2x1, .i1⟩
  | .hbm, ⟨94, _⟩ => ⟨S_, .i1⟩
  | .hbm, ⟨95, _⟩ => ⟨S65536x2, .i1⟩
  | .hbm, ⟨96, _⟩ => ⟨S65536x2x128, .f32⟩
  | .hbm, ⟨97, _⟩ => ⟨S65536x2x128, .i1⟩
  | .hbm, ⟨98, _⟩ => ⟨S_, .f32⟩
  | .hbm, ⟨99, _⟩ => ⟨S65536x2x128, .f32⟩
  | .hbm, ⟨100, _⟩ => ⟨S65536x2x128, .f32⟩
  | .hbm, ⟨101, _⟩ => ⟨S_, .i32⟩
  | .hbm, ⟨102, _⟩ => ⟨S65536, .i32⟩
  | .hbm, ⟨103, _⟩ => ⟨S65536, .i1⟩
  | .hbm, ⟨104, _⟩ => ⟨S_, .i32⟩
  | .hbm, ⟨105, _⟩ => ⟨S65536, .i32⟩
  | .hbm, ⟨106, _⟩ => ⟨S65536, .i32⟩
  | .hbm, ⟨107, _⟩ => ⟨S65536, .i32⟩
  | .hbm, ⟨108, _⟩ => ⟨S65536x1, .i32⟩
  | .hbm, ⟨109, _⟩ => ⟨S1, .i32⟩
  | .hbm, ⟨110, _⟩ => ⟨S_, .i32⟩
  | .hbm, ⟨111, _⟩ => ⟨S65536x1, .i32⟩
  | .hbm, ⟨112, _⟩ => ⟨S65536x1, .i1⟩
  | .hbm, ⟨113, _⟩ => ⟨S1x1, .i32⟩
  | .hbm, ⟨114, _⟩ => ⟨S65536x1, .i32⟩
  | .hbm, ⟨115, _⟩ => ⟨S65536x1, .i1⟩
  | .hbm, ⟨116, _⟩ => ⟨S65536x1, .i1⟩
  | .hbm, ⟨117, _⟩ => ⟨S_, .i1⟩
  | .hbm, ⟨118, _⟩ => ⟨S65536, .i1⟩
  | .hbm, ⟨119, _⟩ => ⟨S65536x1, .f32⟩
  | .hbm, ⟨120, _⟩ => ⟨S65536x1, .i1⟩
  | .hbm, ⟨121, _⟩ => ⟨S_, .f32⟩
  | .hbm, ⟨122, _⟩ => ⟨S65536x1, .f32⟩
  | .hbm, ⟨123, _⟩ => ⟨S65536x1, .f32⟩
  | .hbm, ⟨124, _⟩ => ⟨S65536x1, .f32⟩
  | .hbm, ⟨125, _⟩ => ⟨S65536x1, .f32⟩
  | .hbm, ⟨126, _⟩ => ⟨S65536, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x5x128, .f32⟩
  | .local _ .vmem, ⟨5, _⟩ => ⟨S1024x5x128, .f32⟩
  | .local _ .vmem, ⟨6, _⟩ => ⟨S1024x2x128, .f32⟩
  | .local _ .vmem, ⟨7, _⟩ => ⟨S1024x2x128, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x5, .f32⟩
  | .local _ .vmem, ⟨13, _⟩ => ⟨S1024x5, .f32⟩
  | .local _ .vmem, ⟨14, _⟩ => ⟨S1024x5, .f32⟩
  | .local _ .vmem, ⟨15, _⟩ => ⟨S1024x5, .f32⟩
  | .local _ .vmem, ⟨16, _⟩ => ⟨S1024x1, .f32⟩
  | .local _ .vmem, ⟨17, _⟩ => ⟨S1024x1, .f32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v3 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v4 : Ref sig .tc := ⟨.hbm, 123, rfl⟩
abbrev main_v5 : Ref sig .tc := ⟨.hbm, 124, rfl⟩
abbrev main_v6 : Ref sig .tc := ⟨.hbm, 125, rfl⟩
abbrev main_v7 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x5x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x5 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x128_0 : S65536.BroadcastsInDim S65536x128 (![0] : Fin 1 → Fin S65536x128.rank)
  bcast_S_S65536x128 : S_.BroadcastsInDim S65536x128 (![] : Fin 0 → Fin S65536x128.rank)
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  bcast_S_S65536x5x1 : S_.BroadcastsInDim S65536x5x1 (![] : Fin 0 → Fin S65536x5x1.rank)
  bcast_S1_S1x1x1_2 : S1.BroadcastsInDim S1x1x1 (![2] : Fin 1 → Fin S1x1x1.rank)
  bcast_S1x1x1_S65536x5x1_0_1_2 : S1x1x1.BroadcastsInDim S65536x5x1 (![0, 1, 2] : Fin 3 → Fin S65536x5x1.rank)
  reducesTo_S65536x5x1_S65536x5_d2 : S65536x5x1.ReducesTo [2] S65536x5
  bcast_S65536x5_S65536x5x128_0_1 : S65536x5.BroadcastsInDim S65536x5x128 (![0, 1] : Fin 2 → Fin S65536x5x128.rank)
  bcast_S_S65536x5x128 : S_.BroadcastsInDim S65536x5x128 (![] : Fin 0 → Fin S65536x5x128.rank)
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  bcast_S_S65536x2x1 : S_.BroadcastsInDim S65536x2x1 (![] : Fin 0 → Fin S65536x2x1.rank)
  bcast_S1x1x1_S65536x2x1_0_1_2 : S1x1x1.BroadcastsInDim S65536x2x1 (![0, 1, 2] : Fin 3 → Fin S65536x2x1.rank)
  reducesTo_S65536x2x1_S65536x2_d2 : S65536x2x1.ReducesTo [2] S65536x2
  bcast_S65536x2_S65536x2x128_0_1 : S65536x2.BroadcastsInDim S65536x2x128 (![0, 1] : Fin 2 → Fin S65536x2x128.rank)
  bcast_S_S65536x2x128 : S_.BroadcastsInDim S65536x2x128 (![] : Fin 0 → Fin S65536x2x128.rank)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x5x128_S1024x5x128_0_0_0 : ∀ a, (![0, 0, 0] : Fin 3 → Nat) a + S1024x5x128.size a ≤ S1024x5x128.size a
  h_S1024x5x128 : 0 < S1024x5x128.numel
  shapeCasts_S1024x5x128_S1024x5x128 : S1024x5x128.ShapeCasts S1024x5x128
  inb_S1024x2x128_S1024x2x128_0_0_0 : ∀ a, (![0, 0, 0] : Fin 3 → Nat) a + S1024x2x128.size a ≤ S1024x2x128.size a
  h_S1024x2x128 : 0 < S1024x2x128.numel
  shapeCasts_S1024x2x128_S1024x2x128 : S1024x2x128.ShapeCasts S1024x2x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x5_S1024x5_0_0 : ∀ a, (![0, 0] : Fin 2 → Nat) a + S1024x5.size a ≤ S1024x5.size a
  h_S1024x5 : 0 < S1024x5.numel
  reduces_S1024x128_S1024 : S1024x128.Reduces [1] S1024
  shapeCasts_S1024_S1024x1 : S1024.ShapeCasts S1024x1
  shapeCasts_S1024x128_S1024x1x128 : S1024x128.ShapeCasts S1024x1x128
  broadcasts_S1024x1x128_S1024x5x128 : S1024x1x128.Broadcasts S1024x5x128
  reduces_S1024x5x128_S1024x5 : S1024x5x128.Reduces [2] S1024x5
  reduces_S1024x5_S1024 : S1024x5.Reduces [1] S1024
  broadcasts_S1024x1_S1024x5 : S1024x1.Broadcasts S1024x5
  broadcasts_S1024x1x128_S1024x2x128 : S1024x1x128.Broadcasts S1024x2x128
  reduces_S1024x2x128_S1024x2 : S1024x2x128.Reduces [2] S1024x2
  slices_S1024x5x128_o0_0_0_S1024x1x128 : S1024x5x128.Slices ![0, 0, 0] S1024x1x128
  shapeCasts_S1024x1x128_S1024x128 : S1024x1x128.ShapeCasts S1024x128
  slices_S1024x5_o0_0_S1024x1 : S1024x5.Slices ![0, 0] S1024x1
  broadcasts_S1024x1_S1024x2 : S1024x1.Broadcasts S1024x2
  slices_S1024x5x128_o0_1_0_S1024x1x128 : S1024x5x128.Slices ![0, 1, 0] S1024x1x128
  slices_S1024x5_o0_1_S1024x1 : S1024x5.Slices ![0, 1] S1024x1
  slices_S1024x5x128_o0_2_0_S1024x1x128 : S1024x5x128.Slices ![0, 2, 0] S1024x1x128
  slices_S1024x5_o0_2_S1024x1 : S1024x5.Slices ![0, 2] S1024x1
  slices_S1024x5x128_o0_3_0_S1024x1x128 : S1024x5x128.Slices ![0, 3, 0] S1024x1x128
  slices_S1024x5_o0_3_S1024x1 : S1024x5.Slices ![0, 3] S1024x1
  slices_S1024x5x128_o0_4_0_S1024x1x128 : S1024x5x128.Slices ![0, 4, 0] S1024x1x128
  slices_S1024x5_o0_4_S1024x1 : S1024x5.Slices ![0, 4] S1024x1
  reduces_S1024x2_S1024 : S1024x2.Reduces [1] S1024
  shapeCasts_S65536x1_S65536 : S65536x1.ShapeCasts S65536
  gather_S1000000x128_S65536x1_S65536x128_1_0_n_n_0_1_1128_wf : GatherDims.WF S1000000x128 S65536x1 S65536x128 [1] [0] [] [0] [] 1 ![1, 128]
  gather_S1000000x128_S65536x5x1_S65536x5x128_2_0_n_n_0_2_1128_wf : GatherDims.WF S1000000x128 S65536x5x1 S65536x5x128 [2] [0] [] [0] [] 2 ![1, 128]
  gather_S1000000x128_S65536x2x1_S65536x2x128_2_0_n_n_0_2_1128_wf : GatherDims.WF S1000000x128 S65536x2x1 S65536x2x128 [2] [0] [] [0] [] 2 ![1, 128]
  gather_S1000000x1_S65536x1_S65536x1_1_0_n_n_0_1_11_wf : GatherDims.WF S1000000x1 S65536x1 S65536x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S65536x128.size a
  hwx0_0 : ∀ i : grid0.Coords, EltTy.bits .f32 = 32 ∨ (Rect.block (s := S65536x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S65536x128.size a
  hwx0_1 : ∀ i : grid0.Coords, EltTy.bits .f32 = 32 ∨ (Rect.block (s := S65536x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5x128.size a ≤ S65536x5x128.size a
  hwx0_2 : ∀ i : grid0.Coords, EltTy.bits .f32 = 32 ∨ (Rect.block (s := S65536x5x128) S1024x5x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2x128.size a ≤ S65536x2x128.size a
  hwx0_3 : ∀ i : grid0.Coords, EltTy.bits .f32 = 32 ∨ (Rect.block (s := S65536x2x128) S1024x2x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S65536x1.size a
  hwx0_4 : ∀ i : grid0.Coords, EltTy.bits .f32 = 32 ∨ (Rect.block (s := S65536x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S65536x1.size a
  hwx0_5 : ∀ i : grid0.Coords, EltTy.bits .f32 = 32 ∨ (Rect.block (s := S65536x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x5.size a ≤ S65536x5.size a
  hwx0_6 : ∀ i : grid0.Coords, EltTy.bits .f32 = 32 ∨ (Rect.block (s := S65536x5) S1024x5.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x5.size a ≤ S65536x5.size a
  hwx0_7 : ∀ i : grid0.Coords, EltTy.bits .f32 = 32 ∨ (Rect.block (s := S65536x5) S1024x5.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x1.size a ≤ S65536x1.size a
  hwx0_8 : ∀ i : grid0.Coords, EltTy.bits .f32 = 32 ∨ (Rect.block (s := S65536x1) S1024x1.size (cc0_transform_8 i) (hinb0_8 i)).WholeWords (EltTy.packing .f32)

variable [Facts₀]

def gather_S1000000x128_S65536x1_S65536x128_1_0_n_n_0_1_1128 : GatherDims S1000000x128 S65536x1 S65536x128 where
  offsetDims := [1]
  collapsedSliceDims := [0]
  operandBatchingDims := []
  startIndicesBatchingDims := []
  startIndexMap := [0]
  indexVectorDim := 1
  sliceSizes := ![1, 128]
  wf := gather_S1000000x128_S65536x1_S65536x128_1_0_n_n_0_1_1128_wf
def gather_S1000000x128_S65536x5x1_S65536x5x128_2_0_n_n_0_2_1128 : GatherDims S1000000x128 S65536x5x1 S65536x5x128 where
  offsetDims := [2]
  collapsedSliceDims := [0]
  operandBatchingDims := []
  startIndicesBatchingDims := []
  startIndexMap := [0]
  indexVectorDim := 2
  sliceSizes := ![1, 128]
  wf := gather_S1000000x128_S65536x5x1_S65536x5x128_2_0_n_n_0_2_1128_wf
def gather_S1000000x128_S65536x2x1_S65536x2x128_2_0_n_n_0_2_1128 : GatherDims S1000000x128 S65536x2x1 S65536x2x128 where
  offsetDims := [2]
  collapsedSliceDims := [0]
  operandBatchingDims := []
  startIndicesBatchingDims := []
  startIndexMap := [0]
  indexVectorDim := 2
  sliceSizes := ![1, 128]
  wf := gather_S1000000x128_S65536x2x1_S65536x2x128_2_0_n_n_0_2_1128_wf
def gather_S1000000x1_S65536x1_S65536x1_1_0_n_n_0_1_11 : GatherDims S1000000x1 S65536x1 S65536x1 where
  offsetDims := [1]
  collapsedSliceDims := [0]
  operandBatchingDims := []
  startIndicesBatchingDims := []
  startIndexMap := [0]
  indexVectorDim := 1
  sliceSizes := ![1, 1]
  wf := gather_S1000000x1_S65536x1_S65536x1_1_0_n_n_0_1_11_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x5x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x2x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1024x5.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1024x5.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536 : Shape := ⟨1, ![65536]⟩
abbrev S65536x5 : Shape := ⟨2, ![65536, 5]⟩
abbrev S65536x2 : Shape := ⟨2, ![65536, 2]⟩
abbrev S1000000x128 : Shape := ⟨2, ![1000000, 128]⟩
abbrev S1000000x1 : Shape := ⟨2, ![1000000, 1]⟩
abbrev S_ : Shape := ⟨0, ![]⟩
abbrev S65536x1 : Shape := ⟨2, ![65536, 1]⟩
abbrev S1 : Shape := ⟨1, ![1]⟩
abbrev S1x1 : Shape := ⟨2, ![1, 1]⟩
abbrev S65536x128 : Shape := ⟨2, ![65536, 128]⟩
abbrev S65536x5x1 : Shape := ⟨3, ![65536, 5, 1]⟩
abbrev S1x1x1 : Shape := ⟨3, ![1, 1, 1]⟩
abbrev S65536x5x128 : Shape := ⟨3, ![65536, 5, 128]⟩
abbrev S65536x2x1 : Shape := ⟨3, ![65536, 2, 1]⟩
abbrev S65536x2x128 : Shape := ⟨3, ![65536, 2, 128]⟩
abbrev S65536x1x128 : Shape := ⟨3, ![65536, 1, 128]⟩
abbrev S65536x5x1x128 : Shape := ⟨4, ![65536, 5, 1, 128]⟩
abbrev S65536x1x2x128 : Shape := ⟨4, ![65536, 1, 2, 128]⟩
abbrev S65536x5x2x128 : Shape := ⟨4, ![65536, 5, 2, 128]⟩
abbrev S65536x5x2 : Shape := ⟨3, ![65536, 5, 2]⟩

abbrev nBuf : Space → Nat
  | .hbm => 223
  | .vmem => 0
  | .smem => 0
  | _ => 0

abbrev hbmTy0_0 (i : Nat) : BufTy := match i % 128 with
  | 0 => ⟨S65536, .i32⟩
  | 1 => ⟨S65536, .i32⟩
  | 2 => ⟨S65536, .f32⟩
  | 3 => ⟨S65536x5, .i32⟩
  | 4 => ⟨S65536x5, .f32⟩
  | 5 => ⟨S65536x2, .i32⟩
  | 6 => ⟨S65536x5, .f32⟩
  | 7 => ⟨S1000000x128, .f32⟩
  | 8 => ⟨S1000000x1, .f32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S1, .i32⟩
  | 18 => ⟨S_, .i32⟩
  | 19 => ⟨S65536x1, .i32⟩
  | 20 => ⟨S65536x1, .i1⟩
  | 21 => ⟨S1x1, .i32⟩
  | 22 => ⟨S65536x1, .i32⟩
  | 23 => ⟨S65536x1, .i1⟩
  | 24 => ⟨S65536x1, .i1⟩
  | 25 => ⟨S_, .i1⟩
  | 26 => ⟨S65536, .i1⟩
  | 27 => ⟨S65536x128, .f32⟩
  | 28 => ⟨S65536x128, .i1⟩
  | 29 => ⟨S_, .f32⟩
  | 30 => ⟨S65536x128, .f32⟩
  | 31 => ⟨S65536x128, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S1, .i32⟩
  | 41 => ⟨S_, .i32⟩
  | 42 => ⟨S65536x1, .i32⟩
  | 43 => ⟨S65536x1, .i1⟩
  | 44 => ⟨S1x1, .i32⟩
  | 45 => ⟨S65536x1, .i32⟩
  | 46 => ⟨S65536x1, .i1⟩
  | 47 => ⟨S65536x1, .i1⟩
  | 48 => ⟨S_, .i1⟩
  | 49 => ⟨S65536, .i1⟩
  | 50 => ⟨S65536x128, .f32⟩
  | 51 => ⟨S65536x128, .i1⟩
  | 52 => ⟨S_, .f32⟩
  | 53 => ⟨S65536x128, .f32⟩
  | 54 => ⟨S65536x128, .f32⟩
  | 55 => ⟨S_, .i32⟩
  | 56 => ⟨S65536x5, .i32⟩
  | 57 => ⟨S65536x5, .i1⟩
  | 58 => ⟨S_, .i32⟩
  | 59 => ⟨S65536x5, .i32⟩
  | 60 => ⟨S65536x5, .i32⟩
  | 61 => ⟨S65536x5, .i32⟩
  | 62 => ⟨S65536x5x1, .i32⟩
  | 63 => ⟨S1, .i32⟩
  | 64 => ⟨S_, .i32⟩
  | 65 => ⟨S65536x5x1, .i32⟩
  | 66 => ⟨S65536x5x1, .i1⟩
  | 67 => ⟨S1x1x1, .i32⟩
  | 68 => ⟨S65536x5x1, .i32⟩
  | 69 => ⟨S65536x5x1, .i1⟩
  | 70 => ⟨S65536x5x1, .i1⟩
  | 71 => ⟨S_, .i1⟩
  | 72 => ⟨S65536x5, .i1⟩
  | 73 => ⟨S65536x5x128, .f32⟩
  | 74 => ⟨S65536x5x128, .i1⟩
  | 75 => ⟨S_, .f32⟩
  | 76 => ⟨S65536x5x128, .f32⟩
  | 77 => ⟨S65536x5x128, .f32⟩
  | 78 => ⟨S_, .i32⟩
  | 79 => ⟨S65536x2, .i32⟩
  | 80 => ⟨S65536x2, .i1⟩
  | 81 => ⟨S_, .i32⟩
  | 82 => ⟨S65536x2, .i32⟩
  | 83 => ⟨S65536x2, .i32⟩
  | 84 => ⟨S65536x2, .i32⟩
  | 85 => ⟨S65536x2x1, .i32⟩
  | 86 => ⟨S1, .i32⟩
  | 87 => ⟨S_, .i32⟩
  | 88 => ⟨S65536x2x1, .i32⟩
  | 89 => ⟨S65536x2x1, .i1⟩
  | 90 => ⟨S1x1x1, .i32⟩
  | 91 => ⟨S65536x2x1, .i32⟩
  | 92 => ⟨S65536x2x1, .i1⟩
  | 93 => ⟨S65536x2x1, .i1⟩
  | 94 => ⟨S_, .i1⟩
  | 95 => ⟨S65536x2, .i1⟩
  | 96 => ⟨S65536x2x128, .f32⟩
  | 97 => ⟨S65536x2x128, .i1⟩
  | 98 => ⟨S_, .f32⟩
  | 99 => ⟨S65536x2x128, .f32⟩
  | 100 => ⟨S65536x2x128, .f32⟩
  | 101 => ⟨S_, .i32⟩
  | 102 => ⟨S65536, .i32⟩
  | 103 => ⟨S65536, .i1⟩
  | 104 => ⟨S_, .i32⟩
  | 105 => ⟨S65536, .i32⟩
  | 106 => ⟨S65536, .i32⟩
  | 107 => ⟨S65536, .i32⟩
  | 108 => ⟨S65536x1, .i32⟩
  | 109 => ⟨S1, .i32⟩
  | 110 => ⟨S_, .i32⟩
  | 111 => ⟨S65536x1, .i32⟩
  | 112 => ⟨S65536x1, .i1⟩
  | 113 => ⟨S1x1, .i32⟩
  | 114 => ⟨S65536x1, .i32⟩
  | 115 => ⟨S65536x1, .i1⟩
  | 116 => ⟨S65536x1, .i1⟩
  | 117 => ⟨S_, .i1⟩
  | 118 => ⟨S65536, .i1⟩
  | 119 => ⟨S65536x1, .f32⟩
  | 120 => ⟨S65536x1, .i1⟩
  | 121 => ⟨S_, .f32⟩
  | 122 => ⟨S65536x1, .f32⟩
  | 123 => ⟨S65536x1, .f32⟩
  | 124 => ⟨S65536x1, .f32⟩
  | 125 => ⟨S65536x5, .f32⟩
  | 126 => ⟨S65536x5, .f32⟩
  | 127 => ⟨S65536x5, .f32⟩
  | _ => ⟨S65536, .i32⟩

abbrev hbmTy0_1 (i : Nat) : BufTy := match i % 128 with
  | 0 => ⟨S65536x128, .f32⟩
  | 1 => ⟨S65536x128, .f32⟩
  | 2 => ⟨S_, .f32⟩
  | 3 => ⟨S65536, .f32⟩
  | 4 => ⟨S65536, .f32⟩
  | 5 => ⟨S65536x1x128, .f32⟩
  | 6 => ⟨S65536x5x128, .f32⟩
  | 7 => ⟨S65536x5x128, .f32⟩
  | 8 => ⟨S65536x5x128, .f32⟩
  | 9 => ⟨S_, .f32⟩
  | 10 => ⟨S65536x5, .f32⟩
  | 11 => ⟨S65536x5, .f32⟩
  | 12 => ⟨S_, .f32⟩
  | 13 => ⟨S65536, .f32⟩
  | 14 => ⟨S_, .f32⟩
  | 15 => ⟨S65536, .f32⟩
  | 16 => ⟨S65536, .f32⟩
  | 17 => ⟨S65536x1, .f32⟩
  | 18 => ⟨S65536x5, .f32⟩
  | 19 => ⟨S65536x5, .f32⟩
  | 20 => ⟨S65536x5, .f32⟩
  | 21 => ⟨S_, .f32⟩
  | 22 => ⟨S65536, .f32⟩
  | 23 => ⟨S65536x1, .f32⟩
  | 24 => ⟨S65536x5, .f32⟩
  | 25 => ⟨S65536x5, .f32⟩
  | 26 => ⟨S65536x5, .f32⟩
  | 27 => ⟨S65536x5, .f32⟩
  | 28 => ⟨S65536x5, .f32⟩
  | 29 => ⟨S65536x5, .f32⟩
  | 30 => ⟨S65536x5, .f32⟩
  | 31 => ⟨S65536x5, .f32⟩
  | 32 => ⟨S_, .f32⟩
  | 33 => ⟨S65536, .f32⟩
  | 34 => ⟨S65536, .f32⟩
  | 35 => ⟨S65536x1x128, .f32⟩
  | 36 => ⟨S65536x2x128, .f32⟩
  | 37 => ⟨S65536x2x128, .f32⟩
  | 38 => ⟨S65536x2x128, .f32⟩
  | 39 => ⟨S_, .f32⟩
  | 40 => ⟨S65536x2, .f32⟩
  | 41 => ⟨S65536x2, .f32⟩
  | 42 => ⟨S65536x5x1x128, .f32⟩
  | 43 => ⟨S65536x1x2x128, .f32⟩
  | 44 => ⟨S65536x5x2x128, .f32⟩
  | 45 => ⟨S65536x5x2x128, .f32⟩
  | 46 => ⟨S65536x5x2x128, .f32⟩
  | 47 => ⟨S65536x5x2x128, .f32⟩
  | 48 => ⟨S_, .f32⟩
  | 49 => ⟨S65536x5x2, .f32⟩
  | 50 => ⟨S65536x5x2, .f32⟩
  | 51 => ⟨S65536x5x1, .f32⟩
  | 52 => ⟨S65536x5x2, .f32⟩
  | 53 => ⟨S65536x5x2, .f32⟩
  | 54 => ⟨S65536x5x1, .f32⟩
  | 55 => ⟨S65536x5x2, .f32⟩
  | 56 => ⟨S65536x5x2, .f32⟩
  | 57 => ⟨S_, .f32⟩
  | 58 => ⟨S65536x2, .f32⟩
  | 59 => ⟨S65536x2, .f32⟩
  | 60 => ⟨S65536, .f32⟩
  | 61 => ⟨S_, .f32⟩
  | 62 => ⟨S65536, .f32⟩
  | 63 => ⟨S65536, .f32⟩
  | 64 => ⟨S65536, .f32⟩
  | 65 => ⟨S65536, .f32⟩
  | 66 => ⟨S65536, .i1⟩
  | 67 => ⟨S65536, .f32⟩
  | 68 => ⟨S65536, .f32⟩
  | 69 => ⟨S65536, .f32⟩
  | 70 => ⟨S65536, .f32⟩
  | 71 => ⟨S65536, .f32⟩
  | 72 => ⟨S65536, .f32⟩
  | 73 => ⟨S65536, .f32⟩
  | 74 => ⟨S65536, .f32⟩
  | 75 => ⟨S65536, .f32⟩
  | 76 => ⟨S65536x2, .f32⟩
  | 77 => ⟨S_, .f32⟩
  | 78 => ⟨S65536x2, .f32⟩
  | 79 => ⟨S65536x2, .f32⟩
  | 80 => ⟨S65536x2, .f32⟩
  | 81 => ⟨S65536x2, .f32⟩
  | 82 => ⟨S65536x2, .i1⟩
  | 83 => ⟨S65536x2, .f32⟩
  | 84 => ⟨S65536x2, .f32⟩
  | 85 => ⟨S65536x2, .f32⟩
  | 86 => ⟨S65536x2, .f32⟩
  | 87 => ⟨S65536x2, .f32⟩
  | 88 => ⟨S65536x2, .f32⟩
  | 89 => ⟨S65536x2, .f32⟩
  | 90 => ⟨S65536x2, .f32⟩
  | 91 => ⟨S65536x2, .f32⟩
  | 92 => ⟨S_, .f32⟩
  | 93 => ⟨S65536, .f32⟩
  | 94 => ⟨S65536, .f32⟩
  | _ => ⟨S65536, .i32⟩

abbrev hbmTy (i : Nat) : BufTy := match i / 128 with
  | 0 => hbmTy0_0 i
  | 1 => hbmTy0_1 i
  | _ => ⟨S65536, .i32⟩

abbrev bufTy : (tb : Table) → Fin (tcTables nBuf tb) → BufTy
  | .hbm, ⟨i, _⟩ => hbmTy i
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v1 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v2 : Ref sig .tc := ⟨.hbm, 77, rfl⟩
abbrev main_call3_c : Ref sig .tc := ⟨.hbm, 78, rfl⟩
abbrev main_call3_v0 : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_c_1 : Ref sig .tc := ⟨.hbm, 86, rfl⟩
abbrev main_call3_c_2 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_3 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_call3_cst : Ref sig .tc := ⟨.hbm, 98, rfl⟩
abbrev main_call3_v15 : Ref sig .tc := ⟨.hbm, 99, rfl⟩
abbrev main_v3 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_v14 : Ref sig .tc := ⟨.hbm, 120, rfl⟩
abbrev main_call4_cst : Ref sig .tc := ⟨.hbm, 121, rfl⟩
abbrev main_call4_v15 : Ref sig .tc := ⟨.hbm, 122, rfl⟩
abbrev main_v4 : Ref sig .tc := ⟨.hbm, 123, rfl⟩
abbrev main_v5 : Ref sig .tc := ⟨.hbm, 124, rfl⟩
abbrev main_v6 : Ref sig .tc := ⟨.hbm, 125, rfl⟩
abbrev main_v7 : Ref sig .tc := ⟨.hbm, 126, rfl⟩
abbrev main_v8 : Ref sig .tc := ⟨.hbm, 127, rfl⟩
abbrev main_v9 : Ref sig .tc := ⟨.hbm, 128, rfl⟩
abbrev main_v10 : Ref sig .tc := ⟨.hbm, 129, rfl⟩
abbrev main_cst : Ref sig .tc := ⟨.hbm, 130, rfl⟩
abbrev main_v11 : Ref sig .tc := ⟨.hbm, 131, rfl⟩
abbrev main_v12 : Ref sig .tc := ⟨.hbm, 132, rfl⟩
abbrev main_v13 : Ref sig .tc := ⟨.hbm, 133, rfl⟩
abbrev main_v14 : Ref sig .tc := ⟨.hbm, 134, rfl⟩
abbrev main_v15 : Ref sig .tc := ⟨.hbm, 135, rfl⟩
abbrev main_v16 : Ref sig .tc := ⟨.hbm, 136, rfl⟩
abbrev main_cst_0 : Ref sig .tc := ⟨.hbm, 137, rfl⟩
abbrev main_v17 : Ref sig .tc := ⟨.hbm, 138, rfl⟩
abbrev main_v18 : Ref sig .tc := ⟨.hbm, 139, rfl⟩
abbrev main_cst_1 : Ref sig .tc := ⟨.hbm, 140, rfl⟩
abbrev main_v19 : Ref sig .tc := ⟨.hbm, 141, rfl⟩
abbrev main_cst_2 : Ref sig .tc := ⟨.hbm, 142, rfl⟩
abbrev main_v20 : Ref sig .tc := ⟨.hbm, 143, rfl⟩
abbrev main_v21 : Ref sig .tc := ⟨.hbm, 144, rfl⟩
abbrev main_v22 : Ref sig .tc := ⟨.hbm, 145, rfl⟩
abbrev main_v23 : Ref sig .tc := ⟨.hbm, 146, rfl⟩
abbrev main_v24 : Ref sig .tc := ⟨.hbm, 147, rfl⟩
abbrev main_v25 : Ref sig .tc := ⟨.hbm, 148, rfl⟩
abbrev main_cst_3 : Ref sig .tc := ⟨.hbm, 149, rfl⟩
abbrev main_v26 : Ref sig .tc := ⟨.hbm, 150, rfl⟩
abbrev main_v27 : Ref sig .tc := ⟨.hbm, 151, rfl⟩
abbrev main_v28 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_cst_4 : Ref sig .tc := ⟨.hbm, 160, rfl⟩
abbrev main_v36 : Ref sig .tc := ⟨.hbm, 161, rfl⟩
abbrev main_v37 : Ref sig .tc := ⟨.hbm, 162, rfl⟩
abbrev main_v38 : Ref sig .tc := ⟨.hbm, 163, rfl⟩
abbrev main_v39 : Ref sig .tc := ⟨.hbm, 164, rfl⟩
abbrev main_v40 : Ref sig .tc := ⟨.hbm, 165, rfl⟩
abbrev main_v41 : Ref sig .tc := ⟨.hbm, 166, rfl⟩
abbrev main_cst_5 : Ref sig .tc := ⟨.hbm, 167, rfl⟩
abbrev main_v42 : Ref sig .tc := ⟨.hbm, 168, rfl⟩
abbrev main_v43 : Ref sig .tc := ⟨.hbm, 169, rfl⟩
abbrev main_v44 : Ref sig .tc := ⟨.hbm, 170, rfl⟩
abbrev main_v45 : Ref sig .tc := ⟨.hbm, 171, rfl⟩
abbrev main_v46 : Ref sig .tc := ⟨.hbm, 172, rfl⟩
abbrev main_v47 : Ref sig .tc := ⟨.hbm, 173, rfl⟩
abbrev main_v48 : Ref sig .tc := ⟨.hbm, 174, rfl⟩
abbrev main_v49 : Ref sig .tc := ⟨.hbm, 175, rfl⟩
abbrev main_cst_6 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_v55 : Ref sig .tc := ⟨.hbm, 182, rfl⟩
abbrev main_v56 : Ref sig .tc := ⟨.hbm, 183, rfl⟩
abbrev main_v57 : Ref sig .tc := ⟨.hbm, 184, rfl⟩
abbrev main_cst_7 : Ref sig .tc := ⟨.hbm, 185, rfl⟩
abbrev main_v58 : Ref sig .tc := ⟨.hbm, 186, rfl⟩
abbrev main_v59 : Ref sig .tc := ⟨.hbm, 187, rfl⟩
abbrev main_call5_v0 : Ref sig .tc := ⟨.hbm, 188, rfl⟩
abbrev main_call5_call0_cst : Ref sig .tc := ⟨.hbm, 189, rfl⟩
abbrev main_call5_call0_v0 : Ref sig .tc := ⟨.hbm, 190, rfl⟩
abbrev main_call5_call0_v1 : Ref sig .tc := ⟨.hbm, 191, rfl⟩
abbrev main_call5_call0_v2 : Ref sig .tc := ⟨.hbm, 192, rfl⟩
abbrev main_call5_call0_v3 : Ref sig .tc := ⟨.hbm, 193, rfl⟩
abbrev main_call5_call0_v4 : Ref sig .tc := ⟨.hbm, 194, rfl⟩
abbrev main_call5_call0_v5 : Ref sig .tc := ⟨.hbm, 195, rfl⟩
abbrev main_call5_call0_v6 : Ref sig .tc := ⟨.hbm, 196, rfl⟩
abbrev main_call5_call0_v7 : Ref sig .tc := ⟨.hbm, 197, rfl⟩
abbrev main_call5_call0_v8 : Ref sig .tc := ⟨.hbm, 198, rfl⟩
abbrev main_call5_call0_v9 : Ref sig .tc := ⟨.hbm, 199, rfl⟩
abbrev main_call5_call0_v10 : Ref sig .tc := ⟨.hbm, 200, rfl⟩
abbrev main_call5_call0_v11 : Ref sig .tc := ⟨.hbm, 201, rfl⟩
abbrev main_call5_v1 : Ref sig .tc := ⟨.hbm, 202, rfl⟩
abbrev main_v60 : Ref sig .tc := ⟨.hbm, 203, rfl⟩
abbrev main_call6_v0 : Ref sig .tc := ⟨.hbm, 204, rfl⟩
abbrev main_call6_call0_cst : Ref sig .tc := ⟨.hbm, 205, rfl⟩
abbrev main_call6_call0_v0 : Ref sig .tc := ⟨.hbm, 206, rfl⟩
abbrev main_call6_call0_v1 : Ref sig .tc := ⟨.hbm, 207, rfl⟩
abbrev main_call6_call0_v2 : Ref sig .tc := ⟨.hbm, 208, rfl⟩
abbrev main_call6_call0_v3 : Ref sig .tc := ⟨.hbm, 209, rfl⟩
abbrev main_call6_call0_v4 : Ref sig .tc := ⟨.hbm, 210, rfl⟩
abbrev main_call6_call0_v5 : Ref sig .tc := ⟨.hbm, 211, rfl⟩
abbrev main_call6_call0_v6 : Ref sig .tc := ⟨.hbm, 212, rfl⟩
abbrev main_call6_call0_v7 : Ref sig .tc := ⟨.hbm, 213, rfl⟩
abbrev main_call6_call0_v8 : Ref sig .tc := ⟨.hbm, 214, rfl⟩
abbrev main_call6_call0_v9 : Ref sig .tc := ⟨.hbm, 215, rfl⟩
abbrev main_call6_call0_v10 : Ref sig .tc := ⟨.hbm, 216, rfl⟩
abbrev main_call6_call0_v11 : Ref sig .tc := ⟨.hbm, 217, rfl⟩
abbrev main_call6_v1 : Ref sig .tc := ⟨.hbm, 218, rfl⟩
abbrev main_v61 : Ref sig .tc := ⟨.hbm, 219, rfl⟩
abbrev main_cst_8 : Ref sig .tc := ⟨.hbm, 220, rfl⟩
abbrev main_v62 : Ref sig .tc := ⟨.hbm, 221, rfl⟩
abbrev main_v63 : Ref sig .tc := ⟨.hbm, 222, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  reducesTo_S65536x1_S65536_d1 : S65536x1.ReducesTo [1] S65536
  h_S_ : 0 < S_.numel
  bcast_S65536_S65536x128_0 : S65536.BroadcastsInDim S65536x128 (![0] : Fin 1 → Fin S65536x128.rank)
  bcast_S_S65536x128 : S_.BroadcastsInDim S65536x128 (![] : Fin 0 → Fin S65536x128.rank)
  bcast_S_S65536x5 : S_.BroadcastsInDim S65536x5 (![] : Fin 0 → Fin S65536x5.rank)
  bcast_S65536x5_S65536x5x1_0_1 : S65536x5.BroadcastsInDim S65536x5x1 (![0, 1] : Fin 2 → Fin S65536x5x1.rank)
  bcast_S_S65536x5x1 : S_.BroadcastsInDim S65536x5x1 (![] : Fin 0 → Fin S65536x5x1.rank)
  bcast_S1_S1x1x1_2 : S1.BroadcastsInDim S1x1x1 (![2] : Fin 1 → Fin S1x1x1.rank)
  bcast_S1x1x1_S65536x5x1_0_1_2 : S1x1x1.BroadcastsInDim S65536x5x1 (![0, 1, 2] : Fin 3 → Fin S65536x5x1.rank)
  reducesTo_S65536x5x1_S65536x5_d2 : S65536x5x1.ReducesTo [2] S65536x5
  bcast_S65536x5_S65536x5x128_0_1 : S65536x5.BroadcastsInDim S65536x5x128 (![0, 1] : Fin 2 → Fin S65536x5x128.rank)
  bcast_S_S65536x5x128 : S_.BroadcastsInDim S65536x5x128 (![] : Fin 0 → Fin S65536x5x128.rank)
  bcast_S_S65536x2 : S_.BroadcastsInDim S65536x2 (![] : Fin 0 → Fin S65536x2.rank)
  bcast_S65536x2_S65536x2x1_0_1 : S65536x2.BroadcastsInDim S65536x2x1 (![0, 1] : Fin 2 → Fin S65536x2x1.rank)
  bcast_S_S65536x2x1 : S_.BroadcastsInDim S65536x2x1 (![] : Fin 0 → Fin S65536x2x1.rank)
  bcast_S1x1x1_S65536x2x1_0_1_2 : S1x1x1.BroadcastsInDim S65536x2x1 (![0, 1, 2] : Fin 3 → Fin S65536x2x1.rank)
  reducesTo_S65536x2x1_S65536x2_d2 : S65536x2x1.ReducesTo [2] S65536x2
  bcast_S65536x2_S65536x2x128_0_1 : S65536x2.BroadcastsInDim S65536x2x128 (![0, 1] : Fin 2 → Fin S65536x2x128.rank)
  bcast_S_S65536x2x128 : S_.BroadcastsInDim S65536x2x128 (![] : Fin 0 → Fin S65536x2x128.rank)
  bcast_S65536x1_S65536x5_0_1 : S65536x1.BroadcastsInDim S65536x5 (![0, 1] : Fin 2 → Fin S65536x5.rank)
  reducesTo_S65536x128_S65536_d1 : S65536x128.ReducesTo [1] S65536
  bcast_S65536x128_S65536x1x128_0_2 : S65536x128.BroadcastsInDim S65536x1x128 (![0, 2] : Fin 2 → Fin S65536x1x128.rank)
  bcast_S65536x1x128_S65536x5x128_0_1_2 : S65536x1x128.BroadcastsInDim S65536x5x128 (![0, 1, 2] : Fin 3 → Fin S65536x5x128.rank)
  reducesTo_S65536x5x128_S65536x5_d2 : S65536x5x128.ReducesTo [2] S65536x5
  reducesTo_S65536x5_S65536_d1 : S65536x5.ReducesTo [1] S65536
  bcast_S65536x1x128_S65536x2x128_0_1_2 : S65536x1x128.BroadcastsInDim S65536x2x128 (![0, 1, 2] : Fin 3 → Fin S65536x2x128.rank)
  reducesTo_S65536x2x128_S65536x2_d2 : S65536x2x128.ReducesTo [2] S65536x2
  bcast_S65536x5x128_S65536x5x1x128_0_1_3 : S65536x5x128.BroadcastsInDim S65536x5x1x128 (![0, 1, 3] : Fin 3 → Fin S65536x5x1x128.rank)
  bcast_S65536x2x128_S65536x1x2x128_0_2_3 : S65536x2x128.BroadcastsInDim S65536x1x2x128 (![0, 2, 3] : Fin 3 → Fin S65536x1x2x128.rank)
  bcast_S65536x5x1x128_S65536x5x2x128_0_1_2_3 : S65536x5x1x128.BroadcastsInDim S65536x5x2x128 (![0, 1, 2, 3] : Fin 4 → Fin S65536x5x2x128.rank)
  bcast_S65536x1x2x128_S65536x5x2x128_0_1_2_3 : S65536x1x2x128.BroadcastsInDim S65536x5x2x128 (![0, 1, 2, 3] : Fin 4 → Fin S65536x5x2x128.rank)
  reducesTo_S65536x5x2x128_S65536x5x2_d3 : S65536x5x2x128.ReducesTo [3] S65536x5x2
  bcast_S65536x5x1_S65536x5x2_0_1_2 : S65536x5x1.BroadcastsInDim S65536x5x2 (![0, 1, 2] : Fin 3 → Fin S65536x5x2.rank)
  reducesTo_S65536x5x2_S65536x2_d1 : S65536x5x2.ReducesTo [1] S65536x2
  reducesTo_S65536x2_S65536_d1 : S65536x2.ReducesTo [1] S65536
  gather_S1000000x128_S65536x1_S65536x128_1_0_n_n_0_1_1128_wf : GatherDims.WF S1000000x128 S65536x1 S65536x128 [1] [0] [] [0] [] 1 ![1, 128]
  gather_S1000000x128_S65536x5x1_S65536x5x128_2_0_n_n_0_2_1128_wf : GatherDims.WF S1000000x128 S65536x5x1 S65536x5x128 [2] [0] [] [0] [] 2 ![1, 128]
  gather_S1000000x128_S65536x2x1_S65536x2x128_2_0_n_n_0_2_1128_wf : GatherDims.WF S1000000x128 S65536x2x1 S65536x2x128 [2] [0] [] [0] [] 2 ![1, 128]
  gather_S1000000x1_S65536x1_S65536x1_1_0_n_n_0_1_11_wf : GatherDims.WF S1000000x1 S65536x1 S65536x1 [1] [0] [] [0] [] 1 ![1, 1]

variable [Facts₀]

def gather_S1000000x128_S65536x1_S65536x128_1_0_n_n_0_1_1128 : GatherDims S1000000x128 S65536x1 S65536x128 where
  offsetDims := [1]
  collapsedSliceDims := [0]
  operandBatchingDims := []
  startIndicesBatchingDims := []
  startIndexMap := [0]
  indexVectorDim := 1
  sliceSizes := ![1, 128]
  wf := gather_S1000000x128_S65536x1_S65536x128_1_0_n_n_0_1_1128_wf
def gather_S1000000x128_S65536x5x1_S65536x5x128_2_0_n_n_0_2_1128 : GatherDims S1000000x128 S65536x5x1 S65536x5x128 where
  offsetDims := [2]
  collapsedSliceDims := [0]
  operandBatchingDims := []
  startIndicesBatchingDims := []
  startIndexMap := [0]
  indexVectorDim := 2
  sliceSizes := ![1, 128]
  wf := gather_S1000000x128_S65536x5x1_S65536x5x128_2_0_n_n_0_2_1128_wf
def gather_S1000000x128_S65536x2x1_S65536x2x128_2_0_n_n_0_2_1128 : GatherDims S1000000x128 S65536x2x1 S65536x2x128 where
  offsetDims := [2]
  collapsedSliceDims := [0]
  operandBatchingDims := []
  startIndicesBatchingDims := []
  startIndexMap := [0]
  indexVectorDim := 2
  sliceSizes := ![1, 128]
  wf := gather_S1000000x128_S65536x2x1_S65536x2x128_2_0_n_n_0_2_1128_wf
def gather_S1000000x1_S65536x1_S65536x1_1_0_n_n_0_1_11 : GatherDims S1000000x1 S65536x1 S65536x1 where
  offsetDims := [1]
  collapsedSliceDims := [0]
  operandBatchingDims := []
  startIndicesBatchingDims := []
  startIndexMap := [0]
  indexVectorDim := 1
  sliceSizes := ![1, 1]
  wf := gather_S1000000x1_S65536x1_S65536x1_1_0_n_n_0_1_11_wf

class Facts : Prop extends Facts₀ where

variable [Facts]
-- ==== Proof.Spec.lean ====
/-
  The loss of one batch row of a temporal network embedding, over the extended reals, and the whole batch's
  loss array as one function `G` of the gathered embedding rows.

  For a row with source embedding `x`, target embedding `y`, five history embeddings `H h`, two negative
  embeddings `N j` (vectors of 128), a decay rate `δ`, an event time `e`, history times `τ h` and a mask `μ h`:
    * `sqd u v` is the squared distance  Σₖ (uₖ − vₖ)²;
    * the attention logits are  α h = −sqd x (H h),  and  `soft α`  is their softmax (shifted by the row maximum
      `rmax α`, the maximum taken from the word of −∞ as both programs take it);
    * the time decay is  `decay δ e τ μ h` = exp(δ · |e − τ h|) · μ h;
    * the positive score is  −sqd x y + Σₕ (soft α h · α h) · decay h,  a negative score
      −sqd x (N j) + Σₕ (soft α h · (−sqd (H h) (N j))) · decay h;
    * `lsig z` = −softplus(−z)  is the log-sigmoid, with softplus y = max y 0 + log(1 + exp(−|y|));
    * the row's loss is  lsig(positive score) − Σⱼ lsig(negative score j).
-/
import Idealize.ShloMosaic.PureOps.Ideal
import Idealize.ShloMosaic.Lib.ValueIdx

noncomputable section

namespace Cert.Htne

open Idealize.ShloMosaic Idealize.ShloMosaic.ValueIdx

/-- The extended real that the word of −∞ denotes (both programs start their row maximum from it). -/
abbrev ninf : EReal := Ideal.ofBits .f32 0xFF800000#32

/-- The squared distance of two vectors of 128 entries. -/
def sqd (u v : Fin 128 → EReal) : EReal := ∑ k : Fin 128, (u k - v k) * (u k - v k)

/-- The maximum of five logits, folded from the word of −∞ and once more compared with it. -/
def rmax (a : Fin 5 → EReal) : EReal := max ninf ((Finset.univ : Finset (Fin 5)).fold max ninf a)

/-- The softmax weight of logit `h` among five. -/
def soft (a : Fin 5 → EReal) (h : Fin 5) : EReal :=
  Ideal.div (Ideal.exp (a h - rmax a)) (∑ h' : Fin 5, Ideal.exp (a h' - rmax a))

/-- The masked time decay of history slot `h`: exp(δ · |e − τ h|) · μ h  (the absolute value as max(t, −t)). -/
def decay (δ e : EReal) (τ μ : Fin 5 → EReal) (h : Fin 5) : EReal :=
  Ideal.exp (δ * max (e - τ h) (-(e - τ h))) * μ h

/-- softplus y = max y 0 + log(1 + exp(−|y|)). -/
def splus (y : EReal) : EReal := max y 0 + Ideal.log1p (Ideal.exp (-(max y (-y))))

/-- The log-sigmoid, −softplus(−z). -/
def lsig (z : EReal) : EReal := -(splus (-z))

/-- The loss of one row. -/
def rowLoss (x y : Fin 128 → EReal) (H : Fin 5 → Fin 128 → EReal) (N : Fin 2 → Fin 128 → EReal)
    (δ e : EReal) (τ μ : Fin 5 → EReal) : EReal :=
  lsig (-(sqd x y) + ∑ h : Fin 5, (soft (fun h => -(sqd x (H h))) h * (-(sqd x (H h)))) * decay δ e τ μ h)
    - ∑ j : Fin 2, lsig (-(sqd x (N j))
        + ∑ h : Fin 5, (soft (fun h => -(sqd x (H h))) h * (-(sqd (H h) (N j)))) * decay δ e τ μ h)

/-- Row `b`'s loss read off the batch's arrays: the gathered source, target, history and negative embeddings,
    the gathered decay rates (a column), the event times, the history times and the mask. -/
def lossAt (X Y : (⟨2, ![65536, 128]⟩ : Shape).Idx → EReal) (Hh : (⟨3, ![65536, 5, 128]⟩ : Shape).Idx → EReal)
    (Nn : (⟨3, ![65536, 2, 128]⟩ : Shape).Idx → EReal) (Dl : (⟨2, ![65536, 1]⟩ : Shape).Idx → EReal)
    (E : (⟨1, ![65536]⟩ : Shape).Idx → EReal) (T M : (⟨2, ![65536, 5]⟩ : Shape).Idx → EReal) (b : Fin 65536) : EReal :=
  rowLoss (fun k => X (ix2 b k)) (fun k => Y (ix2 b k)) (fun h k => Hh (ix3 b h k)) (fun j k => Nn (ix3 b j k))
    (Dl (ix2 b 0)) (E (ix1 b)) (fun h => T (ix2 b h)) (fun h => M (ix2 b h))

/-- The batch's loss array. -/
def G (X Y : (⟨2, ![65536, 128]⟩ : Shape).Idx → EReal) (Hh : (⟨3, ![65536, 5, 128]⟩ : Shape).Idx → EReal)
    (Nn : (⟨3, ![65536, 2, 128]⟩ : Shape).Idx → EReal) (Dl : (⟨2, ![65536, 1]⟩ : Shape).Idx → EReal)
    (E : (⟨1, ![65536]⟩ : Shape).Idx → EReal) (T M : (⟨2, ![65536, 5]⟩ : Shape).Idx → EReal) :
    (⟨1, ![65536]⟩ : Shape).Idx → EReal :=
  fun i => lossAt X Y Hh Nn Dl E T M (i 0)

theorem G_apply (X Y : (⟨2, ![65536, 128]⟩ : Shape).Idx → EReal) (Hh : (⟨3, ![65536, 5, 128]⟩ : Shape).Idx → EReal)
    (Nn : (⟨3, ![65536, 2, 128]⟩ : Shape).Idx → EReal) (Dl : (⟨2, ![65536, 1]⟩ : Shape).Idx → EReal)
    (E : (⟨1, ![65536]⟩ : Shape).Idx → EReal) (T M : (⟨2, ![65536, 5]⟩ : Shape).Idx → EReal) (b : Fin 65536) :
    G X Y Hh Nn Dl E T M (ix1 b) = lossAt X Y Hh Nn Dl E T M b := rfl

end Cert.Htne

end
-- ==== Proof.TakesK.lean ====
/-
  The five row gathers that both programs make before anything else, as pure functions of the table and the ids,
  and the kernel program's arrays at the region's entry as those functions of the launch memory.

  `jnp.take(table, ids, axis=0)` in its lowered form: a negative id is wrapped once by the table's length, the rows are
  gathered at the (clamped) ids, and a row whose wrapped id is outside [0, N-1] is filled with the word 0x7FC00000.
  None of the proof looks inside these functions: the two programs apply the same one to the same arguments.
-/
import proofs.«155322_j32083405701144_2_alg».proof.Proof.Gen.KernelIdeal.Frame
import Idealize.ShloMosaic.Lib.StableHlo.Run

noncomputable section

namespace Cert.KernelIdeal.Hand

open Idealize.ShloMosaic Idealize.ShloMosaic.TcCoe Idealize.ShloMosaic.StableHlo Idealize.SL.Sem Cert.KernelIdeal
open Cert.KernelIdeal.Facts₀ Cert.KernelIdeal.Facts

variable {F : FTy → Type} [FloatOps F]

/-- Whole rows of the [1000000,128] table at 65536 ids. -/
def takeRows (tab : (⟨S1000000x128, .f32⟩ : BufTy).Contents (Elt F)) (ids : (⟨S65536, .i32⟩ : BufTy).Contents (Elt F)) :
    (⟨S65536x128, .f32⟩ : BufTy).Contents (Elt F) :=
  select
    (broadcastInDim S65536x128 ![0] bcast_S65536_S65536x128_0
      (Host.reduce IntOp.andi
        (andi
          (cmpi .sge
            (broadcastInDim S65536x1 ![0] bcast_S65536_S65536x1_0
              (select (cmpi .slt ids (broadcastInDim S65536 ![] bcast_S_S65536 (constantI S_ 32 0#32)))
          (addi ids (broadcastInDim S65536 ![] bcast_S_S65536 (constantI S_ 32 1000000#32))) ids))
            (broadcastInDim S65536x1 ![] bcast_S_S65536x1 (constantI S_ 32 0#32)))
          (cmpi .sle
            (broadcastInDim S65536x1 ![0] bcast_S65536_S65536x1_0
              (select (cmpi .slt ids (broadcastInDim S65536 ![] bcast_S_S65536 (constantI S_ 32 0#32)))
          (addi ids (broadcastInDim S65536 ![] bcast_S_S65536 (constantI S_ 32 1000000#32))) ids))
            (broadcastInDim S65536x1 ![0, 1] bcast_S1x1_S65536x1_0_1 (broadcastInDim S1x1 ![1] bcast_S1_S1x1_1 (constantI S1 32 999999#32)))))
        (constantI S_ 1 1#1) reducesTo_S65536x1_S65536_d1 h_S_))
    (Host.gather gather_S1000000x128_S65536x1_S65536x128_1_0_n_n_0_1_1128 tab
      (broadcastInDim S65536x1 ![0] bcast_S65536_S65536x1_0
        (select (cmpi .slt ids (broadcastInDim S65536 ![] bcast_S_S65536 (constantI S_ 32 0#32)))
          (addi ids (broadcastInDim S65536 ![] bcast_S_S65536 (constantI S_ 32 1000000#32))) ids)))
    (broadcastInDim S65536x128 ![] bcast_S_S65536x128 (constant S_ .f32 0x7FC00000#32))

/-- Whole rows of the [1000000,128] table at a [65536,5] array of ids. -/
def takeRows5 (tab : (⟨S1000000x128, .f32⟩ : BufTy).Contents (Elt F)) (ids : (⟨S65536x5, .i32⟩ : BufTy).Contents (Elt F)) :
    (⟨S65536x5x128, .f32⟩ : BufTy).Contents (Elt F) :=
  select
    (broadcastInDim S65536x5x128 ![0, 1] bcast_S65536x5_S65536x5x128_0_1
      (Host.reduce IntOp.andi
        (andi
          (cmpi .sge
            (broadcastInDim S65536x5x1 ![0, 1] bcast_S65536x5_S65536x5x1_0_1
              (select (cmpi .slt ids (broadcastInDim S65536x5 ![] bcast_S_S65536x5 (constantI S_ 32 0#32)))
          (addi ids (broadcastInDim S65536x5 ![] bcast_S_S65536x5 (constantI S_ 32 1000000#32))) ids))
            (broadcastInDim S65536x5x1 ![] bcast_S_S65536x5x1 (constantI S_ 32 0#32)))
          (cmpi .sle
            (broadcastInDim S65536x5x1 ![0, 1] bcast_S65536x5_S65536x5x1_0_1
              (select (cmpi .slt ids (broadcastInDim S65536x5 ![] bcast_S_S65536x5 (constantI S_ 32 0#32)))
          (addi ids (broadcastInDim S65536x5 ![] bcast_S_S65536x5 (constantI S_ 32 1000000#32))) ids))
            (broadcastInDim S65536x5x1 ![0, 1, 2] bcast_S1x1x1_S65536x5x1_0_1_2 (broadcastInDim S1x1x1 ![2] bcast_S1_S1x1x1_2 (constantI S1 32 999999#32)))))
        (constantI S_ 1 1#1) reducesTo_S65536x5x1_S65536x5_d2 h_S_))
    (Host.gather gather_S1000000x128_S65536x5x1_S65536x5x128_2_0_n_n_0_2_1128 tab
      (broadcastInDim S65536x5x1 ![0, 1] bcast_S65536x5_S65536x5x1_0_1
        (select (cmpi .slt ids (broadcastInDim S65536x5 ![] bcast_S_S65536x5 (constantI S_ 32 0#32)))
          (addi ids (broadcastInDim S65536x5 ![] bcast_S_S65536x5 (constantI S_ 32 1000000#32))) ids)))
    (broadcastInDim S65536x5x128 ![] bcast_S_S65536x5x128 (constant S_ .f32 0x7FC00000#32))

/-- Whole rows of the [1000000,128] table at a [65536,2] array of ids. -/
def takeRows2 (tab : (⟨S1000000x128, .f32⟩ : BufTy).Contents (Elt F)) (ids : (⟨S65536x2, .i32⟩ : BufTy).Contents (Elt F)) :
    (⟨S65536x2x128, .f32⟩ : BufTy).Contents (Elt F) :=
  select
    (broadcastInDim S65536x2x128 ![0, 1] bcast_S65536x2_S65536x2x128_0_1
      (Host.reduce IntOp.andi
        (andi
          (cmpi .sge
            (broadcastInDim S65536x2x1 ![0, 1] bcast_S65536x2_S65536x2x1_0_1
              (select (cmpi .slt ids (broadcastInDim S65536x2 ![] bcast_S_S65536x2 (constantI S_ 32 0#32)))
          (addi ids (broadcastInDim S65536x2 ![] bcast_S_S65536x2 (constantI S_ 32 1000000#32))) ids))
            (broadcastInDim S65536x2x1 ![] bcast_S_S65536x2x1 (constantI S_ 32 0#32)))
          (cmpi .sle
            (broadcastInDim S65536x2x1 ![0, 1] bcast_S65536x2_S65536x2x1_0_1
              (select (cmpi .slt ids (broadcastInDim S65536x2 ![] bcast_S_S65536x2 (constantI S_ 32 0#32)))
          (addi ids (broadcastInDim S65536x2 ![] bcast_S_S65536x2 (constantI S_ 32 1000000#32))) ids))
            (broadcastInDim S65536x2x1 ![0, 1, 2] bcast_S1x1x1_S65536x2x1_0_1_2 (broadcastInDim S1x1x1 ![2] bcast_S1_S1x1x1_2 (constantI S1 32 999999#32)))))
        (constantI S_ 1 1#1) reducesTo_S65536x2x1_S65536x2_d2 h_S_))
    (Host.gather gather_S1000000x128_S65536x2x1_S65536x2x128_2_0_n_n_0_2_1128 tab
      (broadcastInDim S65536x2x1 ![0, 1] bcast_S65536x2_S65536x2x1_0_1
        (select (cmpi .slt ids (broadcastInDim S65536x2 ![] bcast_S_S65536x2 (constantI S_ 32 0#32)))
          (addi ids (broadcastInDim S65536x2 ![] bcast_S_S65536x2 (constantI S_ 32 1000000#32))) ids)))
    (broadcastInDim S65536x2x128 ![] bcast_S_S65536x2x128 (constant S_ .f32 0x7FC00000#32))

/-- The entries of the one-column [1000000,1] table at 65536 ids, as a [65536,1] column. -/
def takeCol (tab : (⟨S1000000x1, .f32⟩ : BufTy).Contents (Elt F)) (ids : (⟨S65536, .i32⟩ : BufTy).Contents (Elt F)) :
    (⟨S65536x1, .f32⟩ : BufTy).Contents (Elt F) :=
  select
    (broadcastInDim S65536x1 ![0] bcast_S65536_S65536x1_0
      (Host.reduce IntOp.andi
        (andi
          (cmpi .sge
            (broadcastInDim S65536x1 ![0] bcast_S65536_S65536x1_0
              (select (cmpi .slt ids (broadcastInDim S65536 ![] bcast_S_S65536 (constantI S_ 32 0#32)))
          (addi ids (broadcastInDim S65536 ![] bcast_S_S65536 (constantI S_ 32 1000000#32))) ids))
            (broadcastInDim S65536x1 ![] bcast_S_S65536x1 (constantI S_ 32 0#32)))
          (cmpi .sle
            (broadcastInDim S65536x1 ![0] bcast_S65536_S65536x1_0
              (select (cmpi .slt ids (broadcastInDim S65536 ![] bcast_S_S65536 (constantI S_ 32 0#32)))
          (addi ids (broadcastInDim S65536 ![] bcast_S_S65536 (constantI S_ 32 1000000#32))) ids))
            (broadcastInDim S65536x1 ![0, 1] bcast_S1x1_S65536x1_0_1 (broadcastInDim S1x1 ![1] bcast_S1_S1x1_1 (constantI S1 32 999999#32)))))
        (constantI S_ 1 1#1) reducesTo_S65536x1_S65536_d1 h_S_))
    (Host.gather gather_S1000000x1_S65536x1_S65536x1_1_0_n_n_0_1_11 tab
      (broadcastInDim S65536x1 ![0] bcast_S65536_S65536x1_0
        (select (cmpi .slt ids (broadcastInDim S65536 ![] bcast_S_S65536 (constantI S_ 32 0#32)))
          (addi ids (broadcastInDim S65536 ![] bcast_S_S65536 (constantI S_ 32 1000000#32))) ids)))
    (broadcastInDim S65536x1 ![] bcast_S_S65536x1 (constant S_ .f32 0x7FC00000#32))

variable (m : (ℓ : Loc nD τ sig) → Buf (Elt F) ℓ)

attribute [local irreducible] Host.reduce Host.gather in
set_option maxRecDepth 8192 in
/-- The array `main_v0` as the region finds it is that gather of the launch memory's table and ids. -/
theorem V_v0 (c : Dev nD) :
    Gen.V m c main_v0 = takeRows (m ((c : Thread nD τ).loc main_arg7)) (m ((c : Thread nD τ).loc main_arg0)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

attribute [local irreducible] Host.reduce Host.gather in
set_option maxRecDepth 8192 in
/-- The array `main_v1` as the region finds it is that gather of the launch memory's table and ids. -/
theorem V_v1 (c : Dev nD) :
    Gen.V m c main_v1 = takeRows (m ((c : Thread nD τ).loc main_arg7)) (m ((c : Thread nD τ).loc main_arg1)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

attribute [local irreducible] Host.reduce Host.gather in
set_option maxRecDepth 8192 in
/-- The array `main_v2` as the region finds it is that gather of the launch memory's table and ids. -/
theorem V_v2 (c : Dev nD) :
    Gen.V m c main_v2 = takeRows5 (m ((c : Thread nD τ).loc main_arg7)) (m ((c : Thread nD τ).loc main_arg3)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

attribute [local irreducible] Host.reduce Host.gather in
set_option maxRecDepth 8192 in
/-- The array `main_v3` as the region finds it is that gather of the launch memory's table and ids. -/
theorem V_v3 (c : Dev nD) :
    Gen.V m c main_v3 = takeRows2 (m ((c : Thread nD τ).loc main_arg7)) (m ((c : Thread nD τ).loc main_arg5)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

attribute [local irreducible] Host.reduce Host.gather in
set_option maxRecDepth 8192 in
/-- The array `main_v4` as the region finds it is that gather of the launch memory's table and ids. -/
theorem V_v4 (c : Dev nD) :
    Gen.V m c main_v4 = takeCol (m ((c : Thread nD τ).loc main_arg8)) (m ((c : Thread nD τ).loc main_arg0)) := by
  dsimp only [Gen.V, Gen.V0]
  simp only [Gen.hostOps0, Gen.hostOps0_1, Gen.hostOps0_2, Gen.hostOps0_3, Gen.hostOps0_4, Gen.hostOps0_5, List.flatten_cons, List.flatten_nil,
    List.append_nil, List.cons_append, List.nil_append]
  after_results_simp
  rfl

end Cert.KernelIdeal.Hand

end
-- ==== Proof.RefOps.lean ====
/-
  The reference program's @main as a straight line of host operations. Its 214 operations are listed in
  order, each called function's operations standing in the call's place over that call's buffers, and cut
  into consecutive pieces named after what they compute (the five gathers of embedding rows, the time
  differences, the squared distances, the softmax, the decay, the scores, the two log-sigmoids, the loss).
  The program is that line (`main_eq`), so every weakly fair execution of it terminates with each buffer at
  the operations' fold over the launch contents (`run_main`).
-/
import proofs.«155322_j32083405701144_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The gather of the source rows (the first call): 23 operations. -/
abbrev opsTakeX : List (HloOp τ sig (Elt F)) :=
  [ StableHlo.TRef.nullary main_call0.c (constantI S_ 32 0#32),
    StableHlo.TRef.unary main_call0.c main_call0.v0 (broadcastInDim S65536 ![] bcast_S_S65536),
    StableHlo.TRef.binary (.of main_arg0 : StableHlo.TRef sig ⟨S65536, .i32⟩) main_call0.v0 main_call0.v1 (cmpi .slt),
    StableHlo.TRef.nullary main_call0.c_0 (constantI S_ 32 1000000#32),
    StableHlo.TRef.unary main_call0.c_0 main_call0.v2 (broadcastInDim S65536 ![] bcast_S_S65536),
    StableHlo.TRef.binary (.of main_arg0 : StableHlo.TRef sig ⟨S65536, .i32⟩) main_call0.v2 main_call0.v3 addi,
    StableHlo.TRef.ternary main_call0.v1 main_call0.v3 (.of main_arg0 : StableHlo.TRef sig ⟨S65536, .i32⟩) main_call0.call0.v0 select,
    StableHlo.TRef.unary main_call0.call0.v0 main_call0.v5 (broadcastInDim S65536x1 ![0] bcast_S65536_S65536x1_0),
    StableHlo.TRef.nullary main_call0.c_1 (constantI S1 32 999999#32),
    StableHlo.TRef.nullary main_call0.c_2 (constantI S_ 32 0#32),
    StableHlo.TRef.unary main_call0.c_2 main_call0.v6 (broadcastInDim S65536x1 ![] bcast_S_S65536x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S65536x1 ![0, 1] bcast_S1x1_S65536x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S65536x1_S65536_d1 h_S_),
    StableHlo.TRef.binary (.of main_arg7 : StableHlo.TRef sig ⟨S1000000x128, .f32⟩) main_call0.v5 main_call0.v13 (fun x i => Host.gather gather_S1000000x128_S65536x1_S65536x128_1_0_n_n_0_1_1128 x i),
    StableHlo.TRef.unary main_call0.v12 main_call0.v14 (broadcastInDim S65536x128 ![0] bcast_S65536_S65536x128_0),
    StableHlo.TRef.nullary main_call0.cst (constant S_ .f32 0x7FC00000#32),
    StableHlo.TRef.unary main_call0.cst main_call0.v15 (broadcastInDim S65536x128 ![] bcast_S_S65536x128),
    StableHlo.TRef.ternary main_call0.v14 main_call0.v13 main_call0.v15 main_call0.v16 select ]

/-- The gather of the target rows (the second call): 23 operations. -/
abbrev opsTakeY : List (HloOp τ sig (Elt F)) :=
  [ StableHlo.TRef.nullary main_call1.c (constantI S_ 32 0#32),
    StableHlo.TRef.unary main_call1.c main_call1.v0 (broadcastInDim S65536 ![] bcast_S_S65536),
    StableHlo.TRef.binary (.of main_arg1 : StableHlo.TRef sig ⟨S65536, .i32⟩) main_call1.v0 main_call1.v1 (cmpi .slt),
    StableHlo.TRef.nullary main_call1.c_0 (constantI S_ 32 1000000#32),
    StableHlo.TRef.unary main_call1.c_0 main_call1.v2 (broadcastInDim S65536 ![] bcast_S_S65536),
    StableHlo.TRef.binary (.of main_arg1 : StableHlo.TRef sig ⟨S65536, .i32⟩) main_call1.v2 main_call1.v3 addi,
    StableHlo.TRef.ternary main_call1.v1 main_call1.v3 (.of main_arg1 : StableHlo.TRef sig ⟨S65536, .i32⟩) main_call1.call0.v0 select,
    StableHlo.TRef.unary main_call1.call0.v0 main_call1.v5 (broadcastInDim S65536x1 ![0] bcast_S65536_S65536x1_0),
    StableHlo.TRef.nullary main_call1.c_1 (constantI S1 32 999999#32),
    StableHlo.TRef.nullary main_call1.c_2 (constantI S_ 32 0#32),
    StableHlo.TRef.unary main_call1.c_2 main_call1.v6 (broadcastInDim S65536x1 ![] bcast_S_S65536x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S65536x1 ![0, 1] bcast_S1x1_S65536x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S65536x1_S65536_d1 h_S_),
    StableHlo.TRef.binary (.of main_arg7 : StableHlo.TRef sig ⟨S1000000x128, .f32⟩) main_call1.v5 main_call1.v13 (fun x i => Host.gather gather_S1000000x128_S65536x1_S65536x128_1_0_n_n_0_1_1128 x i),
    StableHlo.TRef.unary main_call1.v12 main_call1.v14 (broadcastInDim S65536x128 ![0] bcast_S65536_S65536x128_0),
    StableHlo.TRef.nullary main_call1.cst (constant S_ .f32 0x7FC00000#32),
    StableHlo.TRef.unary main_call1.cst main_call1.v15 (broadcastInDim S65536x128 ![] bcast_S_S65536x128),
    StableHlo.TRef.ternary main_call1.v14 main_call1.v13 main_call1.v15 main_call1.v16 select ]

/-- The gather of the history rows (the third call): 23 operations. -/
abbrev opsTakeH : List (HloOp τ sig (Elt F)) :=
  [ StableHlo.TRef.nullary main_call2.c (constantI S_ 32 0#32),
    StableHlo.TRef.unary main_call2.c main_call2.v0 (broadcastInDim S65536x5 ![] bcast_S_S65536x5),
    StableHlo.TRef.binary (.of main_arg3 : StableHlo.TRef sig ⟨S65536x5, .i32⟩) main_call2.v0 main_call2.v1 (cmpi .slt),
    StableHlo.TRef.nullary main_call2.c_0 (constantI S_ 32 1000000#32),
    StableHlo.TRef.unary main_call2.c_0 main_call2.v2 (broadcastInDim S65536x5 ![] bcast_S_S65536x5),
    StableHlo.TRef.binary (.of main_arg3 : StableHlo.TRef sig ⟨S65536x5, .i32⟩) main_call2.v2 main_call2.v3 addi,
    StableHlo.TRef.ternary main_call2.v1 main_call2.v3 (.of main_arg3 : StableHlo.TRef sig ⟨S65536x5, .i32⟩) main_call2.call0.v0 select,
    StableHlo.TRef.unary main_call2.call0.v0 main_call2.v5 (broadcastInDim S65536x5x1 ![0, 1] bcast_S65536x5_S65536x5x1_0_1),
    StableHlo.TRef.nullary main_call2.c_1 (constantI S1 32 999999#32),
    StableHlo.TRef.nullary main_call2.c_2 (constantI S_ 32 0#32),
    StableHlo.TRef.unary main_call2.c_2 main_call2.v6 (broadcastInDim S65536x5x1 ![] bcast_S_S65536x5x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S65536x5x1 ![0, 1, 2] bcast_S1x1x1_S65536x5x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S65536x5x1_S65536x5_d2 h_S_),
    StableHlo.TRef.binary (.of main_arg7 : StableHlo.TRef sig ⟨S1000000x128, .f32⟩) main_call2.v5 main_call2.v13 (fun x i => Host.gather gather_S1000000x128_S65536x5x1_S65536x5x128_2_0_n_n_0_2_1128 x i),
    StableHlo.TRef.unary main_call2.v12 main_call2.v14 (broadcastInDim S65536x5x128 ![0, 1] bcast_S65536x5_S65536x5x128_0_1),
    StableHlo.TRef.nullary main_call2.cst (constant S_ .f32 0x7FC00000#32),
    StableHlo.TRef.unary main_call2.cst main_call2.v15 (broadcastInDim S65536x5x128 ![] bcast_S_S65536x5x128),
    StableHlo.TRef.ternary main_call2.v14 main_call2.v13 main_call2.v15 main_call2.v16 select ]

/-- The gather of the negative rows (the fourth call): 23 operations. -/
abbrev opsTakeN : List (HloOp τ sig (Elt F)) :=
  [ StableHlo.TRef.nullary main_call3.c (constantI S_ 32 0#32),
    StableHlo.TRef.unary main_call3.c main_call3.v0 (broadcastInDim S65536x2 ![] bcast_S_S65536x2),
    StableHlo.TRef.binary (.of main_arg5 : StableHlo.TRef sig ⟨S65536x2, .i32⟩) main_call3.v0 main_call3.v1 (cmpi .slt),
    StableHlo.TRef.nullary main_call3.c_0 (constantI S_ 32 1000000#32),
    StableHlo.TRef.unary main_call3.c_0 main_call3.v2 (broadcastInDim S65536x2 ![] bcast_S_S65536x2),
    StableHlo.TRef.binary (.of main_arg5 : StableHlo.TRef sig ⟨S65536x2, .i32⟩) main_call3.v2 main_call3.v3 addi,
    StableHlo.TRef.ternary main_call3.v1 main_call3.v3 (.of main_arg5 : StableHlo.TRef sig ⟨S65536x2, .i32⟩) main_call3.call0.v0 select,
    StableHlo.TRef.unary main_call3.call0.v0 main_call3.v5 (broadcastInDim S65536x2x1 ![0, 1] bcast_S65536x2_S65536x2x1_0_1),
    StableHlo.TRef.nullary main_call3.c_1 (constantI S1 32 999999#32),
    StableHlo.TRef.nullary main_call3.c_2 (constantI S_ 32 0#32),
    StableHlo.TRef.unary main_call3.c_2 main_call3.v6 (broadcastInDim S65536x2x1 ![] bcast_S_S65536x2x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S65536x2x1 ![0, 1, 2] bcast_S1x1x1_S65536x2x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S65536x2x1_S65536x2_d2 h_S_),
    StableHlo.TRef.binary (.of main_arg7 : StableHlo.TRef sig ⟨S1000000x128, .f32⟩) main_call3.v5 main_call3.v13 (fun x i => Host.gather gather_S1000000x128_S65536x2x1_S65536x2x128_2_0_n_n_0_2_1128 x i),
    StableHlo.TRef.unary main_call3.v12 main_call3.v14 (broadcastInDim S65536x2x128 ![0, 1] bcast_S65536x2_S65536x2x128_0_1),
    StableHlo.TRef.nullary main_call3.cst (constant S_ .f32 0x7FC00000#32),
    StableHlo.TRef.unary main_call3.cst main_call3.v15 (broadcastInDim S65536x2x128 ![] bcast_S_S65536x2x128),
    StableHlo.TRef.ternary main_call3.v14 main_call3.v13 main_call3.v15 main_call3.v16 select ]

/-- The gather of the decay rates (the fifth call): 23 operations. -/
abbrev opsTakeD : List (HloOp τ sig (Elt F)) :=
  [ StableHlo.TRef.nullary main_call4.c (constantI S_ 32 0#32),
    StableHlo.TRef.unary main_call4.c main_call4.v0 (broadcastInDim S65536 ![] bcast_S_S65536),
    StableHlo.TRef.binary (.of main_arg0 : StableHlo.TRef sig ⟨S65536, .i32⟩) main_call4.v0 main_call4.v1 (cmpi .slt),
    StableHlo.TRef.nullary main_call4.c_0 (constantI S_ 32 1000000#32),
    StableHlo.TRef.unary main_call4.c_0 main_call4.v2 (broadcastInDim S65536 ![] bcast_S_S65536),
    StableHlo.TRef.binary (.of main_arg0 : StableHlo.TRef sig ⟨S65536, .i32⟩) main_call4.v2 main_call4.v3 addi,
    StableHlo.TRef.ternary main_call4.v1 main_call4.v3 (.of main_arg0 : StableHlo.TRef sig ⟨S65536, .i32⟩) main_call4.call0.v0 select,
    StableHlo.TRef.unary main_call4.call0.v0 main_call4.v5 (broadcastInDim S65536x1 ![0] bcast_S65536_S65536x1_0),
    StableHlo.TRef.nullary main_call4.c_1 (constantI S1 32 999999#32),
    StableHlo.TRef.nullary main_call4.c_2 (constantI S_ 32 0#32),
    StableHlo.TRef.unary main_call4.c_2 main_call4.v6 (broadcastInDim S65536x1 ![] bcast_S_S65536x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S65536x1 ![0, 1] bcast_S1x1_S65536x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S65536x1_S65536_d1 h_S_),
    StableHlo.TRef.binary (.of main_arg8 : StableHlo.TRef sig ⟨S1000000x1, .f32⟩) main_call4.v5 main_call4.v13 (fun x i => Host.gather gather_S1000000x1_S65536x1_S65536x1_1_0_n_n_0_1_11 x i),
    StableHlo.TRef.unary main_call4.v12 main_call4.v14 (broadcastInDim S65536x1 ![0] bcast_S65536_S65536x1_0),
    StableHlo.TRef.nullary main_call4.cst (constant S_ .f32 0x7FC00000#32),
    StableHlo.TRef.unary main_call4.cst main_call4.v15 (broadcastInDim S65536x1 ![] bcast_S_S65536x1),
    StableHlo.TRef.ternary main_call4.v14 main_call4.v13 main_call4.v15 main_call4.v16 select ]

/-- The time differences |e - t|: 4 operations. -/
abbrev opsDt : List (HloOp τ sig (Elt F)) :=
  [ StableHlo.unary main_arg2 main_v5 (broadcastInDim S65536x1 ![0] bcast_S65536_S65536x1_0 : (⟨S65536, .f32⟩ : BufTy).Contents (Elt F) → (⟨S65536x1, .f32⟩ : BufTy).Contents (Elt F)),
    StableHlo.unary main_v5 main_v6 (broadcastInDim S65536x5 ![0, 1] bcast_S65536x1_S65536x5_0_1 : (⟨S65536x1, .f32⟩ : BufTy).Contents (Elt F) → (⟨S65536x5, .f32⟩ : BufTy).Contents (Elt F)),
    StableHlo.binary main_v6 main_arg4 main_v7 (subf : (⟨S65536x5, .f32⟩ : BufTy).Contents (Elt F) → (⟨S65536x5, .f32⟩ : BufTy).Contents (Elt F) → (⟨S65536x5, .f32⟩ : BufTy).Contents (Elt F)),
    StableHlo.unary main_v7 main_v8 (Host.absf : (⟨S65536x5, .f32⟩ : BufTy).Contents (Elt F) → (⟨S65536x5, .f32⟩ : BufTy).Contents (Elt F)) ]

/-- Minus the squared distance of source and target: 5 operations. -/
abbrev opsPmu : List (HloOp τ sig (Elt F)) :=
  [ StableHlo.binary main_v0 main_v1 main_v9 (subf : (⟨S65536x128, .f32⟩ : BufTy).Contents (Elt F) → (⟨S65536x128, .f32⟩ : BufTy).Contents (Elt F) → (⟨S65536x128, .f32⟩ : BufTy).Contents (Elt F)),
    StableHlo.binary main_v9 main_v9 main_v10 (mulf : (⟨S65536x128, .f32⟩ : BufTy).Contents (Elt F) → (⟨S65536x128, .f32⟩ : BufTy).Contents (Elt F) → (⟨S65536x128, .f32⟩ : BufTy).Contents (Elt F)),
    StableHlo.nullary main_cst (constant S_ .f32 0x00000000#32),
    StableHlo.binary main_v10 main_cst main_v11 ((fun x v => Host.reduceAdd x v reducesTo_S65536x128_S65536_d1 h_S_) : (⟨S65536x128, .f32⟩ : BufTy).Contents (Elt F) → (⟨S_, .f32⟩ : BufTy).Contents (Elt F) → (⟨S65536, .f32⟩ : BufTy).Contents (Elt F)),
    StableHlo.unary main_v11 main_v12 (Host.negf : (⟨S65536, .f32⟩ : BufTy).Contents (Elt F) → (⟨S65536, .f32⟩ : BufTy).Contents (Elt F)) ]

/-- The attention logits, minus the squared distances of source and history: 7 operations. -/
abbrev opsAlpha : List (HloOp τ sig (Elt F)) :=
  [ StableHlo.unary main_v0 main_v13 (broadcastInDim S65536x1x128 ![0, 2] bcast_S65536x128_S65536x1x128_0_2 : (⟨S65536x128, .f32⟩ : BufTy).Contents (Elt F) → (⟨S65536x1x128, .f32⟩ : BufTy).Contents (Elt F)),
    StableHlo.unary main_v13 main_v14 (broadcastInDim S65536x5x128 ![0, 1, 2] bcast_S65536x1x128_S65536x5x128_0_1_2 : (⟨S65536x1x128, .f32⟩ : BufTy).Contents (Elt F) → (⟨S65536x5x128, .f32⟩ : BufTy).Contents (Elt F)),
    StableHlo.binary main_v14 main_v2 main_v15 (subf : (⟨S65536x5x128, .f32⟩ : BufTy).Contents (Elt F) → (⟨S65536x5x128, .f32⟩ : BufTy).Contents (Elt F) → (⟨S65536x5x128, .f32⟩ : BufTy).Contents (Elt F)),
    StableHlo.binary main_v15 main_v15 main_v16 (mulf : (⟨S65536x5x128, .f32⟩ : BufTy).Contents (Elt F) → (⟨S65536x5x128, .f32⟩ : BufTy).Contents (Elt F) → (⟨S65536x5x128, .f32⟩ : BufTy).Contents (Elt F)),
    StableHlo.nullary main_cst_0 (constant S_ .f32 0x00000000#32),
    StableHlo.binary main_v16 main_cst_0 main_v17 ((fun x v => Host.reduceAdd x v reducesTo_S65536x5x128_S65536x5_d2 h_S_) : (⟨S65536x5x128, .f32⟩ : BufTy).Contents (Elt F) → (⟨S_, .f32⟩ : BufTy).Contents (Elt F) → (⟨S65536x5, .f32⟩ : BufTy).Contents (Elt F)),
    StableHlo.unary main_v17 main_v18 (Host.negf : (⟨S65536x5, .f32⟩ : BufTy).Contents (Elt F) → (⟨S65536x5, .f32⟩ : BufTy).Contents (Elt F)) ]

/-- The softmax of the logits over the five history slots: 14 operations. -/
abbrev opsSoft : List (HloOp τ sig (Elt F)) :=
  [ StableHlo.nullary main_cst_1 (constant S_ .f32 0xFF800000#32),
    StableHlo.binary main_v18 main_cst_1 main_v19 ((fun x v => Host.reduce FloatOps.maximumf x v reducesTo_S65536x5_S65536_d1 h_S_) : (⟨S65536x5, .f32⟩ : BufTy).Contents (Elt F) → (⟨S_, .f32⟩ : BufTy).Contents (Elt F) → (⟨S65536, .f32⟩ : BufTy).Contents (Elt F)),
    StableHlo.nullary main_cst_2 (constant S_ .f32 0xFF800000#32),
    StableHlo.unary main_cst_2 main_v20 (broadcastInDim S65536 ![] bcast_S_S65536 : (⟨S_, .f32⟩ : BufTy).Contents (Elt F) → (⟨S65536, .f32⟩ : BufTy).Contents (Elt F)),
    StableHlo.binary main_v20 main_v19 main_v21 (maximumf : (⟨S65536, .f32⟩ : BufTy).Contents (Elt F) → (⟨S65536, .f32⟩ : BufTy).Contents (Elt F) → (⟨S65536, .f32⟩ : BufTy).Contents (Elt F)),
    StableHlo.unary main_v21 main_v22 (broadcastInDim S65536x1 ![0] bcast_S65536_S65536x1_0 : (⟨S65536, .f32⟩ : BufTy).Contents (Elt F) → (⟨S65536x1, .f32⟩ : BufTy).Contents (Elt F)),
    StableHlo.unary main_v22 main_v23 (broadcastInDim S65536x5 ![0, 1] bcast_S65536x1_S65536x5_0_1 : (⟨S65536x1, .f32⟩ : BufTy).Contents (Elt F) → (⟨S65536x5, .f32⟩ : BufTy).Contents (Elt F)),
    StableHlo.binary main_v18 main_v23 main_v24 (subf : (⟨S65536x5, .f32⟩ : BufTy).Contents (Elt F) → (⟨S65536x5, .f32⟩ : BufTy).Contents (Elt F) → (⟨S65536x5, .f32⟩ : BufTy).Contents (Elt F)),
    StableHlo.unary main_v24 main_v25 (Host.exp : (⟨S65536x5, .f32⟩ : BufTy).Contents (Elt F) → (⟨S65536x5, .f32⟩ : BufTy).Contents (Elt F)),
    StableHlo.nullary main_cst_3 (constant S_ .f32 0x00000000#32),
    StableHlo.binary main_v25 main_cst_3 main_v26 ((fun x v => Host.reduceAdd x v reducesTo_S65536x5_S65536_d1 h_S_) : (⟨S65536x5, .f32⟩ : BufTy).Contents (Elt F) → (⟨S_, .f32⟩ : BufTy).Contents (Elt F) → (⟨S65536, .f32⟩ : BufTy).Contents (Elt F)),
    StableHlo.unary main_v26 main_v27 (broadcastInDim S65536x1 ![0] bcast_S65536_S65536x1_0 : (⟨S65536, .f32⟩ : BufTy).Contents (Elt F) → (⟨S65536x1, .f32⟩ : BufTy).Contents (Elt F)),
    StableHlo.unary main_v27 main_v28 (broadcastInDim S65536x5 ![0, 1] bcast_S65536x1_S65536x5_0_1 : (⟨S65536x1, .f32⟩ : BufTy).Contents (Elt F) → (⟨S65536x5, .f32⟩ : BufTy).Contents (Elt F)),
    StableHlo.binary main_v25 main_v28 main_v29 (Host.divf : (⟨S65536x5, .f32⟩ : BufTy).Contents (Elt F) → (⟨S65536x5, .f32⟩ : BufTy).Contents (Elt F) → (⟨S65536x5, .f32⟩ : BufTy).Contents (Elt F)) ]

/-- The masked time decay: 4 operations. -/
abbrev opsDecay : List (HloOp τ sig (Elt F)) :=
  [ StableHlo.unary main_v4 main_v30 (broadcastInDim S65536x5 ![0, 1] bcast_S65536x1_S65536x5_0_1 : (⟨S65536x1, .f32⟩ : BufTy).Contents (Elt F) → (⟨S65536x5, .f32⟩ : BufTy).Contents (Elt F)),
    StableHlo.binary main_v30 main_v8 main_v31 (mulf : (⟨S65536x5, .f32⟩ : BufTy).Contents (Elt F) → (⟨S65536x5, .f32⟩ : BufTy).Contents (Elt F) → (⟨S65536x5, .f32⟩ : BufTy).Contents (Elt F)),
    StableHlo.unary main_v31 main_v32 (Host.exp : (⟨S65536x5, .f32⟩ : BufTy).Contents (Elt F) → (⟨S65536x5, .f32⟩ : BufTy).Contents (Elt F)),
    StableHlo.binary main_v32 main_arg6 main_v33 (mulf : (⟨S65536x5, .f32⟩ : BufTy).Contents (Elt F) → (⟨S65536x5, .f32⟩ : BufTy).Contents (Elt F) → (⟨S65536x5, .f32⟩ : BufTy).Contents (Elt F)) ]

/-- The positive score: 5 operations. -/
abbrev opsPlam : List (HloOp τ sig (Elt F)) :=
  [ StableHlo.binary main_v29 main_v18 main_v34 (mulf : (⟨S65536x5, .f32⟩ : BufTy).Contents (Elt F) → (⟨S65536x5, .f32⟩ : BufTy).Contents (Elt F) → (⟨S65536x5, .f32⟩ : BufTy).Contents (Elt F)),
    StableHlo.binary main_v34 main_v33 main_v35 (mulf : (⟨S65536x5, .f32⟩ : BufTy).Contents (Elt F) → (⟨S65536x5, .f32⟩ : BufTy).Contents (Elt F) → (⟨S65536x5, .f32⟩ : BufTy).Contents (Elt F)),
    StableHlo.nullary main_cst_4 (constant S_ .f32 0x00000000#32),
    StableHlo.binary main_v35 main_cst_4 main_v36 ((fun x v => Host.reduceAdd x v reducesTo_S65536x5_S65536_d1 h_S_) : (⟨S65536x5, .f32⟩ : BufTy).Contents (Elt F) → (⟨S_, .f32⟩ : BufTy).Contents (Elt F) → (⟨S65536, .f32⟩ : BufTy).Contents (Elt F)),
    StableHlo.binary main_v12 main_v36 main_v37 (addf : (⟨S65536, .f32⟩ : BufTy).Contents (Elt F) → (⟨S65536, .f32⟩ : BufTy).Contents (Elt F) → (⟨S65536, .f32⟩ : BufTy).Contents (Elt F)) ]

/-- Minus the squared distances of source and negatives: 7 operations. -/
abbrev opsNmu : List (HloOp τ sig (Elt F)) :=
  [ StableHlo.unary main_v0 main_v38 (broadcastInDim S65536x1x128 ![0, 2] bcast_S65536x128_S65536x1x128_0_2 : (⟨S65536x128, .f32⟩ : BufTy).Contents (Elt F) → (⟨S65536x1x128, .f32⟩ : BufTy).Contents (Elt F)),
    StableHlo.unary main_v38 main_v39 (broadcastInDim S65536x2x128 ![0, 1, 2] bcast_S65536x1x128_S65536x2x128_0_1_2 : (⟨S65536x1x128, .f32⟩ : BufTy).Contents (Elt F) → (⟨S65536x2x128, .f32⟩ : BufTy).Contents (Elt F)),
    StableHlo.binary main_v39 main_v3 main_v40 (subf : (⟨S65536x2x128, .f32⟩ : BufTy).Contents (Elt F) → (⟨S65536x2x128, .f32⟩ : BufTy).Contents (Elt F) → (⟨S65536x2x128, .f32⟩ : BufTy).Contents (Elt F)),
    StableHlo.binary main_v40 main_v40 main_v41 (mulf : (⟨S65536x2x128, .f32⟩ : BufTy).Contents (Elt F) → (⟨S65536x2x128, .f32⟩ : BufTy).Contents (Elt F) → (⟨S65536x2x128, .f32⟩ : BufTy).Contents (Elt F)),
    StableHlo.nullary main_cst_5 (constant S_ .f32 0x00000000#32),
    StableHlo.binary main_v41 main_cst_5 main_v42 ((fun x v => Host.reduceAdd x v reducesTo_S65536x2x128_S65536x2_d2 h_S_) : (⟨S65536x2x128, .f32⟩ : BufTy).Contents (Elt F) → (⟨S_, .f32⟩ : BufTy).Contents (Elt F) → (⟨S65536x2, .f32⟩ : BufTy).Contents (Elt F)),
    StableHlo.unary main_v42 main_v43 (Host.negf : (⟨S65536x2, .f32⟩ : BufTy).Contents (Elt F) → (⟨S65536x2, .f32⟩ : BufTy).Contents (Elt F)) ]

/-- Minus the squared distances of history and negatives: 9 operations. -/
abbrev opsNalpha : List (HloOp τ sig (Elt F)) :=
  [ StableHlo.unary main_v2 main_v44 (broadcastInDim S65536x5x1x128 ![0, 1, 3] bcast_S65536x5x128_S65536x5x1x128_0_1_3 : (⟨S65536x5x128, .f32⟩ : BufTy).Contents (Elt F) → (⟨S65536x5x1x128, .f32⟩ : BufTy).Contents (Elt F)),
    StableHlo.unary main_v3 main_v45 (broadcastInDim S65536x1x2x128 ![0, 2, 3] bcast_S65536x2x128_S65536x1x2x128_0_2_3 : (⟨S65536x2x128, .f32⟩ : BufTy).Contents (Elt F) → (⟨S65536x1x2x128, .f32⟩ : BufTy).Contents (Elt F)),
    StableHlo.unary main_v44 main_v46 (broadcastInDim S65536x5x2x128 ![0, 1, 2, 3] bcast_S65536x5x1x128_S65536x5x2x128_0_1_2_3 : (⟨S65536x5x1x128, .f32⟩ : BufTy).Contents (Elt F) → (⟨S65536x5x2x128, .f32⟩ : BufTy).Contents (Elt F)),
    StableHlo.unary main_v45 main_v47 (broadcastInDim S65536x5x2x128 ![0, 1, 2, 3] bcast_S65536x1x2x128_S65536x5x2x128_0_1_2_3 : (⟨S65536x1x2x128, .f32⟩ : BufTy).Contents (Elt F) → (⟨S65536x5x2x128, .f32⟩ : BufTy).Contents (Elt F)),
    StableHlo.binary main_v46 main_v47 main_v48 (subf : (⟨S65536x5x2x128, .f32⟩ : BufTy).Contents (Elt F) → (⟨S65536x5x2x128, .f32⟩ : BufTy).Contents (Elt F) → (⟨S65536x5x2x128, .f32⟩ : BufTy).Contents (Elt F)),
    StableHlo.binary main_v48 main_v48 main_v49 (mulf : (⟨S65536x5x2x128, .f32⟩ : BufTy).Contents (Elt F) → (⟨S65536x5x2x128, .f32⟩ : BufTy).Contents (Elt F) → (⟨S65536x5x2x128, .f32⟩ : BufTy).Contents (Elt F)),
    StableHlo.nullary main_cst_6 (constant S_ .f32 0x00000000#32),
    StableHlo.binary main_v49 main_cst_6 main_v50 ((fun x v => Host.reduceAdd x v reducesTo_S65536x5x2x128_S65536x5x2_d3 h_S_) : (⟨S65536x5x2x128, .f32⟩ : BufTy).Contents (Elt F) → (⟨S_, .f32⟩ : BufTy).Contents (Elt F) → (⟨S65536x5x2, .f32⟩ : BufTy).Contents (Elt F)),
    StableHlo.unary main_v50 main_v51 (Host.negf : (⟨S65536x5x2, .f32⟩ : BufTy).Contents (Elt F) → (⟨S65536x5x2, .f32⟩ : BufTy).Contents (Elt F)) ]

/-- The negative scores: 9 operations. -/
abbrev opsNlam : List (HloOp τ sig (Elt F)) :=
  [ StableHlo.unary main_v29 main_v52 (broadcastInDim S65536x5x1 ![0, 1] bcast_S65536x5_S65536x5x1_0_1 : (⟨S65536x5, .f32⟩ : BufTy).Contents (Elt F) → (⟨S65536x5x1, .f32⟩ : BufTy).Contents (Elt F)),
    StableHlo.unary main_v52 main_v53 (broadcastInDim S65536x5x2 ![0, 1, 2] bcast_S65536x5x1_S65536x5x2_0_1_2 : (⟨S65536x5x1, .f32⟩ : BufTy).Contents (Elt F) → (⟨S65536x5x2, .f32⟩ : BufTy).Contents (Elt F)),
    StableHlo.binary main_v53 main_v51 main_v54 (mulf : (⟨S65536x5x2, .f32⟩ : BufTy).Contents (Elt F) → (⟨S65536x5x2, .f32⟩ : BufTy).Contents (Elt F) → (⟨S65536x5x2, .f32⟩ : BufTy).Contents (Elt F)),
    StableHlo.unary main_v33 main_v55 (broadcastInDim S65536x5x1 ![0, 1] bcast_S65536x5_S65536x5x1_0_1 : (⟨S65536x5, .f32⟩ : BufTy).Contents (Elt F) → (⟨S65536x5x1, .f32⟩ : BufTy).Contents (Elt F)),
    StableHlo.unary main_v55 main_v56 (broadcastInDim S65536x5x2 ![0, 1, 2] bcast_S65536x5x1_S65536x5x2_0_1_2 : (⟨S65536x5x1, .f32⟩ : BufTy).Contents (Elt F) → (⟨S65536x5x2, .f32⟩ : BufTy).Contents (Elt F)),
    StableHlo.binary main_v54 main_v56 main_v57 (mulf : (⟨S65536x5x2, .f32⟩ : BufTy).Contents (Elt F) → (⟨S65536x5x2, .f32⟩ : BufTy).Contents (Elt F) → (⟨S65536x5x2, .f32⟩ : BufTy).Contents (Elt F)),
    StableHlo.nullary main_cst_7 (constant S_ .f32 0x00000000#32),
    StableHlo.binary main_v57 main_cst_7 main_v58 ((fun x v => Host.reduceAdd x v reducesTo_S65536x5x2_S65536x2_d1 h_S_) : (⟨S65536x5x2, .f32⟩ : BufTy).Contents (Elt F) → (⟨S_, .f32⟩ : BufTy).Contents (Elt F) → (⟨S65536x2, .f32⟩ : BufTy).Contents (Elt F)),
    StableHlo.binary main_v43 main_v58 main_v59 (addf : (⟨S65536x2, .f32⟩ : BufTy).Contents (Elt F) → (⟨S65536x2, .f32⟩ : BufTy).Contents (Elt F) → (⟨S65536x2, .f32⟩ : BufTy).Contents (Elt F)) ]

/-- The log-sigmoid of the positive score (the sixth call): 16 operations. -/
abbrev opsLsP : List (HloOp τ sig (Elt F)) :=
  [ StableHlo.TRef.unary (.of main_v37 : StableHlo.TRef sig ⟨S65536, .f32⟩) main_call5.v0 Host.negf,
    StableHlo.TRef.nullary main_call5.call0.cst (constant S_ .f32 0x00000000#32),
    StableHlo.TRef.unary main_call5.call0.cst main_call5.call0.v0 (broadcastInDim S65536 ![] bcast_S_S65536),
    StableHlo.TRef.binary main_call5.v0 main_call5.call0.v0 main_call5.call0.v1 maximumf,
    StableHlo.TRef.unary main_call5.call0.cst main_call5.call0.v2 (broadcastInDim S65536 ![] bcast_S_S65536),
    StableHlo.TRef.binary main_call5.v0 main_call5.call0.v2 main_call5.call0.v3 subf,
    StableHlo.TRef.binary main_call5.call0.v3 main_call5.call0.v3 main_call5.call0.v4 (cmpf .une),
    StableHlo.TRef.unary main_call5.call0.cst main_call5.call0.v5 (broadcastInDim S65536 ![] bcast_S_S65536),
    StableHlo.TRef.binary main_call5.v0 main_call5.call0.v5 main_call5.call0.v6 addf,
    StableHlo.TRef.unary main_call5.call0.v3 main_call5.call0.v7 Host.absf,
    StableHlo.TRef.unary main_call5.call0.v7 main_call5.call0.v8 Host.negf,
    StableHlo.TRef.unary main_call5.call0.v8 main_call5.call0.v9 Host.exp,
    StableHlo.TRef.unary main_call5.call0.v9 main_call5.call0.v10 Host.log1p,
    StableHlo.TRef.binary main_call5.call0.v1 main_call5.call0.v10 main_call5.call0.v11 addf,
    StableHlo.TRef.ternary main_call5.call0.v4 main_call5.call0.v6 main_call5.call0.v11 main_call5.call0.v12 select,
    StableHlo.TRef.unary main_call5.call0.v12 main_call5.v2 Host.negf ]

/-- The log-sigmoid of the negative scores (the seventh call): 16 operations. -/
abbrev opsLsN : List (HloOp τ sig (Elt F)) :=
  [ StableHlo.TRef.unary (.of main_v59 : StableHlo.TRef sig ⟨S65536x2, .f32⟩) main_call6.v0 Host.negf,
    StableHlo.TRef.nullary main_call6.call0.cst (constant S_ .f32 0x00000000#32),
    StableHlo.TRef.unary main_call6.call0.cst main_call6.call0.v0 (broadcastInDim S65536x2 ![] bcast_S_S65536x2),
    StableHlo.TRef.binary main_call6.v0 main_call6.call0.v0 main_call6.call0.v1 maximumf,
    StableHlo.TRef.unary main_call6.call0.cst main_call6.call0.v2 (broadcastInDim S65536x2 ![] bcast_S_S65536x2),
    StableHlo.TRef.binary main_call6.v0 main_call6.call0.v2 main_call6.call0.v3 subf,
    StableHlo.TRef.binary main_call6.call0.v3 main_call6.call0.v3 main_call6.call0.v4 (cmpf .une),
    StableHlo.TRef.unary main_call6.call0.cst main_call6.call0.v5 (broadcastInDim S65536x2 ![] bcast_S_S65536x2),
    StableHlo.TRef.binary main_call6.v0 main_call6.call0.v5 main_call6.call0.v6 addf,
    StableHlo.TRef.unary main_call6.call0.v3 main_call6.call0.v7 Host.absf,
    StableHlo.TRef.unary main_call6.call0.v7 main_call6.call0.v8 Host.negf,
    StableHlo.TRef.unary main_call6.call0.v8 main_call6.call0.v9 Host.exp,
    StableHlo.TRef.unary main_call6.call0.v9 main_call6.call0.v10 Host.log1p,
    StableHlo.TRef.binary main_call6.call0.v1 main_call6.call0.v10 main_call6.call0.v11 addf,
    StableHlo.TRef.ternary main_call6.call0.v4 main_call6.call0.v6 main_call6.call0.v11 main_call6.call0.v12 select,
    StableHlo.TRef.unary main_call6.call0.v12 main_call6.v2 Host.negf ]

/-- The loss: the positive term minus the sum of the negative terms: 3 operations. -/
abbrev opsEnd : List (HloOp τ sig (Elt F)) :=
  [ StableHlo.nullary main_cst_8 (constant S_ .f32 0x00000000#32),
    StableHlo.binary main_v61 main_cst_8 main_v62 ((fun x v => Host.reduceAdd x v reducesTo_S65536x2_S65536_d1 h_S_) : (⟨S65536x2, .f32⟩ : BufTy).Contents (Elt F) → (⟨S_, .f32⟩ : BufTy).Contents (Elt F) → (⟨S65536, .f32⟩ : BufTy).Contents (Elt F)),
    StableHlo.binary main_v60 main_v62 main_v63 (subf : (⟨S65536, .f32⟩ : BufTy).Contents (Elt F) → (⟨S65536, .f32⟩ : BufTy).Contents (Elt F) → (⟨S65536, .f32⟩ : BufTy).Contents (Elt F)) ]

/-- @main's 214 operations, in order. -/
abbrev ops : List (HloOp τ sig (Elt F)) :=
  opsTakeX ++ (opsTakeY ++ (opsTakeH ++ (opsTakeN ++ (opsTakeD ++ (opsDt ++ (opsPmu ++ (opsAlpha ++ (opsSoft ++ (opsDecay ++ (opsPlam ++ (opsNmu ++ (opsNalpha ++ (opsNlam ++ (opsLsP ++ (opsLsN ++ (opsEnd))))))))))))))))

/-- Two lines folded one after the other: the second folds over what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole line, piece by piece. -/
theorem after_ops (V : Valuation τ sig (Elt F)) :
    after (ops : List (HloOp τ sig (Elt F))) V = after opsEnd (after opsLsN (after opsLsP (after opsNlam (after opsNalpha (after opsNmu (after opsPlam (after opsDecay (after opsSoft (after opsAlpha (after opsPmu (after opsDt (after opsTakeD (after opsTakeN (after opsTakeH (after opsTakeY (after opsTakeX (V))))))))))))))))) :=
  by simp only [ops, after_append]

/-! A call is its callee's body over the call's buffers: that body, its own call unfolded, is the piece's line. -/

set_option maxRecDepth 8192 in
theorem opsTakeX_eq : fn_take.body (F := F) (.of main_arg7) (.of main_arg0) main_call0 = seq opsTakeX := by
  simp only [fn_take.body, fn_where.body, seq, bind_assoc, pure_bind]
set_option maxRecDepth 8192 in
theorem opsTakeY_eq : fn_take.body (F := F) (.of main_arg7) (.of main_arg1) main_call1 = seq opsTakeY := by
  simp only [fn_take.body, fn_where.body, seq, bind_assoc, pure_bind]
set_option maxRecDepth 8192 in
theorem opsTakeH_eq : fn_take_0.body (F := F) (.of main_arg7) (.of main_arg3) main_call2 = seq opsTakeH := by
  simp only [fn_take_0.body, fn_where_1.body, seq, bind_assoc, pure_bind]
set_option maxRecDepth 8192 in
theorem opsTakeN_eq : fn_take_2.body (F := F) (.of main_arg7) (.of main_arg5) main_call3 = seq opsTakeN := by
  simp only [fn_take_2.body, fn_where_3.body, seq, bind_assoc, pure_bind]
set_option maxRecDepth 8192 in
theorem opsTakeD_eq : fn_take_4.body (F := F) (.of main_arg8) (.of main_arg0) main_call4 = seq opsTakeD := by
  simp only [fn_take_4.body, fn_where.body, seq, bind_assoc, pure_bind]
set_option maxRecDepth 8192 in
theorem opsLsP_eq : fn_log_sigmoid.body (F := F) (.of main_v37) main_call5 = seq opsLsP := by
  simp only [fn_log_sigmoid.body, fn_softplus.body, seq, bind_assoc, pure_bind]
set_option maxRecDepth 8192 in
theorem opsLsN_eq : fn_log_sigmoid_5.body (F := F) (.of main_v59) main_call6 = seq opsLsN := by
  simp only [fn_log_sigmoid_5.body, fn_softplus_6.body, seq, bind_assoc, pure_bind]

set_option maxRecDepth 8192 in
set_option maxHeartbeats 4000000 in
/-- @main's first sixty statements are the first thirteen pieces. -/
theorem part0_eq (c : Dev nD) : main_part0 (F := F) c = seq (opsTakeX ++ (opsTakeY ++ (opsTakeH ++ (opsTakeN ++ (opsTakeD ++ (opsDt ++ (opsPmu ++ (opsAlpha ++ (opsSoft ++ (opsDecay ++ (opsPlam ++ (opsNmu ++ (opsNalpha))))))))))))) := by
  simp only [seq_append, ← opsTakeX_eq, ← opsTakeY_eq, ← opsTakeH_eq, ← opsTakeN_eq, ← opsTakeD_eq]
  rfl

set_option maxRecDepth 8192 in
set_option maxHeartbeats 4000000 in
/-- @main's last fifteen statements are the last four pieces. -/
theorem part1_eq (c : Dev nD) : main_part1 (F := F) c = seq (opsNlam ++ (opsLsP ++ (opsLsN ++ (opsEnd)))) := by
  simp only [seq_append, ← opsLsP_eq, ← opsLsN_eq]
  rfl

/-- @main is the line. -/
theorem main_eq (c : Dev nD) : main (F := F) c = seq ops := by
  simp only [main, ops, part0_eq, part1_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem opsTakeX_sub : (opsTakeX : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsTakeY_sub : (opsTakeY : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsTakeH_sub : (opsTakeH : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsTakeN_sub : (opsTakeN : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsTakeD_sub : (opsTakeD : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
set_option maxRecDepth 8192 in
theorem opsDt_sub : (opsDt : List (HloOp τ sig (Elt F))).Forall fun op => op.bufs ⊆ tcRefs τ sig :=
  ⟨unary_bufs_sub .., unary_bufs_sub .., binary_bufs_sub .., unary_bufs_sub ..⟩
set_option maxRecDepth 8192 in
theorem opsPmu_sub : (opsPmu : List (HloOp τ sig (Elt F))).Forall fun op => op.bufs ⊆ tcRefs τ sig :=
  ⟨binary_bufs_sub .., binary_bufs_sub .., nullary_bufs_sub .., binary_bufs_sub .., unary_bufs_sub ..⟩
set_option maxRecDepth 8192 in
theorem opsAlpha_sub : (opsAlpha : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub ..⟩
set_option maxRecDepth 8192 in
theorem opsSoft_sub : (opsSoft : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem opsDecay_sub : (opsDecay : List (HloOp τ sig (Elt F))).Forall fun op => op.bufs ⊆ tcRefs τ sig :=
  ⟨unary_bufs_sub .., binary_bufs_sub .., unary_bufs_sub .., binary_bufs_sub ..⟩
set_option maxRecDepth 8192 in
theorem opsPlam_sub : (opsPlam : List (HloOp τ sig (Elt F))).Forall fun op => op.bufs ⊆ tcRefs τ sig :=
  ⟨binary_bufs_sub .., binary_bufs_sub .., nullary_bufs_sub .., binary_bufs_sub .., binary_bufs_sub ..⟩
set_option maxRecDepth 8192 in
theorem opsNmu_sub : (opsNmu : List (HloOp τ sig (Elt F))).Forall fun op => op.bufs ⊆ tcRefs τ sig :=
  ⟨unary_bufs_sub .., unary_bufs_sub .., binary_bufs_sub .., binary_bufs_sub .., nullary_bufs_sub .., binary_bufs_sub .., unary_bufs_sub ..⟩
set_option maxRecDepth 8192 in
theorem opsNalpha_sub : (opsNalpha : List (HloOp τ sig (Elt F))).Forall fun op => op.bufs ⊆ tcRefs τ sig :=
  ⟨unary_bufs_sub .., unary_bufs_sub .., unary_bufs_sub .., unary_bufs_sub .., binary_bufs_sub .., binary_bufs_sub .., nullary_bufs_sub .., binary_bufs_sub .., unary_bufs_sub ..⟩
set_option maxRecDepth 8192 in
theorem opsNlam_sub : (opsNlam : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., binary_bufs_sub .., binary_bufs_sub ..⟩
set_option maxRecDepth 8192 in
theorem opsLsP_sub : (opsLsP : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
set_option maxRecDepth 8192 in
theorem opsLsN_sub : (opsLsN : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub ..⟩
set_option maxRecDepth 8192 in
theorem opsEnd_sub : (opsEnd : List (HloOp τ sig (Elt F))).Forall fun op => op.bufs ⊆ tcRefs τ sig :=
  ⟨nullary_bufs_sub .., binary_bufs_sub .., binary_bufs_sub ..⟩

/-- Every operation of the line touches TensorCore buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h | h | h | h | h
    exacts [List.forall_iff_forall_mem.mp opsTakeX_sub op h, List.forall_iff_forall_mem.mp opsTakeY_sub op h, List.forall_iff_forall_mem.mp opsTakeH_sub op h, List.forall_iff_forall_mem.mp opsTakeN_sub op h, List.forall_iff_forall_mem.mp opsTakeD_sub op h, List.forall_iff_forall_mem.mp opsDt_sub op h, List.forall_iff_forall_mem.mp opsPmu_sub op h, List.forall_iff_forall_mem.mp opsAlpha_sub op h, List.forall_iff_forall_mem.mp opsSoft_sub op h, List.forall_iff_forall_mem.mp opsDecay_sub op h, List.forall_iff_forall_mem.mp opsPlam_sub op h, List.forall_iff_forall_mem.mp opsNmu_sub op h, List.forall_iff_forall_mem.mp opsNalpha_sub op h, List.forall_iff_forall_mem.mp opsNlam_sub op h, List.forall_iff_forall_mem.mp opsLsP_sub op h, List.forall_iff_forall_mem.mp opsLsN_sub op h, List.forall_iff_forall_mem.mp opsEnd_sub op h]

/-- At the compiled mesh, for any float values, from any memory with zero counters: every weakly fair execution of
    @main terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefKeep.lean ====
/-
  Which buffers each piece of the reference's operation line writes, and that a buffer a piece does not
  write keeps its contents through it.
-/
import proofs.«155322_j32083405701144_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers that `opsTakeX` writes. -/
abbrev opsTakeX_W : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
set_option maxRecDepth 8192 in
theorem opsTakeX_writes : (opsTakeX : List (HloOp τ sig (Elt F))).Forall fun op => op.writes ⊆ (opsTakeX_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsTakeX` does not write keeps its contents through it. -/
theorem opsTakeX_keep (V : Valuation τ sig (Elt F)) (r : Ref sig .tc) (h : r ∉ opsTakeX_W) :
    after (opsTakeX : List (HloOp τ sig (Elt F))) V (Proc.devRef .tc r) = V (Proc.devRef .tc r) :=
  after_of_writes_sub opsTakeX V opsTakeX_writes h

/-- The buffers that `opsTakeY` writes. -/
abbrev opsTakeY_W : List (Ref sig .tc) := [main_call1.c.ref, main_call1.v0.ref, main_call1.v1.ref, main_call1.c_0.ref, main_call1.v2.ref, main_call1.v3.ref, main_call1.call0.v0.ref, main_call1.v5.ref, main_call1.c_1.ref, main_call1.c_2.ref, main_call1.v6.ref, main_call1.v7.ref, main_call1.v8.ref, main_call1.v9.ref, main_call1.v10.ref, main_call1.v11.ref, main_call1.c_3.ref, main_call1.v12.ref, main_call1.v13.ref, main_call1.v14.ref, main_call1.cst.ref, main_call1.v15.ref, main_call1.v16.ref]
set_option maxRecDepth 8192 in
theorem opsTakeY_writes : (opsTakeY : List (HloOp τ sig (Elt F))).Forall fun op => op.writes ⊆ (opsTakeY_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsTakeY` does not write keeps its contents through it. -/
theorem opsTakeY_keep (V : Valuation τ sig (Elt F)) (r : Ref sig .tc) (h : r ∉ opsTakeY_W) :
    after (opsTakeY : List (HloOp τ sig (Elt F))) V (Proc.devRef .tc r) = V (Proc.devRef .tc r) :=
  after_of_writes_sub opsTakeY V opsTakeY_writes h

/-- The buffers that `opsTakeH` writes. -/
abbrev opsTakeH_W : List (Ref sig .tc) := [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]
set_option maxRecDepth 8192 in
theorem opsTakeH_writes : (opsTakeH : List (HloOp τ sig (Elt F))).Forall fun op => op.writes ⊆ (opsTakeH_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsTakeH` does not write keeps its contents through it. -/
theorem opsTakeH_keep (V : Valuation τ sig (Elt F)) (r : Ref sig .tc) (h : r ∉ opsTakeH_W) :
    after (opsTakeH : List (HloOp τ sig (Elt F))) V (Proc.devRef .tc r) = V (Proc.devRef .tc r) :=
  after_of_writes_sub opsTakeH V opsTakeH_writes h

/-- The buffers that `opsTakeN` writes. -/
abbrev opsTakeN_W : List (Ref sig .tc) := [main_call3.c.ref, main_call3.v0.ref, main_call3.v1.ref, main_call3.c_0.ref, main_call3.v2.ref, main_call3.v3.ref, main_call3.call0.v0.ref, main_call3.v5.ref, main_call3.c_1.ref, main_call3.c_2.ref, main_call3.v6.ref, main_call3.v7.ref, main_call3.v8.ref, main_call3.v9.ref, main_call3.v10.ref, main_call3.v11.ref, main_call3.c_3.ref, main_call3.v12.ref, main_call3.v13.ref, main_call3.v14.ref, main_call3.cst.ref, main_call3.v15.ref, main_call3.v16.ref]
set_option maxRecDepth 8192 in
theorem opsTakeN_writes : (opsTakeN : List (HloOp τ sig (Elt F))).Forall fun op => op.writes ⊆ (opsTakeN_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsTakeN` does not write keeps its contents through it. -/
theorem opsTakeN_keep (V : Valuation τ sig (Elt F)) (r : Ref sig .tc) (h : r ∉ opsTakeN_W) :
    after (opsTakeN : List (HloOp τ sig (Elt F))) V (Proc.devRef .tc r) = V (Proc.devRef .tc r) :=
  after_of_writes_sub opsTakeN V opsTakeN_writes h

/-- The buffers that `opsTakeD` writes. -/
abbrev opsTakeD_W : List (Ref sig .tc) := [main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref]
set_option maxRecDepth 8192 in
theorem opsTakeD_writes : (opsTakeD : List (HloOp τ sig (Elt F))).Forall fun op => op.writes ⊆ (opsTakeD_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsTakeD` does not write keeps its contents through it. -/
theorem opsTakeD_keep (V : Valuation τ sig (Elt F)) (r : Ref sig .tc) (h : r ∉ opsTakeD_W) :
    after (opsTakeD : List (HloOp τ sig (Elt F))) V (Proc.devRef .tc r) = V (Proc.devRef .tc r) :=
  after_of_writes_sub opsTakeD V opsTakeD_writes h

/-- The buffers that `opsDt` writes. -/
abbrev opsDt_W : List (Ref sig .tc) := [main_v5, main_v6, main_v7, main_v8]
set_option maxRecDepth 8192 in
theorem opsDt_writes : (opsDt : List (HloOp τ sig (Elt F))).Forall fun op => op.writes ⊆ (opsDt_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsDt` does not write keeps its contents through it. -/
theorem opsDt_keep (V : Valuation τ sig (Elt F)) (r : Ref sig .tc) (h : r ∉ opsDt_W) :
    after (opsDt : List (HloOp τ sig (Elt F))) V (Proc.devRef .tc r) = V (Proc.devRef .tc r) :=
  after_of_writes_sub opsDt V opsDt_writes h

/-- The buffers that `opsPmu` writes. -/
abbrev opsPmu_W : List (Ref sig .tc) := [main_v9, main_v10, main_cst, main_v11, main_v12]
set_option maxRecDepth 8192 in
theorem opsPmu_writes : (opsPmu : List (HloOp τ sig (Elt F))).Forall fun op => op.writes ⊆ (opsPmu_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsPmu` does not write keeps its contents through it. -/
theorem opsPmu_keep (V : Valuation τ sig (Elt F)) (r : Ref sig .tc) (h : r ∉ opsPmu_W) :
    after (opsPmu : List (HloOp τ sig (Elt F))) V (Proc.devRef .tc r) = V (Proc.devRef .tc r) :=
  after_of_writes_sub opsPmu V opsPmu_writes h

/-- The buffers that `opsAlpha` writes. -/
abbrev opsAlpha_W : List (Ref sig .tc) := [main_v13, main_v14, main_v15, main_v16, main_cst_0, main_v17, main_v18]
set_option maxRecDepth 8192 in
theorem opsAlpha_writes : (opsAlpha : List (HloOp τ sig (Elt F))).Forall fun op => op.writes ⊆ (opsAlpha_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsAlpha` does not write keeps its contents through it. -/
theorem opsAlpha_keep (V : Valuation τ sig (Elt F)) (r : Ref sig .tc) (h : r ∉ opsAlpha_W) :
    after (opsAlpha : List (HloOp τ sig (Elt F))) V (Proc.devRef .tc r) = V (Proc.devRef .tc r) :=
  after_of_writes_sub opsAlpha V opsAlpha_writes h

/-- The buffers that `opsSoft` writes. -/
abbrev opsSoft_W : List (Ref sig .tc) := [main_cst_1, main_v19, main_cst_2, main_v20, main_v21, main_v22, main_v23, main_v24, main_v25, main_cst_3, main_v26, main_v27, main_v28, main_v29]
set_option maxRecDepth 8192 in
theorem opsSoft_writes : (opsSoft : List (HloOp τ sig (Elt F))).Forall fun op => op.writes ⊆ (opsSoft_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsSoft` does not write keeps its contents through it. -/
theorem opsSoft_keep (V : Valuation τ sig (Elt F)) (r : Ref sig .tc) (h : r ∉ opsSoft_W) :
    after (opsSoft : List (HloOp τ sig (Elt F))) V (Proc.devRef .tc r) = V (Proc.devRef .tc r) :=
  after_of_writes_sub opsSoft V opsSoft_writes h

/-- The buffers that `opsDecay` writes. -/
abbrev opsDecay_W : List (Ref sig .tc) := [main_v30, main_v31, main_v32, main_v33]
set_option maxRecDepth 8192 in
theorem opsDecay_writes : (opsDecay : List (HloOp τ sig (Elt F))).Forall fun op => op.writes ⊆ (opsDecay_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsDecay` does not write keeps its contents through it. -/
theorem opsDecay_keep (V : Valuation τ sig (Elt F)) (r : Ref sig .tc) (h : r ∉ opsDecay_W) :
    after (opsDecay : List (HloOp τ sig (Elt F))) V (Proc.devRef .tc r) = V (Proc.devRef .tc r) :=
  after_of_writes_sub opsDecay V opsDecay_writes h

/-- The buffers that `opsPlam` writes. -/
abbrev opsPlam_W : List (Ref sig .tc) := [main_v34, main_v35, main_cst_4, main_v36, main_v37]
set_option maxRecDepth 8192 in
theorem opsPlam_writes : (opsPlam : List (HloOp τ sig (Elt F))).Forall fun op => op.writes ⊆ (opsPlam_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsPlam` does not write keeps its contents through it. -/
theorem opsPlam_keep (V : Valuation τ sig (Elt F)) (r : Ref sig .tc) (h : r ∉ opsPlam_W) :
    after (opsPlam : List (HloOp τ sig (Elt F))) V (Proc.devRef .tc r) = V (Proc.devRef .tc r) :=
  after_of_writes_sub opsPlam V opsPlam_writes h

/-- The buffers that `opsNmu` writes. -/
abbrev opsNmu_W : List (Ref sig .tc) := [main_v38, main_v39, main_v40, main_v41, main_cst_5, main_v42, main_v43]
set_option maxRecDepth 8192 in
theorem opsNmu_writes : (opsNmu : List (HloOp τ sig (Elt F))).Forall fun op => op.writes ⊆ (opsNmu_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsNmu` does not write keeps its contents through it. -/
theorem opsNmu_keep (V : Valuation τ sig (Elt F)) (r : Ref sig .tc) (h : r ∉ opsNmu_W) :
    after (opsNmu : List (HloOp τ sig (Elt F))) V (Proc.devRef .tc r) = V (Proc.devRef .tc r) :=
  after_of_writes_sub opsNmu V opsNmu_writes h

/-- The buffers that `opsNalpha` writes. -/
abbrev opsNalpha_W : List (Ref sig .tc) := [main_v44, main_v45, main_v46, main_v47, main_v48, main_v49, main_cst_6, main_v50, main_v51]
set_option maxRecDepth 8192 in
theorem opsNalpha_writes : (opsNalpha : List (HloOp τ sig (Elt F))).Forall fun op => op.writes ⊆ (opsNalpha_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsNalpha` does not write keeps its contents through it. -/
theorem opsNalpha_keep (V : Valuation τ sig (Elt F)) (r : Ref sig .tc) (h : r ∉ opsNalpha_W) :
    after (opsNalpha : List (HloOp τ sig (Elt F))) V (Proc.devRef .tc r) = V (Proc.devRef .tc r) :=
  after_of_writes_sub opsNalpha V opsNalpha_writes h

/-- The buffers that `opsNlam` writes. -/
abbrev opsNlam_W : List (Ref sig .tc) := [main_v52, main_v53, main_v54, main_v55, main_v56, main_v57, main_cst_7, main_v58, main_v59]
set_option maxRecDepth 8192 in
theorem opsNlam_writes : (opsNlam : List (HloOp τ sig (Elt F))).Forall fun op => op.writes ⊆ (opsNlam_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsNlam` does not write keeps its contents through it. -/
theorem opsNlam_keep (V : Valuation τ sig (Elt F)) (r : Ref sig .tc) (h : r ∉ opsNlam_W) :
    after (opsNlam : List (HloOp τ sig (Elt F))) V (Proc.devRef .tc r) = V (Proc.devRef .tc r) :=
  after_of_writes_sub opsNlam V opsNlam_writes h

/-- The buffers that `opsLsP` writes. -/
abbrev opsLsP_W : List (Ref sig .tc) := [main_call5.v0.ref, main_call5.call0.cst.ref, main_call5.call0.v0.ref, main_call5.call0.v1.ref, main_call5.call0.v2.ref, main_call5.call0.v3.ref, main_call5.call0.v4.ref, main_call5.call0.v5.ref, main_call5.call0.v6.ref, main_call5.call0.v7.ref, main_call5.call0.v8.ref, main_call5.call0.v9.ref, main_call5.call0.v10.ref, main_call5.call0.v11.ref, main_call5.call0.v12.ref, main_call5.v2.ref]
set_option maxRecDepth 8192 in
theorem opsLsP_writes : (opsLsP : List (HloOp τ sig (Elt F))).Forall fun op => op.writes ⊆ (opsLsP_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsLsP` does not write keeps its contents through it. -/
theorem opsLsP_keep (V : Valuation τ sig (Elt F)) (r : Ref sig .tc) (h : r ∉ opsLsP_W) :
    after (opsLsP : List (HloOp τ sig (Elt F))) V (Proc.devRef .tc r) = V (Proc.devRef .tc r) :=
  after_of_writes_sub opsLsP V opsLsP_writes h

/-- The buffers that `opsLsN` writes. -/
abbrev opsLsN_W : List (Ref sig .tc) := [main_call6.v0.ref, main_call6.call0.cst.ref, main_call6.call0.v0.ref, main_call6.call0.v1.ref, main_call6.call0.v2.ref, main_call6.call0.v3.ref, main_call6.call0.v4.ref, main_call6.call0.v5.ref, main_call6.call0.v6.ref, main_call6.call0.v7.ref, main_call6.call0.v8.ref, main_call6.call0.v9.ref, main_call6.call0.v10.ref, main_call6.call0.v11.ref, main_call6.call0.v12.ref, main_call6.v2.ref]
set_option maxRecDepth 8192 in
theorem opsLsN_writes : (opsLsN : List (HloOp τ sig (Elt F))).Forall fun op => op.writes ⊆ (opsLsN_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsLsN` does not write keeps its contents through it. -/
theorem opsLsN_keep (V : Valuation τ sig (Elt F)) (r : Ref sig .tc) (h : r ∉ opsLsN_W) :
    after (opsLsN : List (HloOp τ sig (Elt F))) V (Proc.devRef .tc r) = V (Proc.devRef .tc r) :=
  after_of_writes_sub opsLsN V opsLsN_writes h

/-- The buffers that `opsEnd` writes. -/
abbrev opsEnd_W : List (Ref sig .tc) := [main_cst_8, main_v62, main_v63]
set_option maxRecDepth 8192 in
theorem opsEnd_writes : (opsEnd : List (HloOp τ sig (Elt F))).Forall fun op => op.writes ⊆ (opsEnd_W.map (Proc.devRef (τ := τ) .tc)).toFinset := by
  simp only [List.Forall]
  exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer that `opsEnd` does not write keeps its contents through it. -/
theorem opsEnd_keep (V : Valuation τ sig (Elt F)) (r : Ref sig .tc) (h : r ∉ opsEnd_W) :
    after (opsEnd : List (HloOp τ sig (Elt F))) V (Proc.devRef .tc r) = V (Proc.devRef .tc r) :=
  after_of_writes_sub opsEnd V opsEnd_writes h

end Cert.ReferenceIdeal.Hand

end
-- ==== Proof.TakesR.lean ====
/-
  The reference program's five gathered arrays, after its run, are the same gathers of the launch memory that the
  kernel program's region finds: the pieces of the reference's operation line after a gather keep its result, the
  gather's own 23 operations fold to the pure function, and the pieces before it keep the table and the ids.
-/
import proofs.«155322_j32083405701144_2_alg».proof.Proof.RefKeep
import proofs.«155322_j32083405701144_2_alg».proof.Proof.TakesK
import Idealize.ShloMosaic.PureOps.Ideal

-- one theorem at a time: each folds a gather's 23 operations
set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable (m : (ℓ : Loc nD τ sig) → Buf (Elt Ideal) ℓ)

attribute [local irreducible] Host.reduce Host.gather in
set_option maxRecDepth 8192 in
/-- The reference's array `main_v0` after its run is the same gather of the launch memory's table and ids. -/
theorem W_v0 (c : Dev nD) :
    after (ops (F := Ideal)) (launchContents m c) (main_v0 : DevRef τ sig)
      = Cert.KernelIdeal.Hand.takeRows (F := Ideal) (m ((c.tc : Thread nD τ).loc main_arg7)) (m ((c.tc : Thread nD τ).loc main_arg0)) := by
  rw [after_ops]
  rw [opsEnd_keep _ main_v0 (by decide),
    opsLsN_keep _ main_v0 (by decide),
    opsLsP_keep _ main_v0 (by decide),
    opsNlam_keep _ main_v0 (by decide),
    opsNalpha_keep _ main_v0 (by decide),
    opsNmu_keep _ main_v0 (by decide),
    opsPlam_keep _ main_v0 (by decide),
    opsDecay_keep _ main_v0 (by decide),
    opsSoft_keep _ main_v0 (by decide),
    opsAlpha_keep _ main_v0 (by decide),
    opsPmu_keep _ main_v0 (by decide),
    opsDt_keep _ main_v0 (by decide),
    opsTakeD_keep _ main_v0 (by decide),
    opsTakeN_keep _ main_v0 (by decide),
    opsTakeH_keep _ main_v0 (by decide),
    opsTakeY_keep _ main_v0 (by decide)]
  simp only [opsTakeX]
  after_results_simp
  rfl

attribute [local irreducible] Host.reduce Host.gather in
set_option maxRecDepth 8192 in
/-- The reference's array `main_v1` after its run is the same gather of the launch memory's table and ids: the earlier
    gathers' operations write neither. -/
theorem W_v1 (c : Dev nD) :
    after (ops (F := Ideal)) (launchContents m c) (main_v1 : DevRef τ sig)
      = Cert.KernelIdeal.Hand.takeRows (F := Ideal) (m ((c.tc : Thread nD τ).loc main_arg7)) (m ((c.tc : Thread nD τ).loc main_arg1)) := by
  rw [after_ops]
  rw [opsEnd_keep _ main_v1 (by decide),
    opsLsN_keep _ main_v1 (by decide),
    opsLsP_keep _ main_v1 (by decide),
    opsNlam_keep _ main_v1 (by decide),
    opsNalpha_keep _ main_v1 (by decide),
    opsNmu_keep _ main_v1 (by decide),
    opsPlam_keep _ main_v1 (by decide),
    opsDecay_keep _ main_v1 (by decide),
    opsSoft_keep _ main_v1 (by decide),
    opsAlpha_keep _ main_v1 (by decide),
    opsPmu_keep _ main_v1 (by decide),
    opsDt_keep _ main_v1 (by decide),
    opsTakeD_keep _ main_v1 (by decide),
    opsTakeN_keep _ main_v1 (by decide),
    opsTakeH_keep _ main_v1 (by decide)]
  have htab : (after (opsTakeX (F := Ideal)) (launchContents m c)) (Proc.devRef .tc main_arg7) = launchContents m c (Proc.devRef .tc main_arg7) := by
    rw [opsTakeX_keep _ main_arg7 (by decide)]
  have hids : (after (opsTakeX (F := Ideal)) (launchContents m c)) (Proc.devRef .tc main_arg1) = launchContents m c (Proc.devRef .tc main_arg1) := by
    rw [opsTakeX_keep _ main_arg1 (by decide)]
  generalize (after (opsTakeX (F := Ideal)) (launchContents m c)) = V at htab hids ⊢
  simp only [opsTakeY]
  after_results_simp
  rw [htab, hids]
  rfl

attribute [local irreducible] Host.reduce Host.gather in
set_option maxRecDepth 8192 in
/-- The reference's array `main_v2` after its run is the same gather of the launch memory's table and ids: the earlier
    gathers' operations write neither. -/
theorem W_v2 (c : Dev nD) :
    after (ops (F := Ideal)) (launchContents m c) (main_v2 : DevRef τ sig)
      = Cert.KernelIdeal.Hand.takeRows5 (F := Ideal) (m ((c.tc : Thread nD τ).loc main_arg7)) (m ((c.tc : Thread nD τ).loc main_arg3)) := by
  rw [after_ops]
  rw [opsEnd_keep _ main_v2 (by decide),
    opsLsN_keep _ main_v2 (by decide),
    opsLsP_keep _ main_v2 (by decide),
    opsNlam_keep _ main_v2 (by decide),
    opsNalpha_keep _ main_v2 (by decide),
    opsNmu_keep _ main_v2 (by decide),
    opsPlam_keep _ main_v2 (by decide),
    opsDecay_keep _ main_v2 (by decide),
    opsSoft_keep _ main_v2 (by decide),
    opsAlpha_keep _ main_v2 (by decide),
    opsPmu_keep _ main_v2 (by decide),
    opsDt_keep _ main_v2 (by decide),
    opsTakeD_keep _ main_v2 (by decide),
    opsTakeN_keep _ main_v2 (by decide)]
  have htab : (after (opsTakeY (F := Ideal)) (after (opsTakeX (F := Ideal)) (launchContents m c))) (Proc.devRef .tc main_arg7) = launchContents m c (Proc.devRef .tc main_arg7) := by
    rw [opsTakeY_keep _ main_arg7 (by decide), opsTakeX_keep _ main_arg7 (by decide)]
  have hids : (after (opsTakeY (F := Ideal)) (after (opsTakeX (F := Ideal)) (launchContents m c))) (Proc.devRef .tc main_arg3) = launchContents m c (Proc.devRef .tc main_arg3) := by
    rw [opsTakeY_keep _ main_arg3 (by decide), opsTakeX_keep _ main_arg3 (by decide)]
  generalize (after (opsTakeY (F := Ideal)) (after (opsTakeX (F := Ideal)) (launchContents m c))) = V at htab hids ⊢
  simp only [opsTakeH]
  after_results_simp
  rw [htab, hids]
  rfl

attribute [local irreducible] Host.reduce Host.gather in
set_option maxRecDepth 8192 in
/-- The reference's array `main_v3` after its run is the same gather of the launch memory's table and ids: the earlier
    gathers' operations write neither. -/
theorem W_v3 (c : Dev nD) :
    after (ops (F := Ideal)) (launchContents m c) (main_v3 : DevRef τ sig)
      = Cert.KernelIdeal.Hand.takeRows2 (F := Ideal) (m ((c.tc : Thread nD τ).loc main_arg7)) (m ((c.tc : Thread nD τ).loc main_arg5)) := by
  rw [after_ops]
  rw [opsEnd_keep _ main_v3 (by decide),
    opsLsN_keep _ main_v3 (by decide),
    opsLsP_keep _ main_v3 (by decide),
    opsNlam_keep _ main_v3 (by decide),
    opsNalpha_keep _ main_v3 (by decide),
    opsNmu_keep _ main_v3 (by decide),
    opsPlam_keep _ main_v3 (by decide),
    opsDecay_keep _ main_v3 (by decide),
    opsSoft_keep _ main_v3 (by decide),
    opsAlpha_keep _ main_v3 (by decide),
    opsPmu_keep _ main_v3 (by decide),
    opsDt_keep _ main_v3 (by decide),
    opsTakeD_keep _ main_v3 (by decide)]
  have htab : (after (opsTakeH (F := Ideal)) (after (opsTakeY (F := Ideal)) (after (opsTakeX (F := Ideal)) (launchContents m c)))) (Proc.devRef .tc main_arg7) = launchContents m c (Proc.devRef .tc main_arg7) := by
    rw [opsTakeH_keep _ main_arg7 (by decide), opsTakeY_keep _ main_arg7 (by decide), opsTakeX_keep _ main_arg7 (by decide)]
  have hids : (after (opsTakeH (F := Ideal)) (after (opsTakeY (F := Ideal)) (after (opsTakeX (F := Ideal)) (launchContents m c)))) (Proc.devRef .tc main_arg5) = launchContents m c (Proc.devRef .tc main_arg5) := by
    rw [opsTakeH_keep _ main_arg5 (by decide), opsTakeY_keep _ main_arg5 (by decide), opsTakeX_keep _ main_arg5 (by decide)]
  generalize (after (opsTakeH (F := Ideal)) (after (opsTakeY (F := Ideal)) (after (opsTakeX (F := Ideal)) (launchContents m c)))) = V at htab hids ⊢
  simp only [opsTakeN]
  after_results_simp
  rw [htab, hids]
  rfl

attribute [local irreducible] Host.reduce Host.gather in
set_option maxRecDepth 8192 in
/-- The reference's array `main_v4` after its run is the same gather of the launch memory's table and ids: the earlier
    gathers' operations write neither. -/
theorem W_v4 (c : Dev nD) :
    after (ops (F := Ideal)) (launchContents m c) (main_v4 : DevRef τ sig)
      = Cert.KernelIdeal.Hand.takeCol (F := Ideal) (m ((c.tc : Thread nD τ).loc main_arg8)) (m ((c.tc : Thread nD τ).loc main_arg0)) := by
  rw [after_ops]
  rw [opsEnd_keep _ main_v4 (by decide),
    opsLsN_keep _ main_v4 (by decide),
    opsLsP_keep _ main_v4 (by decide),
    opsNlam_keep _ main_v4 (by decide),
    opsNalpha_keep _ main_v4 (by decide),
    opsNmu_keep _ main_v4 (by decide),
    opsPlam_keep _ main_v4 (by decide),
    opsDecay_keep _ main_v4 (by decide),
    opsSoft_keep _ main_v4 (by decide),
    opsAlpha_keep _ main_v4 (by decide),
    opsPmu_keep _ main_v4 (by decide),
    opsDt_keep _ main_v4 (by decide)]
  have htab : (after (opsTakeN (F := Ideal)) (after (opsTakeH (F := Ideal)) (after (opsTakeY (F := Ideal)) (after (opsTakeX (F := Ideal)) (launchContents m c))))) (Proc.devRef .tc main_arg8) = launchContents m c (Proc.devRef .tc main_arg8) := by
    rw [opsTakeN_keep _ main_arg8 (by decide), opsTakeH_keep _ main_arg8 (by decide), opsTakeY_keep _ main_arg8 (by decide), opsTakeX_keep _ main_arg8 (by decide)]
  have hids : (after (opsTakeN (F := Ideal)) (after (opsTakeH (F := Ideal)) (after (opsTakeY (F := Ideal)) (after (opsTakeX (F := Ideal)) (launchContents m c))))) (Proc.devRef .tc main_arg0) = launchContents m c (Proc.devRef .tc main_arg0) := by
    rw [opsTakeN_keep _ main_arg0 (by decide), opsTakeH_keep _ main_arg0 (by decide), opsTakeY_keep _ main_arg0 (by decide), opsTakeX_keep _ main_arg0 (by decide)]
  generalize (after (opsTakeN (F := Ideal)) (after (opsTakeH (F := Ideal)) (after (opsTakeY (F := Ideal)) (after (opsTakeX (F := Ideal)) (launchContents m c))))) = V at htab hids ⊢
  simp only [opsTakeD]
  after_results_simp
  rw [htab, hids]
  rfl

end Cert.ReferenceIdeal.Hand

end
-- ==== Proof.KerGrid.lean ====
/-
  The grid of the row kernel: 64 points, each owning 1024 consecutive rows of the batch.

  At point `t` every window's block index is `t` on the batch axis and 0 on every other axis (decided over the 64
  points), so row `p` of any block at point `t` is row 1024·t + p of its array.
-/
import proofs.«155322_j32083405701144_2_alg».proof.Proof.Gen.KernelIdeal.Launch
import Idealize.ShloMosaic.Lib.Decide

noncomputable section

open Idealize.ShloMosaic Idealize.SL.Sem

namespace Cert.KernelIdeal.Hand

open Cert.KernelIdeal Cert.KernelIdeal.Gen

/-- Every window's block index at point `t` is `t` on the batch axis and 0 on the others, decided over the grid. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row `p` of the block at point `t`, as a row of the batch. -/
def row (t : Fin cfg0.N) (p : Fin 1024) : Fin 65536 :=
  ⟨t.val * 1024 + p.val, by
    have h : t.val < 64 := lt_of_lt_of_eq t.isLt N_0
    have := p.isLt
    omega⟩

theorem row_val (t : Fin cfg0.N) (p : Fin 1024) : (row t p).val = t.val * 1024 + p.val := rfl

/-- The point that owns batch row `b`. -/
def pointOf (b : Fin 65536) : Fin cfg0.N :=
  ⟨b.val / 1024, by
    have := b.isLt
    have h : b.val / 1024 < 64 := by omega
    exact lt_of_lt_of_eq h N_0.symm⟩

theorem pointOf_val (b : Fin 65536) : (pointOf b).val = b.val / 1024 := rfl

end Cert.KernelIdeal.Hand

end
-- ==== Proof.KerReads.lean ====
/-
  A window's block read at coordinates.

  At point `t` a window's block of ANY array `A` of its shape is rows 1024·t … 1024·t + 1023 of `A`, every other axis
  whole: read at row `p` (and slot, lane) it is `A` at row `row t p` (and the same slot, lane).  Stated over an
  arbitrary array, one lemma per window, from the block's embedding: a coordinate of the array is the block's index
  times the block's extent plus the coordinate inside the block.
-/
import proofs.«155322_j32083405701144_2_alg».proof.Proof.Gen.KernelIdeal.Frame
import proofs.«155322_j32083405701144_2_alg».proof.Proof.KerGrid
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- Window 0's block of an array at point t. -/
theorem blk0_read (A : S65536x128.Idx → EReal) (t : Fin cfg0.N) (p : Fin 1024) (k : Fin 128) :
    (((cfg0.win 0).blk t).view.read (Elt Ideal) A : S1024x128.Idx → EReal) (ix2 p k) = A (ix2 (row t p) k) := by
  obtain ⟨⟨e0, e1⟩, -, -, -, -, -, -, -, -⟩ := idx_facts t
  rw [View.read_apply]
  refine congrArg A ?_
  funext a
  apply Fin.ext
  match a with
  | ⟨0, _⟩ => show win0_0.index t (0 : Fin 2) * 1024 + 1 * p.val = t.val * 1024 + p.val; rw [e0]; omega
  | ⟨1, _⟩ => show win0_0.index t (1 : Fin 2) * 128 + 1 * k.val = k.val; rw [e1]; omega

/-- Window 1's block of an array at point t. -/
theorem blk1_read (A : S65536x128.Idx → EReal) (t : Fin cfg0.N) (p : Fin 1024) (k : Fin 128) :
    (((cfg0.win 1).blk t).view.read (Elt Ideal) A : S1024x128.Idx → EReal) (ix2 p k) = A (ix2 (row t p) k) := by
  obtain ⟨-, ⟨e0, e1⟩, -, -, -, -, -, -, -⟩ := idx_facts t
  rw [View.read_apply]
  refine congrArg A ?_
  funext a
  apply Fin.ext
  match a with
  | ⟨0, _⟩ => show win0_1.index t (0 : Fin 2) * 1024 + 1 * p.val = t.val * 1024 + p.val; rw [e0]; omega
  | ⟨1, _⟩ => show win0_1.index t (1 : Fin 2) * 128 + 1 * k.val = k.val; rw [e1]; omega

/-- Window 2's block of an array at point t. -/
theorem blk2_read (A : S65536x5x128.Idx → EReal) (t : Fin cfg0.N) (p : Fin 1024) (h : Fin 5) (k : Fin 128) :
    (((cfg0.win 2).blk t).view.read (Elt Ideal) A : S1024x5x128.Idx → EReal) (ix3 p h k) = A (ix3 (row t p) h k) := by
  obtain ⟨-, -, ⟨e0, e1, e2⟩, -, -, -, -, -, -⟩ := idx_facts t
  rw [View.read_apply]
  refine congrArg A ?_
  funext a
  apply Fin.ext
  match a with
  | ⟨0, _⟩ => show win0_2.index t (0 : Fin 3) * 1024 + 1 * p.val = t.val * 1024 + p.val; rw [e0]; omega
  | ⟨1, _⟩ => show win0_2.index t (1 : Fin 3) * 5 + 1 * h.val = h.val; rw [e1]; omega
  | ⟨2, _⟩ => show win0_2.index t (2 : Fin 3) * 128 + 1 * k.val = k.val; rw [e2]; omega

/-- Window 3's block of an array at point t. -/
theorem blk3_read (A : S65536x2x128.Idx → EReal) (t : Fin cfg0.N) (p : Fin 1024) (h : Fin 2) (k : Fin 128) :
    (((cfg0.win 3).blk t).view.read (Elt Ideal) A : S1024x2x128.Idx → EReal) (ix3 p h k) = A (ix3 (row t p) h k) := by
  obtain ⟨-, -, -, ⟨e0, e1, e2⟩, -, -, -, -, -⟩ := idx_facts t
  rw [View.read_apply]
  refine congrArg A ?_
  funext a
  apply Fin.ext
  match a with
  | ⟨0, _⟩ => show win0_3.index t (0 : Fin 3) * 1024 + 1 * p.val = t.val * 1024 + p.val; rw [e0]; omega
  | ⟨1, _⟩ => show win0_3.index t (1 : Fin 3) * 2 + 1 * h.val = h.val; rw [e1]; omega
  | ⟨2, _⟩ => show win0_3.index t (2 : Fin 3) * 128 + 1 * k.val = k.val; rw [e2]; omega

/-- Window 4's block of an array at point t. -/
theorem blk4_read (A : S65536x1.Idx → EReal) (t : Fin cfg0.N) (p : Fin 1024) :
    (((cfg0.win 4).blk t).view.read (Elt Ideal) A : S1024x1.Idx → EReal) (ix2 p (0 : Fin 1)) = A (ix2 (row t p) (0 : Fin 1)) := by
  obtain ⟨-, -, -, -, ⟨e0, e1⟩, -, -, -, -⟩ := idx_facts t
  rw [View.read_apply]
  refine congrArg A ?_
  funext a
  apply Fin.ext
  match a with
  | ⟨0, _⟩ => show win0_4.index t (0 : Fin 2) * 1024 + 1 * p.val = t.val * 1024 + p.val; rw [e0]; omega
  | ⟨1, _⟩ => show win0_4.index t (1 : Fin 2) * 1 + 1 * 0 = 0; rw [e1]

/-- Window 5's block of an array at point t. -/
theorem blk5_read (A : S65536x1.Idx → EReal) (t : Fin cfg0.N) (p : Fin 1024) :
    (((cfg0.win 5).blk t).view.read (Elt Ideal) A : S1024x1.Idx → EReal) (ix2 p (0 : Fin 1)) = A (ix2 (row t p) (0 : Fin 1)) := by
  obtain ⟨-, -, -, -, -, ⟨e0, e1⟩, -, -, -⟩ := idx_facts t
  rw [View.read_apply]
  refine congrArg A ?_
  funext a
  apply Fin.ext
  match a with
  | ⟨0, _⟩ => show win0_5.index t (0 : Fin 2) * 1024 + 1 * p.val = t.val * 1024 + p.val; rw [e0]; omega
  | ⟨1, _⟩ => show win0_5.index t (1 : Fin 2) * 1 + 1 * 0 = 0; rw [e1]

/-- Window 6's block of an array at point t. -/
theorem blk6_read (A : S65536x5.Idx → EReal) (t : Fin cfg0.N) (p : Fin 1024) (k : Fin 5) :
    (((cfg0.win 6).blk t).view.read (Elt Ideal) A : S1024x5.Idx → EReal) (ix2 p k) = A (ix2 (row t p) k) := by
  obtain ⟨-, -, -, -, -, -, ⟨e0, e1⟩, -, -⟩ := idx_facts t
  rw [View.read_apply]
  refine congrArg A ?_
  funext a
  apply Fin.ext
  match a with
  | ⟨0, _⟩ => show win0_6.index t (0 : Fin 2) * 1024 + 1 * p.val = t.val * 1024 + p.val; rw [e0]; omega
  | ⟨1, _⟩ => show win0_6.index t (1 : Fin 2) * 5 + 1 * k.val = k.val; rw [e1]; omega

/-- Window 7's block of an array at point t. -/
theorem blk7_read (A : S65536x5.Idx → EReal) (t : Fin cfg0.N) (p : Fin 1024) (k : Fin 5) :
    (((cfg0.win 7).blk t).view.read (Elt Ideal) A : S1024x5.Idx → EReal) (ix2 p k) = A (ix2 (row t p) k) := by
  obtain ⟨-, -, -, -, -, -, -, ⟨e0, e1⟩, -⟩ := idx_facts t
  rw [View.read_apply]
  refine congrArg A ?_
  funext a
  apply Fin.ext
  match a with
  | ⟨0, _⟩ => show win0_7.index t (0 : Fin 2) * 1024 + 1 * p.val = t.val * 1024 + p.val; rw [e0]; omega
  | ⟨1, _⟩ => show win0_7.index t (1 : Fin 2) * 5 + 1 * k.val = k.val; rw [e1]; omega

/-- Window 8's block of an array at point t. -/
theorem blk8_read (A : S65536x1.Idx → EReal) (t : Fin cfg0.N) (p : Fin 1024) :
    (((cfg0.win 8).blk t).view.read (Elt Ideal) A : S1024x1.Idx → EReal) (ix2 p (0 : Fin 1)) = A (ix2 (row t p) (0 : Fin 1)) := by
  obtain ⟨-, -, -, -, -, -, -, -, ⟨e0, e1⟩⟩ := idx_facts t
  rw [View.read_apply]
  refine congrArg A ?_
  funext a
  apply Fin.ext
  match a with
  | ⟨0, _⟩ => show win0_8.index t (0 : Fin 2) * 1024 + 1 * p.val = t.val * 1024 + p.val; rw [e0]; omega
  | ⟨1, _⟩ => show win0_8.index t (1 : Fin 2) * 1 + 1 * 0 = 0; rw [e1]

end Cert.KernelIdeal.Hand

end
-- ==== Proof.KerTimes.lean ====
/-
  The event-time column.

  Before the region one host operation lays the event times [65536] along a unit axis, [65536,1]; the region's sixth
  window reads that column.  No other host operation before the region touches it or the event times, so the column the
  region finds is that operation applied to the event times as launched, and its entry (b, 0) is the event time of row b.
-/
import proofs.«155322_j32083405701144_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- The contents after two lines of host operations run one after the other. -/
theorem after_append {Val : EltTy → Type} (l₁ l₂ : List (HloOp τ sig Val)) (W : Valuation τ sig Val) :
    StableHlo.after (l₁ ++ l₂) W = StableHlo.after l₂ (StableHlo.after l₁ W) := by
  induction l₁ generalizing W with
  | nil => rfl
  | cons op l ih => simp only [List.cons_append, StableHlo.after_cons, ih]

/-- The event-time column the region finds: the event times as launched, laid along a unit axis. -/
theorem V_main_v5 (c : Dev nD) :
    (V m c main_v5 : S65536x1.Idx → EReal)
      = broadcastInDim S65536x1 ![0] bcast_S65536_S65536x1_0 (m ((c : Thread nD τ).loc main_arg2) : S65536.Idx → EReal) := by
  have hsplit : (List.flatten [hostOps0, hostOps0_1, hostOps0_2, hostOps0_3, hostOps0_4, hostOps0_5] : List (HloOp τ sig (Elt Ideal)))
      = List.flatten [hostOps0, hostOps0_1, hostOps0_2, hostOps0_3, hostOps0_4] ++ hostOps0_5 := by
    simp only [List.flatten_cons, List.flatten_nil, List.append_nil, List.append_assoc]
  have h2 := V_main_arg2 m c
  unfold V V0 at h2 ⊢
  rw [hsplit, after_append] at h2 ⊢
  generalize StableHlo.after (List.flatten [hostOps0, hostOps0_1, hostOps0_2, hostOps0_3, hostOps0_4]) (fun b => m (c, b)) = W at h2 ⊢
  unfold hostOps0_5 at h2 ⊢
  have h3 : StableHlo.after [StableHlo.unary main_arg2 main_v5 (broadcastInDim S65536x1 ![0] bcast_S65536_S65536x1_0 :
        (⟨S65536, .f32⟩ : BufTy).Contents (Elt Ideal) → (⟨S65536x1, .f32⟩ : BufTy).Contents (Elt Ideal))] W (Proc.devRef .tc main_arg2)
      = W (Proc.devRef .tc main_arg2) := by
    after_results
  rw [h3] at h2
  after_results
  rw [h2]

/-- Its entry (b, 0) is the event time of row b. -/
theorem V_main_v5_apply (c : Dev nD) (b : Fin 65536) :
    (V m c main_v5 : S65536x1.Idx → EReal) (ix2 b (0 : Fin 1)) = (m ((c : Thread nD τ).loc main_arg2) : S65536.Idx → EReal) (ix1 b) := by
  rw [V_main_v5]
  refine broadcastInDim_apply _ _ _ (ix2 b (0 : Fin 1)) (ix1 b) fun a => ?_
  match a with
  | ⟨0, _⟩ => rfl

end Cert.KernelIdeal.Hand

end
-- ==== Proof.KerLayout.lean ====
/-
  Layout operations of the row kernel read at coordinates.

  Every array of a block is indexed by a row `p` and, after it, a slot (history or negative) and a lane.  The body
  moves between the shapes [a], [a,1], [a,b], [a,1,b], [a,c,b] by shape casts, broadcasts and unit slices; each of
  them reads, at an index written by its coordinates, ONE entry of its operand, named here.  A sum or a maximum over
  the last axis reads the entries with the reduced coordinate put back in the last place.
-/
import Idealize.ShloMosaic.Lib.ValueIdx
import Idealize.ShloMosaic.Lib.ValueLayout
import Idealize.ShloMosaic.Lib.Pipeline.Value
import Idealize.ShloMosaic.PureOps.Ideal.Laws

namespace Cert.KernelIdeal.Hand

open Idealize.ShloMosaic Idealize.ShloMosaic.ValueIdx

variable {α : Type}

/-- A vector [a] cast to a column [a,1] reads, at (p, u), entry p. -/
theorem cast_a_a1 {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a,1] broadcast along rows to [a,b] reads, at (p, q), the column's entry of row p. -/
theorem bcast_a1_ab {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A matrix [a,b] cast to [a,1,b] reads, at (p, u, k), entry (p, k). -/
theorem cast_ab_a1b {a b : ℕ} (x : (⟨2, ![a, b]⟩ : Shape).Idx → α) (h : (⟨2, ![a, b]⟩ : Shape).ShapeCasts ⟨3, ![a, 1, b]⟩)
    (p : Fin a) (u : Fin 1) (k : Fin b) : shapeCast ⟨3, ![a, 1, b]⟩ x h (ix3 p u k) = x (ix2 p k) :=
  shapeCast_apply x h _ _ (by
    have hu : u.val = 0 := by omega
    rw [Shape.rowMajor_val_two, Shape.rowMajor_val_three]
    show p.val * b + k.val = (p.val * 1 + u.val) * b + k.val
    rw [hu, Nat.mul_one, Nat.add_zero])

/-- An array [a,1,b] cast to the matrix [a,b] reads, at (p, k), entry (p, 0, k). -/
theorem cast_a1b_ab {a b : ℕ} (x : (⟨3, ![a, 1, b]⟩ : Shape).Idx → α) (h : (⟨3, ![a, 1, b]⟩ : Shape).ShapeCasts ⟨2, ![a, b]⟩)
    (p : Fin a) (k : Fin b) : shapeCast ⟨2, ![a, b]⟩ x h (ix2 p k) = x (ix3 p (0 : Fin 1) k) :=
  shapeCast_apply x h _ _ (by
    rw [Shape.rowMajor_val_three, Shape.rowMajor_val_two]
    show (p.val * 1 + 0) * b + k.val = p.val * b + k.val
    rw [Nat.mul_one, Nat.add_zero])

/-- An array [a,1,b] broadcast along its middle axis to [a,c,b] reads, at (p, q, k), entry (p, 0, k). -/
theorem bcast_a1b_acb {a b c : ℕ} (x : (⟨3, ![a, 1, b]⟩ : Shape).Idx → α)
    (h : (⟨3, ![a, 1, b]⟩ : Shape).Broadcasts ⟨3, ![a, c, b]⟩) (p : Fin a) (q : Fin c) (k : Fin b) :
    broadcastTo ⟨3, ![a, c, b]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if b = 1 then 0 else k.val
    split
    · have := k.isLt; omega
    · rfl

/-! ## The reduced index with its coordinate put back -/

/-- Reducing the last axis of a matrix: row p with lane k put back is (p, k). -/
theorem lift_ab_a {a b : ℕ} (h : (⟨2, ![a, b]⟩ : Shape).Reduces [1] ⟨1, ![a]⟩) (p : Fin a) (k : Fin b) :
    h.lift (ix1 p) k = ix2 p k := by
  funext d
  match d with
  | ⟨0, _⟩ => rfl
  | ⟨1, _⟩ => rfl

/-- Reducing the last axis of a rank-3 array: (p, q) with lane k put back is (p, q, k). -/
theorem lift_acb_ac {a b c : ℕ} (h : (⟨3, ![a, c, b]⟩ : Shape).Reduces [2] ⟨2, ![a, c]⟩) (p : Fin a) (q : Fin c) (k : Fin b) :
    h.lift (ix2 p q) k = ix3 p q k := by
  funext d
  match d with
  | ⟨0, _⟩ => rfl
  | ⟨1, _⟩ => rfl
  | ⟨2, _⟩ => rfl

end Cert.KernelIdeal.Hand
-- ==== Proof.KerArith.lean ====
/-
  The scalar algebra of one row's loss, on the extended reals.

  Nothing here uses distributivity or cancellation (they fail at infinities): only that + and · commute and
  associate, that 0 is neutral, and that a comparison of an extended real with itself is decided.
    * a number differs from itself never, so the guard "x ≠ x" is the bit 0 and the select behind it takes its second branch;
    * the log-sigmoid as the body spells it (from n = 0 − z, with the guarded shortcut that is never taken) is `lsig z`;
    * the five-term accumulation  0 + c₀a₀ + … + c₄a₄  with cₕ = sₕ · dₕ  is  Σₕ (sₕ · aₕ) · dₕ.
-/
import Idealize.ShloMosaic.PureOps.Ideal.Laws
import Idealize.ShloMosaic.Lib.ValueIdx
import proofs.«155322_j32083405701144_2_alg».proof.Proof.Spec

namespace Cert.KernelIdeal.Hand

open Idealize.ShloMosaic Idealize.ShloMosaic.ValueIdx

/-! ## The pointwise transcendental operations read at an index -/

theorem exp_apply {s : Shape} {φ : FTy} (a : FVec Ideal s φ) (i : s.Idx) : Idealize.ShloMosaic.exp a i = Ideal.exp (a i) := rfl
theorem log1p_apply {s : Shape} {φ : FTy} (a : FVec Ideal s φ) (i : s.Idx) : Idealize.ShloMosaic.log1p a i = Ideal.log1p (a i) := rfl
theorem absf_apply {s : Shape} {φ : FTy} (a : FVec Ideal s φ) (i : s.Idx) : Idealize.ShloMosaic.absf a i = max (a i) (-(a i)) := rfl

/-! ## The guard that never fires -/

/-- No extended real differs from itself: the ordered-and-unequal comparison of `x` with `x` is the bit 0. -/
theorem cmp_one_self (x : EReal) : Ideal.cmp .one x x = 0#1 := by
  simp [Ideal.cmp]

/-- The same for the unordered-or-unequal comparison. -/
theorem cmp_une_self (x : EReal) : Ideal.cmp .une x x = 0#1 := by
  simp [Ideal.cmp]

/-- The select guarded by "x ≠ x" takes its second branch. -/
theorem select_one_self (x a b : EReal) : Scalar.select (Ideal.cmp .one x x) a b = b := by
  rw [cmp_one_self]; exact select_zero a b

theorem select_une_self (x a b : EReal) : Scalar.select (Ideal.cmp .une x x) a b = b := by
  rw [cmp_une_self]; exact select_zero a b

/-- The log-sigmoid as the body computes it from `n = 0 − z` and `m = max n 0`. -/
theorem lsig_body (z : EReal) :
    (0 : EReal) - Scalar.select (Ideal.cmp .one ((0 - z) - 0) ((0 - z) - 0)) ((0 - z) + 0)
        (max (0 - z) 0 + Ideal.log1p (Ideal.exp (0 - max ((0 - z) - 0) (-((0 - z) - 0)))))
      = Cert.Htne.lsig z := by
  rw [select_one_self]
  simp only [zero_sub, sub_zero]
  rfl

/-- The same with the two carried values kept apart: from any `n` and `m` the body leaves
    −(m + log(1 + exp(−|n|))). -/
theorem softplus_body (n m : EReal) :
    (0 : EReal) - Scalar.select (Ideal.cmp .one (n - 0) (n - 0)) (n + 0)
        (m + Ideal.log1p (Ideal.exp (0 - max (n - 0) (-(n - 0)))))
      = -(m + Ideal.log1p (Ideal.exp (-(max n (-n))))) := by
  rw [select_one_self]
  simp only [zero_sub, sub_zero]

/-- Five products added one after another from 0, each coefficient the product `s h · d h`, are the sum
    `Σₕ (s h · a h) · d h`. -/
theorem acc_five (s d a : Fin 5 → EReal) :
    ((((0 + (s 0 * d 0) * a 0) + (s 1 * d 1) * a 1) + (s 2 * d 2) * a 2) + (s 3 * d 3) * a 3) + (s 4 * d 4) * a 4
      = ∑ h : Fin 5, (s h * a h) * d h := by
  rw [Fin.sum_univ_five, zero_add, mul_right_comm (s 0), mul_right_comm (s 1), mul_right_comm (s 2),
    mul_right_comm (s 3), mul_right_comm (s 4)]

end Cert.KernelIdeal.Hand
-- ==== Proof.KerSqd.lean ====
/-
  The squared distances of one row, as the body computes them.

  The body subtracts two blocks entry by entry, squares, sums over the 128 lanes and negates by subtracting from 0.
  Read at row `p` (and, where there is one, at a history slot or a negative), each of these is minus the squared
  distance of the two rows' vectors:
    * source against target  (a column [1024,1]),
    * source against each of the five history vectors  (the attention logits, [1024,5]),
    * source against each of the two negatives  ([1024,2]),
    * history vector `o`, cut out of the history block by a unit slice, against each of the two negatives.
  A shape cast of a block to its own shape changes nothing.
-/
import proofs.«155322_j32083405701144_2_alg».proof.Proof.Gen.KernelIdeal.Skeleton
import proofs.«155322_j32083405701144_2_alg».proof.Proof.Spec
import proofs.«155322_j32083405701144_2_alg».proof.Proof.KerLayout

namespace Cert.KernelIdeal.Hand

open Idealize.ShloMosaic Idealize.ShloMosaic.ValueIdx
open Cert.Htne (sqd)

/-! ## Casts of a block to its own shape -/

theorem pay2_eq (v0 : Vec Ideal S1024x128 .f32) : Gen.k0_pay2 v0 = v0 := shapeCast_self v0 _
theorem pay3_eq (v4 : Vec Ideal S1024x5x128 .f32) : Gen.k0_pay3 v4 = v4 := shapeCast_self v4 _
theorem pay4_eq (v6 : Vec Ideal S1024x2x128 .f32) : Gen.k0_pay4 v6 = v6 := shapeCast_self v6 _
theorem pay5_eq (v8 : Vec Ideal S1024x1 .f32) : Gen.k0_pay5 v8 = v8 := shapeCast_self v8 _
theorem pay6_eq (v10 : Vec Ideal S1024x1 .f32) : Gen.k0_pay6 v10 = v10 := shapeCast_self v10 _

/-! ## Sums of squared differences over the lanes -/

/-- The lane sum of the squared difference of two matrices, at row p. -/
theorem sqsum_row (u v : FVec Ideal S1024x128 .f32) (hr : S1024x128.Reduces [1] S1024) (hφ) (hacc) (p : Fin 1024) :
    multiReduction .add [1] S1024 (mulf (subf u v) (subf u v)) 0x00000000#32 hr hφ hacc (ix1 p)
      = sqd (fun k => u (ix2 p k)) (fun k => v (ix2 p k)) := by
  rw [Ideal.multiReduction_add_single]
  show (∑ k : Fin 128, (mulf (subf u v) (subf u v)) (hr.lift (ix1 p) k)) = _
  unfold Cert.Htne.sqd
  refine Finset.sum_congr rfl fun k _ => ?_
  rw [lift_ab_a]; rfl

/-- The lane sum of the squared difference of two rank-3 arrays with `c` slots, at (p, q). -/
theorem sqsum_slot5 (u v : FVec Ideal S1024x5x128 .f32) (hr : S1024x5x128.Reduces [2] S1024x5) (hφ) (hacc) (p : Fin 1024) (q : Fin 5) :
    multiReduction .add [2] S1024x5 (mulf (subf u v) (subf u v)) 0x00000000#32 hr hφ hacc (ix2 p q)
      = sqd (fun k => u (ix3 p q k)) (fun k => v (ix3 p q k)) := by
  rw [Ideal.multiReduction_add_single]
  show (∑ k : Fin 128, (mulf (subf u v) (subf u v)) (hr.lift (ix2 p q) k)) = _
  unfold Cert.Htne.sqd
  refine Finset.sum_congr rfl fun k _ => ?_
  rw [lift_acb_ac]; rfl

theorem sqsum_slot2 (u v : FVec Ideal S1024x2x128 .f32) (hr : S1024x2x128.Reduces [2] S1024x2) (hφ) (hacc) (p : Fin 1024) (q : Fin 2) :
    multiReduction .add [2] S1024x2 (mulf (subf u v) (subf u v)) 0x00000000#32 hr hφ hacc (ix2 p q)
      = sqd (fun k => u (ix3 p q k)) (fun k => v (ix3 p q k)) := by
  rw [Ideal.multiReduction_add_single]
  show (∑ k : Fin 128, (mulf (subf u v) (subf u v)) (hr.lift (ix2 p q) k)) = _
  unfold Cert.Htne.sqd
  refine Finset.sum_congr rfl fun k _ => ?_
  rw [lift_acb_ac]; rfl

/-- A matrix spread over `c` slots (cast to [a,1,b], broadcast to [a,c,b]) reads its own row at every slot. -/
theorem spread5 (u : FVec Ideal S1024x128 .f32) (h1 : S1024x128.ShapeCasts S1024x1x128) (h2 : S1024x1x128.Broadcasts S1024x5x128)
    (p : Fin 1024) (q : Fin 5) (k : Fin 128) :
    broadcastTo S1024x5x128 (shapeCast S1024x1x128 u h1) h2 (ix3 p q k) = u (ix2 p k) := by
  rw [bcast_a1b_acb, cast_ab_a1b]

theorem spread2 (u : FVec Ideal S1024x128 .f32) (h1 : S1024x128.ShapeCasts S1024x1x128) (h2 : S1024x1x128.Broadcasts S1024x2x128)
    (p : Fin 1024) (q : Fin 2) (k : Fin 128) :
    broadcastTo S1024x2x128 (shapeCast S1024x1x128 u h1) h2 (ix3 p q k) = u (ix2 p k) := by
  rw [bcast_a1b_acb, cast_ab_a1b]

/-! ## The payloads -/

set_option backward.isDefEq.respectTransparency.types false in
/-- Source against target: minus their squared distance, at row p of the column. -/
theorem pay7_apply (v0 v2 : Vec Ideal S1024x128 .f32) (p : Fin 1024) :
    Gen.k0_pay7 v0 v2 (ix2 p (0 : Fin 1)) = -(sqd (fun k => v0 (ix2 p k)) (fun k => v2 (ix2 p k))) := by
  unfold Gen.k0_pay7
  rw [pay2_eq]
  dsimp only
  rw [subf_apply, broadcast_apply, cast_a_a1, shapeCast_self, sqsum_row]
  show Ideal.ofBits .f32 0x00000000#32 - _ = _
  rw [Ideal.ofBits_zero_f32, zero_sub]

set_option backward.isDefEq.respectTransparency.types false in
/-- Source against history slot q: the attention logit, minus their squared distance. -/
theorem pay8_apply (v0 : Vec Ideal S1024x128 .f32) (v4 : Vec Ideal S1024x5x128 .f32) (p : Fin 1024) (q : Fin 5) :
    Gen.k0_pay8 v0 v4 (ix2 p q) = -(sqd (fun k => v0 (ix2 p k)) (fun k => v4 (ix3 p q k))) := by
  unfold Gen.k0_pay8
  rw [pay2_eq, pay3_eq]
  dsimp only
  rw [subf_apply, broadcast_apply, sqsum_slot5]
  simp only [spread5]
  show Ideal.ofBits .f32 0x00000000#32 - _ = _
  rw [Ideal.ofBits_zero_f32, zero_sub]

set_option backward.isDefEq.respectTransparency.types false in
/-- Source against negative j: minus their squared distance. -/
theorem pay13_apply (v1 : FVec Ideal S1024x128 .f32) (v7 : FVec Ideal S1024x2x128 .f32) (p : Fin 1024) (j : Fin 2) :
    Gen.k0_pay13 v1 v7 (ix2 p j) = -(sqd (fun k => v1 (ix2 p k)) (fun k => v7 (ix3 p j k))) := by
  unfold Gen.k0_pay13
  dsimp only
  rw [subf_apply, broadcast_apply, sqsum_slot2]
  simp only [spread2]
  show Ideal.ofBits .f32 0x00000000#32 - _ = _
  rw [Ideal.ofBits_zero_f32, zero_sub]

/-- History vector `q` (the unit slice of the history block at offset `o = q`, as a matrix) spread over the two
    negatives reads, at (p, j, k), the history block at (p, q, k). -/
theorem hist_spread (v5 : FVec Ideal S1024x5x128 .f32) (o : ℕ) (hs : S1024x5x128.Slices ![0, o, 0] S1024x1x128)
    (h1 : S1024x1x128.ShapeCasts S1024x128) (h2 : S1024x128.ShapeCasts S1024x1x128) (h3 : S1024x1x128.Broadcasts S1024x2x128)
    (q : Fin 5) (hq : q.val = o) (p : Fin 1024) (j : Fin 2) (k : Fin 128) :
    broadcastTo S1024x2x128 (shapeCast S1024x1x128 (shapeCast S1024x128 (extractStridedSlice S1024x1x128 ![0, o, 0] v5 hs) h1) h2) h3 (ix3 p j k)
      = v5 (ix3 p q k) := by
  rw [bcast_a1b_acb, cast_ab_a1b, cast_a1b_ab]
  exact slice3_axis1_apply o v5 hs p (0 : Fin 1) k q (by rw [hq]; rfl)

set_option backward.isDefEq.respectTransparency.types false in
/-- History vector `q` against negative j, as the body computes it for each of the five slots:
    minus their squared distance. -/
theorem negsqd_hist (v5 : FVec Ideal S1024x5x128 .f32) (v7 : FVec Ideal S1024x2x128 .f32) (o : ℕ)
    (hs : S1024x5x128.Slices ![0, o, 0] S1024x1x128)
    (h1 : S1024x1x128.ShapeCasts S1024x128) (h2 : S1024x128.ShapeCasts S1024x1x128) (h3 : S1024x1x128.Broadcasts S1024x2x128)
    (hr : S1024x2x128.Reduces [2] S1024x2) (hφ) (hacc) (q : Fin 5) (hq : q.val = o) (p : Fin 1024) (j : Fin 2) :
    subf (broadcast S1024x2 (Scalar.ofBits (F := Ideal) .f32 0x00000000#32))
        (multiReduction .add [2] S1024x2
          (mulf (subf (broadcastTo S1024x2x128 (shapeCast S1024x1x128 (shapeCast S1024x128 (extractStridedSlice S1024x1x128 ![0, o, 0] v5 hs) h1) h2) h3) v7)
                (subf (broadcastTo S1024x2x128 (shapeCast S1024x1x128 (shapeCast S1024x128 (extractStridedSlice S1024x1x128 ![0, o, 0] v5 hs) h1) h2) h3) v7))
          0x00000000#32 hr hφ hacc) (ix2 p j)
      = -(sqd (fun k => v5 (ix3 p q k)) (fun k => v7 (ix3 p j k))) := by
  rw [subf_apply, broadcast_apply, sqsum_slot2]
  simp only [hist_spread v5 o hs h1 h2 h3 q hq]
  show Ideal.ofBits .f32 0x00000000#32 - _ = _
  rw [Ideal.ofBits_zero_f32, zero_sub]

/-- History slot 1 against negative j. -/
theorem pay15_apply (v5 : FVec Ideal S1024x5x128 .f32) (v7 : FVec Ideal S1024x2x128 .f32) (p : Fin 1024) (j : Fin 2) :
    Gen.k0_pay15 v5 v7 (ix2 p j) = -(sqd (fun k => v5 (ix3 p (1 : Fin 5) k)) (fun k => v7 (ix3 p j k))) := by
  unfold Gen.k0_pay15
  exact negsqd_hist v5 v7 1 _ _ _ _ _ _ _ (1 : Fin 5) rfl p j

end Cert.KernelIdeal.Hand
-- ==== Proof.KerSoft.lean ====
/-
  The attention weights and the time decay of one row, as the body computes them.

  From the five attention logits α of row `p` the body takes their maximum (folded from the word of −∞ and compared
  with it once more), subtracts it, exponentiates, and divides by the sum of the five exponentials: the softmax
  weight `soft α q`.  From the row's decay rate δ, event time e, history times τ and mask μ it forms
  exp(δ · |e − τ q|) · μ q, the absolute value as max(t, −t): `decay δ e τ μ q`.
-/
import proofs.«155322_j32083405701144_2_alg».proof.Proof.Gen.KernelIdeal.Skeleton
import proofs.«155322_j32083405701144_2_alg».proof.Proof.Spec
import proofs.«155322_j32083405701144_2_alg».proof.Proof.KerLayout
import proofs.«155322_j32083405701144_2_alg».proof.Proof.KerArith

namespace Cert.KernelIdeal.Hand

open Idealize.ShloMosaic Idealize.ShloMosaic.ValueIdx
open Cert.Htne (rmax soft decay)

set_option backward.isDefEq.respectTransparency.types false in
/-- The shifted exponential of logit q: exp(α q − rmax α), α the row's five logits. -/
theorem pay9_apply (v0 : Vec Ideal S1024x128 .f32) (v4 : Vec Ideal S1024x5x128 .f32) (p : Fin 1024) (q : Fin 5) :
    Gen.k0_pay9 v0 v4 (ix2 p q)
      = Ideal.exp (Gen.k0_pay8 v0 v4 (ix2 p q) - rmax (fun h => Gen.k0_pay8 v0 v4 (ix2 p h))) := by
  unfold Gen.k0_pay9
  try dsimp only
  rw [exp_apply, subf_apply, bcast_a1_ab, cast_a_a1, maximumf_apply, broadcast_apply, Ideal.multiReduction_maximumf_single]
  have e : (Gen.k0_pay8 v0 v4 ∘ Gen.reduces_S1024x5_S1024.lift (ix1 p)) = fun h : Fin 5 => Gen.k0_pay8 v0 v4 (ix2 p h) :=
    funext fun h => congrArg (Gen.k0_pay8 v0 v4) (lift_ab_a Gen.reduces_S1024x5_S1024 p h)
  rw [e]
  rfl

set_option backward.isDefEq.respectTransparency.types false in
/-- A row of five divided by its sum. -/
theorem pay10_apply (v33 : FVec Ideal S1024x5 .f32) (p : Fin 1024) (q : Fin 5) :
    Gen.k0_pay10 v33 (ix2 p q) = Ideal.div (v33 (ix2 p q)) (∑ h : Fin 5, v33 (ix2 p h)) := by
  unfold Gen.k0_pay10
  try dsimp only
  rw [divf_apply, bcast_a1_ab, cast_a_a1, Ideal.multiReduction_add_single]
  show Ideal.div _ (∑ h : Fin 5, v33 (Gen.reduces_S1024x5_S1024.lift (ix1 p) h)) = _
  simp only [lift_ab_a]

/-- The softmax weight of history slot q. -/
theorem soft_apply (v0 : Vec Ideal S1024x128 .f32) (v4 : Vec Ideal S1024x5x128 .f32) (p : Fin 1024) (q : Fin 5) :
    Gen.k0_pay10 (Gen.k0_pay9 v0 v4) (ix2 p q) = soft (fun h => Gen.k0_pay8 v0 v4 (ix2 p h)) q := by
  rw [pay10_apply]
  simp only [pay9_apply]
  rfl

/-- The masked time decay of history slot q. -/
theorem pay11_apply (v9 v11 : FVec Ideal S1024x1 .f32) (v12 v13 : Vec Ideal S1024x5 .f32) (p : Fin 1024) (q : Fin 5) :
    Gen.k0_pay11 v9 v11 v12 v13 (ix2 p q)
      = decay (v9 (ix2 p (0 : Fin 1))) (v11 (ix2 p (0 : Fin 1))) (fun h => v12 (ix2 p h)) (fun h => v13 (ix2 p h)) q := by
  unfold Gen.k0_pay11
  try dsimp only
  rw [mulf_apply, exp_apply, mulf_apply, bcast_a1_ab, absf_apply, subf_apply, bcast_a1_ab]
  rfl

end Cert.KernelIdeal.Hand
-- ==== Proof.KerScore.lean ====
/-
  The scores of one row, as the body accumulates them.

  The positive score adds to minus the source–target distance the lane sum, over the five history slots, of
  (weight · logit) · decay.  A negative's score is accumulated slot by slot: from 0, the body adds for each slot h the
  product of the coefficient (weight h · decay h), cut out of the two [1024,5] arrays by a unit column slice and
  spread over the two negatives, with minus the squared distance of history vector h and the negative; at the end it
  adds minus the source–negative distance.
-/
import proofs.«155322_j32083405701144_2_alg».proof.Proof.Gen.KernelIdeal.Skeleton
import proofs.«155322_j32083405701144_2_alg».proof.Proof.Spec
import proofs.«155322_j32083405701144_2_alg».proof.Proof.KerLayout
import proofs.«155322_j32083405701144_2_alg».proof.Proof.KerSqd

namespace Cert.KernelIdeal.Hand

open Idealize.ShloMosaic Idealize.ShloMosaic.ValueIdx
open Cert.Htne (sqd)

set_option backward.isDefEq.respectTransparency.types false in
/-- The positive score at row p. -/
theorem pay12_apply (v9 v11 : FVec Ideal S1024x1 .f32) (v12 v13 : Vec Ideal S1024x5 .f32) (v19 : FVec Ideal S1024x1 .f32)
    (v26 v33 : FVec Ideal S1024x5 .f32) (p : Fin 1024) :
    Gen.k0_pay12 v9 v11 v12 v13 v19 v26 v33 (ix2 p (0 : Fin 1))
      = v19 (ix2 p (0 : Fin 1))
        + ∑ h : Fin 5, (Gen.k0_pay10 v33 (ix2 p h) * v26 (ix2 p h)) * Gen.k0_pay11 v9 v11 v12 v13 (ix2 p h) := by
  unfold Gen.k0_pay12
  try dsimp only
  rw [addf_apply, cast_a_a1, Ideal.multiReduction_add_single]
  show _ + (∑ h : Fin 5, (mulf (mulf (Gen.k0_pay10 v33) v26) (Gen.k0_pay11 v9 v11 v12 v13)) (Gen.reduces_S1024x5_S1024.lift (ix1 p) h)) = _
  simp only [lift_ab_a]
  rfl

/-- Column `q` of a [1024,5] array, cut out by the unit slice at offset `o = q`. -/
theorem col_slice (X : FVec Ideal S1024x5 .f32) (o : ℕ) (hs : S1024x5.Slices ![0, o] S1024x1) (q : Fin 5) (hq : q.val = o)
    (p : Fin 1024) (u : Fin 1) : extractStridedSlice S1024x1 ![0, o] X hs (ix2 p u) = X (ix2 p q) :=
  slice2_axis1_apply o X hs p u q (by have : u.val = 0 := by omega
                                      omega)

/-- The coefficient of slot q (the product of the two columns), spread over the two negatives. -/
theorem coef_spread (A B : FVec Ideal S1024x5 .f32) (o : ℕ) (hs : S1024x5.Slices ![0, o] S1024x1) (hb : S1024x1.Broadcasts S1024x2)
    (q : Fin 5) (hq : q.val = o) (p : Fin 1024) (j : Fin 2) :
    broadcastTo S1024x2 (mulf (extractStridedSlice S1024x1 ![0, o] A hs) (extractStridedSlice S1024x1 ![0, o] B hs)) hb (ix2 p j)
      = A (ix2 p q) * B (ix2 p q) := by
  rw [bcast_a1_ab, mulf_apply, col_slice A o hs q hq, col_slice B o hs q hq]

/-- The coefficient of slot 1. -/
theorem pay16_apply (v9 v11 : FVec Ideal S1024x1 .f32) (v12 v13 : Vec Ideal S1024x5 .f32) (v33 : FVec Ideal S1024x5 .f32)
    (p : Fin 1024) (j : Fin 2) :
    Gen.k0_pay16 v9 v11 v12 v13 v33 (ix2 p j)
      = Gen.k0_pay10 v33 (ix2 p (1 : Fin 5)) * Gen.k0_pay11 v9 v11 v12 v13 (ix2 p (1 : Fin 5)) := by
  unfold Gen.k0_pay16
  exact coef_spread _ _ 1 _ _ (1 : Fin 5) rfl p j

set_option backward.isDefEq.respectTransparency.types false in
/-- The accumulation's first term: from 0, slot 0's coefficient times minus the distance of history vector 0 and negative j. -/
theorem pay14_apply (v5 : FVec Ideal S1024x5x128 .f32) (v7 : FVec Ideal S1024x2x128 .f32) (v9 v11 : FVec Ideal S1024x1 .f32)
    (v12 v13 : Vec Ideal S1024x5 .f32) (v33 : FVec Ideal S1024x5 .f32) (p : Fin 1024) (j : Fin 2) :
    Gen.k0_pay14 v5 v7 v9 v11 v12 v13 v33 (ix2 p j)
      = 0 + (Gen.k0_pay10 v33 (ix2 p (0 : Fin 5)) * Gen.k0_pay11 v9 v11 v12 v13 (ix2 p (0 : Fin 5)))
            * -(sqd (fun k => v5 (ix3 p (0 : Fin 5) k)) (fun k => v7 (ix3 p j k))) := by
  unfold Gen.k0_pay14
  try dsimp only
  rw [addf_apply, broadcast_apply, mulf_apply, coef_spread _ _ 0 _ _ (0 : Fin 5) rfl,
    negsqd_hist v5 v7 0 _ _ _ _ _ _ _ (0 : Fin 5) rfl]
  show Ideal.ofBits .f32 0x00000000#32 + _ = _
  rw [Ideal.ofBits_zero_f32]

set_option backward.isDefEq.respectTransparency.types false in
/-- A negative's score: minus the source–negative distance plus the accumulation carried on through slots 1 to 4. -/
theorem pay17_apply (v5 : FVec Ideal S1024x5x128 .f32) (v7 : FVec Ideal S1024x2x128 .f32) (v37 v44 : FVec Ideal S1024x5 .f32)
    (v56 v72 v81 v85 : FVec Ideal S1024x2 .f32) (p : Fin 1024) (j : Fin 2) :
    Gen.k0_pay17 v5 v7 v37 v44 v56 v72 v81 v85 (ix2 p j)
      = v56 (ix2 p j)
        + ((((v72 (ix2 p j) + v85 (ix2 p j) * v81 (ix2 p j))
            + (v37 (ix2 p (2 : Fin 5)) * v44 (ix2 p (2 : Fin 5))) * -(sqd (fun k => v5 (ix3 p (2 : Fin 5) k)) (fun k => v7 (ix3 p j k))))
            + (v37 (ix2 p (3 : Fin 5)) * v44 (ix2 p (3 : Fin 5))) * -(sqd (fun k => v5 (ix3 p (3 : Fin 5) k)) (fun k => v7 (ix3 p j k))))
            + (v37 (ix2 p (4 : Fin 5)) * v44 (ix2 p (4 : Fin 5))) * -(sqd (fun k => v5 (ix3 p (4 : Fin 5) k)) (fun k => v7 (ix3 p j k)))) := by
  unfold Gen.k0_pay17
  try dsimp only
  simp only [addf_apply, mulf_apply]
  rw [coef_spread v37 v44 2 _ _ (2 : Fin 5) rfl, negsqd_hist v5 v7 2 _ _ _ _ _ _ _ (2 : Fin 5) rfl,
    coef_spread v37 v44 3 _ _ (3 : Fin 5) rfl, negsqd_hist v5 v7 3 _ _ _ _ _ _ _ (3 : Fin 5) rfl,
    coef_spread v37 v44 4 _ _ (4 : Fin 5) rfl, negsqd_hist v5 v7 4 _ _ _ _ _ _ _ (4 : Fin 5) rfl]

end Cert.KernelIdeal.Hand
-- ==== Proof.KerLsig.lean ====
/-
  The log-sigmoids and the loss of one row, as the body computes them.

  From the positive score z the body carries n = 0 − z and m = max n 0, and forms
  0 − select(n ≠ n, n + 0, m + log(1 + exp(0 − |n − 0|))); the guard never fires, so this is −(m + log(1 + exp(−|n|))).
  Each negative's score goes the same way inside one block, and the row's loss is the first minus the sum, over the
  two negatives, of the second.
-/
import proofs.«155322_j32083405701144_2_alg».proof.Proof.Gen.KernelIdeal.Skeleton
import proofs.«155322_j32083405701144_2_alg».proof.Proof.Spec
import proofs.«155322_j32083405701144_2_alg».proof.Proof.KerLayout
import proofs.«155322_j32083405701144_2_alg».proof.Proof.KerArith

namespace Cert.KernelIdeal.Hand

open Idealize.ShloMosaic Idealize.ShloMosaic.ValueIdx
open Cert.Htne (lsig)

/-- The word of zero, as the scalar unit reads it. -/
theorem scalar_zero : (Scalar.ofBits (F := Ideal) .f32 0x00000000#32 : EReal) = 0 := Ideal.ofBits_zero_f32

/-- The word of zero, as the vector unit reads it. -/
theorem float_zero : (FloatOps.ofBits (F := Ideal) .f32 0x00000000#32 : EReal) = 0 := Ideal.ofBits_zero_f32

/-- n = 0 − z. -/
theorem pay18_apply (v49 : FVec Ideal S1024x1 .f32) (i : S1024x1.Idx) : Gen.k0_pay18 v49 i = 0 - v49 i := by
  unfold Gen.k0_pay18
  try dsimp only
  rw [subf_apply, broadcast_apply]
  show Ideal.ofBits .f32 0x00000000#32 - _ = _
  rw [Ideal.ofBits_zero_f32]

/-- m = max n 0. -/
theorem pay19_apply (v49 : FVec Ideal S1024x1 .f32) (i : S1024x1.Idx) : Gen.k0_pay19 v49 i = max (0 - v49 i) 0 := by
  unfold Gen.k0_pay19
  try dsimp only
  rw [maximumf_apply, broadcast_apply, pay18_apply]
  show max _ (Ideal.ofBits .f32 0x00000000#32) = _
  rw [Ideal.ofBits_zero_f32]

set_option backward.isDefEq.respectTransparency.types false in
/-- The row's loss from the carried values: −(m + log(1 + exp(−|n|))) minus the sum of the two negatives' log-sigmoids. -/
theorem pay1_apply (v133 : FVec Ideal S1024x2 .f32) (v135 v137 : FVec Ideal S1024x1 .f32) (p : Fin 1024) :
    Gen.k0_pay1 v133 v135 (Scalar.ofBits .f32 0x00000000#32) v137 (ix2 p (0 : Fin 1))
      = -(v137 (ix2 p (0 : Fin 1))
            + Ideal.log1p (Ideal.exp (-(max (v135 (ix2 p (0 : Fin 1))) (-(v135 (ix2 p (0 : Fin 1))))))))
        - ∑ j : Fin 2, lsig (v133 (ix2 p j)) := by
  unfold Gen.k0_pay1
  try dsimp only
  rw [subf_apply, cast_a_a1, Ideal.multiReduction_add_single]
  show _ - (∑ j : Fin 2, _) = _
  simp only [lift_ab_a, subf_apply, addf_apply, select_apply, cmpf_apply, broadcast_apply, exp_apply, log1p_apply,
    absf_apply, maximumf_apply, Ideal.cmpf_def, scalar_zero, float_zero]
  rw [softplus_body]
  simp only [lsig_body]

end Cert.KernelIdeal.Hand
-- ==== Proof.KerRow.lean ====
/-
  One row of a block: what the body stores at row `p` of its output column is the loss of that row.

  The body's one store covers the whole column, and its loads read the whole blocks, so the stored value is the
  body's arithmetic of the eight blocks.  Reading it at row `p` through the payloads — the squared distances, the
  softmax weights, the decay, the positive score, the negatives' accumulated scores, the log-sigmoids — gives the
  specification's `rowLoss` of the rows `p` of the eight blocks.
-/
import proofs.«155322_j32083405701144_2_alg».proof.Proof.Gen.KernelIdeal.Frame
import proofs.«155322_j32083405701144_2_alg».proof.Proof.Spec
import proofs.«155322_j32083405701144_2_alg».proof.Proof.KerLayout
import proofs.«155322_j32083405701144_2_alg».proof.Proof.KerArith
import proofs.«155322_j32083405701144_2_alg».proof.Proof.KerSqd
import proofs.«155322_j32083405701144_2_alg».proof.Proof.KerSoft
import proofs.«155322_j32083405701144_2_alg».proof.Proof.KerScore
import proofs.«155322_j32083405701144_2_alg».proof.Proof.KerLsig

namespace Cert.KernelIdeal.Hand

open Idealize.ShloMosaic Idealize.ShloMosaic.ValueIdx
open Cert.Htne (sqd soft decay lsig rowLoss)

theorem hz2 : (![0, 0] : Fin 2 → Nat) = fun _ => 0 := funext fun a => by fin_cases a <;> rfl
theorem hz3 : (![0, 0, 0] : Fin 3 → Nat) = fun _ => 0 := funext fun a => by fin_cases a <;> rfl

/-- From the carried n = 0 − z and m = max n 0: the log-sigmoid of z. -/
theorem lsig_carried (z : EReal) :
    -(max (0 - z) 0 + Ideal.log1p (Ideal.exp (-(max (0 - z) (-(0 - z)))))) = lsig z := by
  rw [zero_sub]; rfl

/-- The positive score of row p. -/
theorem pos_score (x0 x1 : Vec Ideal S1024x128 .f32) (x2 : Vec Ideal S1024x5x128 .f32) (x4 x5 : Vec Ideal S1024x1 .f32)
    (x6 x7 : Vec Ideal S1024x5 .f32) (p : Fin 1024) :
    Gen.k0_pay12 x4 x5 x6 x7 (Gen.k0_pay7 x0 x1) (Gen.k0_pay8 x0 x2) (Gen.k0_pay9 x0 x2) (ix2 p (0 : Fin 1))
      = -(sqd (fun k => x0 (ix2 p k)) (fun k => x1 (ix2 p k)))
        + ∑ h : Fin 5, (soft (fun h => -(sqd (fun k => x0 (ix2 p k)) (fun k => x2 (ix3 p h k)))) h
              * -(sqd (fun k => x0 (ix2 p k)) (fun k => x2 (ix3 p h k))))
            * decay (x4 (ix2 p (0 : Fin 1))) (x5 (ix2 p (0 : Fin 1))) (fun h => x6 (ix2 p h)) (fun h => x7 (ix2 p h)) h := by
  rw [pay12_apply, pay7_apply]
  simp only [soft_apply, pay8_apply, pay11_apply]

/-- The score of negative j of row p. -/
theorem neg_score (x0 : Vec Ideal S1024x128 .f32) (x2 : Vec Ideal S1024x5x128 .f32) (x3 : Vec Ideal S1024x2x128 .f32)
    (x4 x5 : Vec Ideal S1024x1 .f32) (x6 x7 : Vec Ideal S1024x5 .f32) (p : Fin 1024) (j : Fin 2) :
    Gen.k0_pay17 x2 x3 (Gen.k0_pay10 (Gen.k0_pay9 x0 x2)) (Gen.k0_pay11 x4 x5 x6 x7) (Gen.k0_pay13 x0 x3)
        (Gen.k0_pay14 x2 x3 x4 x5 x6 x7 (Gen.k0_pay9 x0 x2)) (Gen.k0_pay15 x2 x3) (Gen.k0_pay16 x4 x5 x6 x7 (Gen.k0_pay9 x0 x2)) (ix2 p j)
      = -(sqd (fun k => x0 (ix2 p k)) (fun k => x3 (ix3 p j k)))
        + ∑ h : Fin 5, (soft (fun h => -(sqd (fun k => x0 (ix2 p k)) (fun k => x2 (ix3 p h k)))) h
              * -(sqd (fun k => x2 (ix3 p h k)) (fun k => x3 (ix3 p j k))))
            * decay (x4 (ix2 p (0 : Fin 1))) (x5 (ix2 p (0 : Fin 1))) (fun h => x6 (ix2 p h)) (fun h => x7 (ix2 p h)) h := by
  rw [pay17_apply, pay13_apply, pay14_apply, pay15_apply, pay16_apply,
    acc_five (fun h => Gen.k0_pay10 (Gen.k0_pay9 x0 x2) (ix2 p h)) (fun h => Gen.k0_pay11 x4 x5 x6 x7 (ix2 p h))
      (fun h => -(sqd (fun k => x2 (ix3 p h k)) (fun k => x3 (ix3 p j k))))]
  simp only [soft_apply, pay8_apply, pay11_apply]

/-- What the body stores at row p of its output column. -/
theorem out_row (x0 x1 : Vec Ideal S1024x128 .f32) (x2 : Vec Ideal S1024x5x128 .f32) (x3 : Vec Ideal S1024x2x128 .f32)
    (x4 x5 : Vec Ideal S1024x1 .f32) (x6 x7 : Vec Ideal S1024x5 .f32) (p : Fin 1024) :
    Gen.out0_8 x0 x1 x2 x3 x4 x5 x6 x7 (ix2 p (0 : Fin 1))
      = rowLoss (fun k => x0 (ix2 p k)) (fun k => x1 (ix2 p k)) (fun h k => x2 (ix3 p h k)) (fun j k => x3 (ix3 p j k))
          (x4 (ix2 p (0 : Fin 1))) (x5 (ix2 p (0 : Fin 1))) (fun h => x6 (ix2 p h)) (fun h => x7 (ix2 p h)) := by
  unfold Gen.out0_8
  rw [View.canon_unit_zero hz2]
  simp only [View.ld_unit_zero (S := S1024x128) hz2, View.ld_unit_zero (S := S1024x5x128) hz3,
    View.ld_unit_zero (S := S1024x2x128) hz3, View.ld_unit_zero (S := S1024x1) hz2, View.ld_unit_zero (S := S1024x5) hz2,
    pay2_eq, pay3_eq, pay4_eq, pay5_eq, pay6_eq]
  rw [pay1_apply, pay19_apply, pay18_apply, lsig_carried, pos_score]
  simp only [neg_score]
  rfl

end Cert.KernelIdeal.Hand
-- ==== Proof.KerBlock.lean ====
/-
  What a point writes back is its block of one loss column.

  Let the eight blocks of a point `t` be rows 1024·t … 1024·t + 1023 of eight arrays over the whole batch (the event
  times through their column: the block's entry (p, 0) is the event time of row `row t p`).  Then the column the body
  stores — at row `p` the loss of the blocks' rows `p` — is block `t` of the batch's loss column, whose entry at row
  `b` is the loss of row `b` read off the eight arrays.
-/
import proofs.«155322_j32083405701144_2_alg».proof.Proof.Gen.KernelIdeal.Frame
import proofs.«155322_j32083405701144_2_alg».proof.Proof.Spec
import proofs.«155322_j32083405701144_2_alg».proof.Proof.KerRow
import proofs.«155322_j32083405701144_2_alg».proof.Proof.KerGrid
import proofs.«155322_j32083405701144_2_alg».proof.Proof.KerReads
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen
open Cert.Htne (lossAt rowLoss)

/-- The batch's loss as a column [65536,1]: at (b, 0) the loss of row b. -/
def colOf (X Y : S65536x128.Idx → EReal) (Hh : S65536x5x128.Idx → EReal) (Nn : S65536x2x128.Idx → EReal)
    (Dl : S65536x1.Idx → EReal) (E : S65536.Idx → EReal) (T M : S65536x5.Idx → EReal) : S65536x1.Idx → EReal :=
  fun i => lossAt X Y Hh Nn Dl E T M (i 0)

theorem colOf_apply (X Y : S65536x128.Idx → EReal) (Hh : S65536x5x128.Idx → EReal) (Nn : S65536x2x128.Idx → EReal)
    (Dl : S65536x1.Idx → EReal) (E : S65536.Idx → EReal) (T M : S65536x5.Idx → EReal) (b : Fin 65536) (u : Fin 1) :
    colOf X Y Hh Nn Dl E T M (ix2 b u) = lossAt X Y Hh Nn Dl E T M b := rfl

/-- The column the body stores from blocks that are rows of the batch's arrays is block `t` of the loss column. -/
theorem block_eq (t : Fin cfg0.N) (x0 x1 : Vec Ideal S1024x128 .f32) (x2 : Vec Ideal S1024x5x128 .f32) (x3 : Vec Ideal S1024x2x128 .f32)
    (x4 x5 : Vec Ideal S1024x1 .f32) (x6 x7 : Vec Ideal S1024x5 .f32)
    (X Y : S65536x128.Idx → EReal) (Hh : S65536x5x128.Idx → EReal) (Nn : S65536x2x128.Idx → EReal)
    (Dl : S65536x1.Idx → EReal) (E : S65536.Idx → EReal) (T M : S65536x5.Idx → EReal)
    (h0 : ∀ (p : Fin 1024) (k : Fin 128), x0 (ix2 p k) = X (ix2 (row t p) k))
    (h1 : ∀ (p : Fin 1024) (k : Fin 128), x1 (ix2 p k) = Y (ix2 (row t p) k))
    (h2 : ∀ (p : Fin 1024) (h : Fin 5) (k : Fin 128), x2 (ix3 p h k) = Hh (ix3 (row t p) h k))
    (h3 : ∀ (p : Fin 1024) (j : Fin 2) (k : Fin 128), x3 (ix3 p j k) = Nn (ix3 (row t p) j k))
    (h4 : ∀ p : Fin 1024, x4 (ix2 p (0 : Fin 1)) = Dl (ix2 (row t p) (0 : Fin 1)))
    (h5 : ∀ p : Fin 1024, x5 (ix2 p (0 : Fin 1)) = E (ix1 (row t p)))
    (h6 : ∀ (p : Fin 1024) (h : Fin 5), x6 (ix2 p h) = T (ix2 (row t p) h))
    (h7 : ∀ (p : Fin 1024) (h : Fin 5), x7 (ix2 p h) = M (ix2 (row t p) h)) :
    (out0_8 x0 x1 x2 x3 x4 x5 x6 x7 : S1024x1.Idx → EReal)
      = ((cfg0.win 8).blk t).view.read (Elt Ideal) (colOf X Y Hh Nn Dl E T M) := by
  funext y
  obtain ⟨p, u, rfl⟩ : ∃ (p : Fin 1024) (u : Fin 1), y = ix2 p u := ⟨y 0, y 1, eq_ix2 y⟩
  obtain rfl : u = 0 := Subsingleton.elim _ _
  rw [out_row]
  refine Eq.trans ?_ (blk8_read (colOf X Y Hh Nn Dl E T M) t p).symm
  rw [colOf_apply]
  unfold Cert.Htne.lossAt
  simp only [h0, h1, h2, h3, h4, h5, h6, h7]

end Cert.KernelIdeal.Hand

end
-- ==== Proof.KerArray.lean ====
/-
  The output array after the run is the batch's loss column.

  At every point the region writes back the body's column over that point's eight blocks; those blocks are rows of the
  arrays the region finds (the five gathered arrays, the event-time column, the history times and the mask as
  launched), so what point `t` writes is block `t` of the batch's loss column.  Row `b` lies in the block of point
  b / 1024, so the 64 blocks cover the output array, which therefore ends holding the loss column.
-/
import proofs.«155322_j32083405701144_2_alg».proof.Proof.Gen.KernelIdeal.Frame
import proofs.«155322_j32083405701144_2_alg».proof.Proof.Spec
import proofs.«155322_j32083405701144_2_alg».proof.Proof.KerGrid
import proofs.«155322_j32083405701144_2_alg».proof.Proof.KerReads
import proofs.«155322_j32083405701144_2_alg».proof.Proof.KerTimes
import proofs.«155322_j32083405701144_2_alg».proof.Proof.KerBlock
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-- The loss column of the run: over the five gathered arrays as the region finds them and the event times, history
    times and mask as launched. -/
def lossCol (c : Dev nD) : S65536x1.Idx → EReal :=
  colOf (V m c main_v0) (V m c main_v1) (V m c main_v2) (V m c main_v3) (V m c main_v4)
    (m ((c : Thread nD τ).loc main_arg2)) (m ((c : Thread nD τ).loc main_arg4)) (m ((c : Thread nD τ).loc main_arg6))

/-- What point `t` writes back is block `t` of the loss column. -/
theorem flushed_eq (c : Dev nD) (t : Fin cfg0.N) :
    (dats m 0 c).flushed 8 t = ((cfg0.win 8).blk t).view.read (Elt Ideal) (lossCol m c) := by
  show (cfg0.win 8).cut (grid0.coords t) ((dats m 0 c).after 8 t) = _
  rw [after0_8]
  exact block_eq t (iblk m c 0 t) (iblk m c 1 t) (iblk m c 2 t) (iblk m c 3 t) (iblk m c 4 t) (iblk m c 5 t) (iblk m c 6 t) (iblk m c 7 t)
    (V m c main_v0) (V m c main_v1) (V m c main_v2) (V m c main_v3) (V m c main_v4)
    (m ((c : Thread nD τ).loc main_arg2)) (m ((c : Thread nD τ).loc main_arg4)) (m ((c : Thread nD τ).loc main_arg6))
    (fun p k => blk0_read (V m c main_v0) t p k)
    (fun p k => blk1_read (V m c main_v1) t p k)
    (fun p h k => blk2_read (V m c main_v2) t p h k)
    (fun p j k => blk3_read (V m c main_v3) t p j k)
    (fun p => blk4_read (V m c main_v4) t p)
    (fun p => (blk5_read (V m c main_v5) t p).trans (V_main_v5_apply m c (row t p)))
    (fun p h => (blk6_read (V m c main_arg4) t p h).trans (congrFun (V_main_arg4 m c) _))
    (fun p h => (blk7_read (V m c main_arg6) t p h).trans (congrFun (V_main_arg6 m c) _))

/-- Every entry of the output array lies in the block of the point that owns its row. -/
theorem cover (i : S65536x1.Idx) :
    ∃ t : Fin cfg0.N, (cfg0.win 8).flush t = true ∧ i ∈ ((cfg0.win 8).blk t).view.set := by
  obtain ⟨b, u, rfl⟩ : ∃ (b : Fin 65536) (u : Fin 1), i = ix2 b u := ⟨i 0, i 1, eq_ix2 i⟩
  refine ⟨pointOf b, flush0_8 _, ?_⟩
  obtain ⟨-, -, -, -, -, -, -, -, ⟨e0, e1⟩⟩ := idx_facts (pointOf b)
  show ix2 b u ∈ ((View.whole main_v6).slice (win0_8.rect (pointOf b))).set
  rw [View.set_slice_whole, Rect.mem_set_unit]
  intro a
  have h0 : b.val < 65536 := b.isLt
  have h1 : u.val < 1 := u.isLt
  match a with
  | ⟨0, _⟩ =>
    show win0_8.index (pointOf b) (0 : Fin 2) * 1024 ≤ b.val
      ∧ b.val < win0_8.index (pointOf b) (0 : Fin 2) * 1024 + 1024
    rw [e0, pointOf_val]; omega
  | ⟨1, _⟩ =>
    show win0_8.index (pointOf b) (1 : Fin 2) * 1 ≤ u.val
      ∧ u.val < win0_8.index (pointOf b) (1 : Fin 2) * 1 + 1
    rw [e1]; omega

/-- The output array after the run. -/
theorem final (c : Dev nD) : (dats m 0 c).arrAt 8 cfg0.N = lossCol m c :=
  (dats m 0 c).arrAt_eq_of_cover 8 (lossCol m c) (fun t _ => flushed_eq m c t) cover

end Cert.KernelIdeal.Hand

end
-- ==== Proof.KerValue.lean ====
/-
  The kernel's run over the extended reals: its result is the batch's loss array.

  After the region one host operation drops the unit axis of the output column: the program's result, at row `b`, is
  the column's entry (b, 0), the loss of row `b` — the specification's `G` of the five gathered arrays as the region
  finds them and of the event times, history times and mask as launched.  Every weakly fair execution terminates there,
  and the nine argument arrays end as they were launched.
-/
import proofs.«155322_j32083405701144_2_alg».proof.Proof.Gen.KernelIdeal.Frame
import proofs.«155322_j32083405701144_2_alg».proof.Proof.Spec
import proofs.«155322_j32083405701144_2_alg».proof.Proof.KerArray
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- A column [a,1] cast to the vector [a] reads, at p, entry (p, 0). -/
theorem cast_a1_a {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_one, Shape.rowMajor_val_two]
    show p.val * 1 + 0 = p.val
    rw [Nat.mul_one, Nat.add_zero])

variable (m : (ℓ : Loc nD τ sig) → Buf (Elt Ideal) ℓ) (ρ : Dev nD → PrngReg)

/-- The result the host tail leaves: the loss column with its unit axis dropped. -/
theorem tail_v7 (c : Dev nD) :
    Pipeline.afterTail₀ cfgs (dats m) 0 (V0 m) [hostOps1] c main_v7
      = Cert.Htne.G (V m c main_v0) (V m c main_v1) (V m c main_v2) (V m c main_v3) (V m c main_v4)
          (m ((c.tc : Thread nD τ).loc main_arg2)) (m ((c.tc : Thread nD τ).loc main_arg4)) (m ((c.tc : Thread nD τ).loc main_arg6)) := by
  unfold Pipeline.afterTail₀
  show StableHlo.after hostOps1 _ (Proc.devRef .tc main_v7) = _
  unfold hostOps1
  after_results
  have hw : Pipeline.withArrays (cfgs 0).spec c (V0 m c) (fun w => (dats m 0 c).arrAt w (cfgs 0).N) (Proc.devRef .tc main_v6)
      = lossCol m c :=
    (Pipeline.withArrays_arr spec0 launch0.win.arr_inj c _ _ 8).trans (final m c)
  rw [hw]
  funext i
  obtain ⟨b, rfl⟩ : ∃ b : Fin 65536, i = ix1 b := ⟨i 0, eq_ix1 i⟩
  show shapeCast S65536 (lossCol m c) shapeCasts_S65536x1_S65536 (ix1 b) = _
  rw [cast_a1_a]
  rfl

/-- THE RUN of the kernel over the extended reals: every weakly fair execution terminates with the result at the batch's loss array
    `G` of the gathered arrays as the region finds them and of the event times, history times and mask as launched, and
    with the nine argument arrays as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = Cert.Htne.G (Gen.V m c main_v0) (Gen.V m c main_v1) (Gen.V m c main_v2) (Gen.V m c main_v3) (Gen.V m c main_v4)
              (m ((c.tc : Thread nD τ).loc main_arg2)) (m ((c.tc : Thread nD τ).loc main_arg4)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c))),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.RefStageFns.lean ====
/-
  The reference's arithmetic after its five gathers, as pure functions of whole arrays over the extended reals,
  one function per piece of the operation line and in the line's own spelling: the time differences |e − τ|, minus
  the squared distances (source–target, source–history, source–negative, history–negative), the softmax over the
  five history slots (shifted by the row maximum), the masked decay exp(δ·|e − τ|)·μ, the positive and the negative
  scores, the log-sigmoid −softplus(−z) with softplus y = max y 0 + log(1 + exp(−|y|)) guarded by the test y ≠ y,
  and the loss. `refLoss` composes them.
-/
import proofs.«155322_j32083405701144_2_alg».proof.Proof.Gen.ReferenceIdeal
import Idealize.ShloMosaic.PureOps.Ideal

noncomputable section

namespace Cert.ReferenceIdeal.Hand

open Cert.ReferenceIdeal Cert.ReferenceIdeal.Gen Idealize.ShloMosaic

/-- The scalar zero both sums start from. -/
abbrev zeroS : FVec Ideal S_ .f32 := constant (F := Ideal) S_ .f32 0x00000000#32

/-- The scalar −∞ the row maximum starts from. -/
abbrev ninfS : FVec Ideal S_ .f32 := constant (F := Ideal) S_ .f32 0xFF800000#32

/-- A value per row spread over the five history slots. -/
def colBc (v : FVec Ideal S65536 .f32) : FVec Ideal S65536x5 .f32 :=
  broadcastInDim S65536x5 ![0, 1] bcast_S65536x1_S65536x5_0_1 (broadcastInDim S65536x1 ![0] bcast_S65536_S65536x1_0 v)

/-- |e − τ h|. -/
def dtime (E : FVec Ideal S65536 .f32) (T : FVec Ideal S65536x5 .f32) : FVec Ideal S65536x5 .f32 :=
  Host.absf (subf (colBc E) T)

/-- −Σₖ (xₖ − yₖ)². -/
def pmu (X Y : FVec Ideal S65536x128 .f32) : FVec Ideal S65536 .f32 :=
  Host.negf (Host.reduceAdd (F := Ideal) (mulf (subf X Y) (subf X Y)) zeroS reducesTo_S65536x128_S65536_d1 h_S_)

/-- The source row beside each of the five history rows. -/
def xh (X : FVec Ideal S65536x128 .f32) : FVec Ideal S65536x5x128 .f32 :=
  broadcastInDim S65536x5x128 ![0, 1, 2] bcast_S65536x1x128_S65536x5x128_0_1_2
    (broadcastInDim S65536x1x128 ![0, 2] bcast_S65536x128_S65536x1x128_0_2 X)

/-- The attention logits −Σₖ (xₖ − (H h)ₖ)². -/
def alpha (X : FVec Ideal S65536x128 .f32) (Hh : FVec Ideal S65536x5x128 .f32) : FVec Ideal S65536x5 .f32 :=
  Host.negf (Host.reduceAdd (F := Ideal) (mulf (subf (xh X) Hh) (subf (xh X) Hh)) zeroS reducesTo_S65536x5x128_S65536x5_d2 h_S_)

/-- The row maximum of the logits, taken from −∞ and compared with −∞ once more. -/
def rowmax (a : FVec Ideal S65536x5 .f32) : FVec Ideal S65536 .f32 :=
  maximumf (broadcastInDim S65536 ![] bcast_S_S65536 ninfS)
    (Host.reduce (FloatOps.maximumf (F := Ideal)) a ninfS reducesTo_S65536x5_S65536_d1 h_S_)

/-- exp(α h − max). -/
def expo (a : FVec Ideal S65536x5 .f32) : FVec Ideal S65536x5 .f32 :=
  Host.exp (subf a (colBc (rowmax a)))

/-- The softmax weights. -/
def attn (a : FVec Ideal S65536x5 .f32) : FVec Ideal S65536x5 .f32 :=
  Host.divf (F := Ideal) (expo a) (colBc (Host.reduceAdd (F := Ideal) (expo a) zeroS reducesTo_S65536x5_S65536_d1 h_S_))

/-- exp(δ · |e − τ h|) · μ h. -/
def dec (Dl : FVec Ideal S65536x1 .f32) (dt M : FVec Ideal S65536x5 .f32) : FVec Ideal S65536x5 .f32 :=
  mulf (Host.exp (mulf (broadcastInDim S65536x5 ![0, 1] bcast_S65536x1_S65536x5_0_1 Dl) dt)) M

/-- The positive score: −|x − y|² + Σₕ (weight h · α h) · decay h. -/
def plam (pm : FVec Ideal S65536 .f32) (w al de : FVec Ideal S65536x5 .f32) : FVec Ideal S65536 .f32 :=
  addf pm (Host.reduceAdd (F := Ideal) (mulf (mulf w al) de) zeroS reducesTo_S65536x5_S65536_d1 h_S_)

/-- The source row beside each of the two negative rows. -/
def xn (X : FVec Ideal S65536x128 .f32) : FVec Ideal S65536x2x128 .f32 :=
  broadcastInDim S65536x2x128 ![0, 1, 2] bcast_S65536x1x128_S65536x2x128_0_1_2
    (broadcastInDim S65536x1x128 ![0, 2] bcast_S65536x128_S65536x1x128_0_2 X)

/-- −Σₖ (xₖ − (N j)ₖ)². -/
def nmu (X : FVec Ideal S65536x128 .f32) (Nn : FVec Ideal S65536x2x128 .f32) : FVec Ideal S65536x2 .f32 :=
  Host.negf (Host.reduceAdd (F := Ideal) (mulf (subf (xn X) Nn) (subf (xn X) Nn)) zeroS reducesTo_S65536x2x128_S65536x2_d2 h_S_)

/-- Each history row beside each negative row. -/
def hn4 (Hh : FVec Ideal S65536x5x128 .f32) : FVec Ideal S65536x5x2x128 .f32 :=
  broadcastInDim S65536x5x2x128 ![0, 1, 2, 3] bcast_S65536x5x1x128_S65536x5x2x128_0_1_2_3
    (broadcastInDim S65536x5x1x128 ![0, 1, 3] bcast_S65536x5x128_S65536x5x1x128_0_1_3 Hh)

/-- Each negative row beside each history row. -/
def nn4 (Nn : FVec Ideal S65536x2x128 .f32) : FVec Ideal S65536x5x2x128 .f32 :=
  broadcastInDim S65536x5x2x128 ![0, 1, 2, 3] bcast_S65536x1x2x128_S65536x5x2x128_0_1_2_3
    (broadcastInDim S65536x1x2x128 ![0, 2, 3] bcast_S65536x2x128_S65536x1x2x128_0_2_3 Nn)

/-- −Σₖ ((H h)ₖ − (N j)ₖ)². -/
def nalpha (Hh : FVec Ideal S65536x5x128 .f32) (Nn : FVec Ideal S65536x2x128 .f32) : FVec Ideal S65536x5x2 .f32 :=
  Host.negf (Host.reduceAdd (F := Ideal) (mulf (subf (hn4 Hh) (nn4 Nn)) (subf (hn4 Hh) (nn4 Nn))) zeroS
    reducesTo_S65536x5x2x128_S65536x5x2_d3 h_S_)

/-- A value per history slot spread over the two negatives. -/
def slot2 (v : FVec Ideal S65536x5 .f32) : FVec Ideal S65536x5x2 .f32 :=
  broadcastInDim S65536x5x2 ![0, 1, 2] bcast_S65536x5x1_S65536x5x2_0_1_2
    (broadcastInDim S65536x5x1 ![0, 1] bcast_S65536x5_S65536x5x1_0_1 v)

/-- The negative scores: −|x − N j|² + Σₕ (weight h · (−|H h − N j|²)) · decay h. -/
def nlam (nm : FVec Ideal S65536x2 .f32) (w : FVec Ideal S65536x5 .f32) (na : FVec Ideal S65536x5x2 .f32)
    (de : FVec Ideal S65536x5 .f32) : FVec Ideal S65536x2 .f32 :=
  addf nm (Host.reduceAdd (F := Ideal) (mulf (mulf (slot2 w) na) (slot2 de)) zeroS reducesTo_S65536x5x2_S65536x2_d1 h_S_)

/-- The zero spread over a shape. -/
def zeroV {S : Shape} (h : S_.BroadcastsInDim S (![] : Fin 0 → Fin S.rank)) : FVec Ideal S .f32 :=
  broadcastInDim S ![] h zeroS

/-- softplus, as printed: where y − 0 differs from itself the sum y + 0, elsewhere max y 0 + log(1 + exp(−|y − 0|)). -/
def splusV {S : Shape} (h : S_.BroadcastsInDim S (![] : Fin 0 → Fin S.rank)) (y : FVec Ideal S .f32) : FVec Ideal S .f32 :=
  select (cmpf .une (subf y (zeroV h)) (subf y (zeroV h))) (addf y (zeroV h))
    (addf (maximumf y (zeroV h)) (Host.log1p (Host.exp (Host.negf (Host.absf (subf y (zeroV h)))))))

/-- The log-sigmoid −softplus(−z). -/
def lsigV {S : Shape} (h : S_.BroadcastsInDim S (![] : Fin 0 → Fin S.rank)) (z : FVec Ideal S .f32) : FVec Ideal S .f32 :=
  Host.negf (splusV h (Host.negf z))

/-- The loss: the positive term minus the sum of the two negative terms. -/
def lossV (l1 : FVec Ideal S65536 .f32) (l2 : FVec Ideal S65536x2 .f32) : FVec Ideal S65536 .f32 :=
  subf l1 (Host.reduceAdd (F := Ideal) l2 zeroS reducesTo_S65536x2_S65536_d1 h_S_)

/-- The reference's loss array as a function of the gathered arrays, the event and history times and the mask. -/
def refLoss (X Y : FVec Ideal S65536x128 .f32) (Hh : FVec Ideal S65536x5x128 .f32) (Nn : FVec Ideal S65536x2x128 .f32)
    (Dl : FVec Ideal S65536x1 .f32) (E : FVec Ideal S65536 .f32) (T M : FVec Ideal S65536x5 .f32) : FVec Ideal S65536 .f32 :=
  lossV
    (lsigV bcast_S_S65536 (plam (pmu X Y) (attn (alpha X Hh)) (alpha X Hh) (dec Dl (dtime E T) M)))
    (lsigV bcast_S_S65536x2 (nlam (nmu X Nn) (attn (alpha X Hh)) (nalpha Hh Nn) (dec Dl (dtime E T) M)))

end Cert.ReferenceIdeal.Hand

end
-- ==== Proof.RefStageRun.lean ====
/-
  The reference's line read piece by piece. Each piece of the operation line is a step on the buffer contents
  (`stDt`, `stPmu`, …): it leaves every buffer it does not write as it found it, and the one buffer of it that
  later pieces read holds the piece's function (Proof/RefStageFns.lean) of the buffers the piece read. Composing
  the twelve pieces after the gathers, the result buffer holds `refLoss` of the five gathered arrays, the event
  times, the history times and the mask as the gathers left them; and the pieces after the gathers leave the
  gathered arrays, and all pieces leave the arguments, untouched.
-/
import proofs.«155322_j32083405701144_2_alg».proof.Proof.RefKeep
import proofs.«155322_j32083405701144_2_alg».proof.Proof.RefStageFns

noncomputable section

namespace Cert.ReferenceIdeal.Hand

open Cert.ReferenceIdeal Cert.ReferenceIdeal.Gen Idealize.ShloMosaic Idealize.ShloMosaic.TcCoe Idealize.SL.Sem Idealize.ShloMosaic.StableHlo

/-- Buffer contents over the extended reals. -/
abbrev Val : Type := Valuation τ sig (Elt Ideal)

/-- The contents after the first gather's operations. -/
def stTakeX (V : Val) : Val := after (opsTakeX (F := Ideal)) V
theorem stTakeX_keep (V : Val) (r : Ref sig .tc) (h : r ∉ opsTakeX_W) :
    stTakeX V (no_index (Proc.devRef .tc r)) = V (Proc.devRef .tc r) := opsTakeX_keep V r h

/-- The contents after the second gather's operations. -/
def stTakeY (V : Val) : Val := after (opsTakeY (F := Ideal)) V
theorem stTakeY_keep (V : Val) (r : Ref sig .tc) (h : r ∉ opsTakeY_W) :
    stTakeY V (no_index (Proc.devRef .tc r)) = V (Proc.devRef .tc r) := opsTakeY_keep V r h

/-- The contents after the third gather's operations. -/
def stTakeH (V : Val) : Val := after (opsTakeH (F := Ideal)) V
theorem stTakeH_keep (V : Val) (r : Ref sig .tc) (h : r ∉ opsTakeH_W) :
    stTakeH V (no_index (Proc.devRef .tc r)) = V (Proc.devRef .tc r) := opsTakeH_keep V r h

/-- The contents after the fourth gather's operations. -/
def stTakeN (V : Val) : Val := after (opsTakeN (F := Ideal)) V
theorem stTakeN_keep (V : Val) (r : Ref sig .tc) (h : r ∉ opsTakeN_W) :
    stTakeN V (no_index (Proc.devRef .tc r)) = V (Proc.devRef .tc r) := opsTakeN_keep V r h

/-- The contents after the fifth gather's operations. -/
def stTakeD (V : Val) : Val := after (opsTakeD (F := Ideal)) V
theorem stTakeD_keep (V : Val) (r : Ref sig .tc) (h : r ∉ opsTakeD_W) :
    stTakeD V (no_index (Proc.devRef .tc r)) = V (Proc.devRef .tc r) := opsTakeD_keep V r h

/-- The contents after the time differences's operations. -/
def stDt (V : Val) : Val := after (opsDt (F := Ideal)) V
theorem stDt_keep (V : Val) (r : Ref sig .tc) (h : r ∉ opsDt_W) :
    stDt V (no_index (Proc.devRef .tc r)) = V (Proc.devRef .tc r) := opsDt_keep V r h
set_option maxRecDepth 8192 in
set_option maxHeartbeats 1600000 in
theorem stDt_val (V : Val) : stDt V (no_index (Proc.devRef .tc main_v8)) = dtime (V (Proc.devRef .tc main_arg2)) (V (Proc.devRef .tc main_arg4)) := by
  unfold stDt
  simp only [opsDt]
  after_results_simp <;> rfl

/-- The contents after the source–target distance's operations. -/
def stPmu (V : Val) : Val := after (opsPmu (F := Ideal)) V
theorem stPmu_keep (V : Val) (r : Ref sig .tc) (h : r ∉ opsPmu_W) :
    stPmu V (no_index (Proc.devRef .tc r)) = V (Proc.devRef .tc r) := opsPmu_keep V r h
set_option maxRecDepth 8192 in
set_option maxHeartbeats 1600000 in
theorem stPmu_val (V : Val) : stPmu V (no_index (Proc.devRef .tc main_v12)) = pmu (V (Proc.devRef .tc main_v0)) (V (Proc.devRef .tc main_v1)) := by
  unfold stPmu
  simp only [opsPmu]
  after_results_simp <;> rfl

/-- The contents after the logits's operations. -/
def stAlpha (V : Val) : Val := after (opsAlpha (F := Ideal)) V
theorem stAlpha_keep (V : Val) (r : Ref sig .tc) (h : r ∉ opsAlpha_W) :
    stAlpha V (no_index (Proc.devRef .tc r)) = V (Proc.devRef .tc r) := opsAlpha_keep V r h
set_option maxRecDepth 8192 in
set_option maxHeartbeats 1600000 in
theorem stAlpha_val (V : Val) : stAlpha V (no_index (Proc.devRef .tc main_v18)) = alpha (V (Proc.devRef .tc main_v0)) (V (Proc.devRef .tc main_v2)) := by
  unfold stAlpha
  simp only [opsAlpha]
  after_results_simp <;> rfl

/-- The contents after the softmax's operations. -/
def stSoft (V : Val) : Val := after (opsSoft (F := Ideal)) V
theorem stSoft_keep (V : Val) (r : Ref sig .tc) (h : r ∉ opsSoft_W) :
    stSoft V (no_index (Proc.devRef .tc r)) = V (Proc.devRef .tc r) := opsSoft_keep V r h
set_option maxRecDepth 8192 in
set_option maxHeartbeats 1600000 in
theorem stSoft_val (V : Val) : stSoft V (no_index (Proc.devRef .tc main_v29)) = attn (V (Proc.devRef .tc main_v18)) := by
  unfold stSoft
  simp only [opsSoft]
  after_results_simp <;> rfl

/-- The contents after the decay's operations. -/
def stDecay (V : Val) : Val := after (opsDecay (F := Ideal)) V
theorem stDecay_keep (V : Val) (r : Ref sig .tc) (h : r ∉ opsDecay_W) :
    stDecay V (no_index (Proc.devRef .tc r)) = V (Proc.devRef .tc r) := opsDecay_keep V r h
set_option maxRecDepth 8192 in
set_option maxHeartbeats 1600000 in
theorem stDecay_val (V : Val) : stDecay V (no_index (Proc.devRef .tc main_v33)) = dec (V (Proc.devRef .tc main_v4)) (V (Proc.devRef .tc main_v8)) (V (Proc.devRef .tc main_arg6)) := by
  unfold stDecay
  simp only [opsDecay]
  after_results_simp <;> rfl

/-- The contents after the positive score's operations. -/
def stPlam (V : Val) : Val := after (opsPlam (F := Ideal)) V
theorem stPlam_keep (V : Val) (r : Ref sig .tc) (h : r ∉ opsPlam_W) :
    stPlam V (no_index (Proc.devRef .tc r)) = V (Proc.devRef .tc r) := opsPlam_keep V r h
set_option maxRecDepth 8192 in
set_option maxHeartbeats 1600000 in
theorem stPlam_val (V : Val) : stPlam V (no_index (Proc.devRef .tc main_v37)) = plam (V (Proc.devRef .tc main_v12)) (V (Proc.devRef .tc main_v29)) (V (Proc.devRef .tc main_v18)) (V (Proc.devRef .tc main_v33)) := by
  unfold stPlam
  simp only [opsPlam]
  after_results_simp <;> rfl

/-- The contents after the source–negative distances's operations. -/
def stNmu (V : Val) : Val := after (opsNmu (F := Ideal)) V
theorem stNmu_keep (V : Val) (r : Ref sig .tc) (h : r ∉ opsNmu_W) :
    stNmu V (no_index (Proc.devRef .tc r)) = V (Proc.devRef .tc r) := opsNmu_keep V r h
set_option maxRecDepth 8192 in
set_option maxHeartbeats 1600000 in
theorem stNmu_val (V : Val) : stNmu V (no_index (Proc.devRef .tc main_v43)) = nmu (V (Proc.devRef .tc main_v0)) (V (Proc.devRef .tc main_v3)) := by
  unfold stNmu
  simp only [opsNmu]
  after_results_simp <;> rfl

/-- The contents after the history–negative distances's operations. -/
def stNalpha (V : Val) : Val := after (opsNalpha (F := Ideal)) V
theorem stNalpha_keep (V : Val) (r : Ref sig .tc) (h : r ∉ opsNalpha_W) :
    stNalpha V (no_index (Proc.devRef .tc r)) = V (Proc.devRef .tc r) := opsNalpha_keep V r h
set_option maxRecDepth 8192 in
set_option maxHeartbeats 1600000 in
theorem stNalpha_val (V : Val) : stNalpha V (no_index (Proc.devRef .tc main_v51)) = nalpha (V (Proc.devRef .tc main_v2)) (V (Proc.devRef .tc main_v3)) := by
  unfold stNalpha
  simp only [opsNalpha]
  after_results_simp <;> rfl

/-- The contents after the negative scores's operations. -/
def stNlam (V : Val) : Val := after (opsNlam (F := Ideal)) V
theorem stNlam_keep (V : Val) (r : Ref sig .tc) (h : r ∉ opsNlam_W) :
    stNlam V (no_index (Proc.devRef .tc r)) = V (Proc.devRef .tc r) := opsNlam_keep V r h
set_option maxRecDepth 8192 in
set_option maxHeartbeats 1600000 in
theorem stNlam_val (V : Val) : stNlam V (no_index (Proc.devRef .tc main_v59)) = nlam (V (Proc.devRef .tc main_v43)) (V (Proc.devRef .tc main_v29)) (V (Proc.devRef .tc main_v51)) (V (Proc.devRef .tc main_v33)) := by
  unfold stNlam
  simp only [opsNlam]
  after_results_simp <;> rfl

/-- The contents after the positive log-sigmoid's operations. -/
def stLsP (V : Val) : Val := after (opsLsP (F := Ideal)) V
theorem stLsP_keep (V : Val) (r : Ref sig .tc) (h : r ∉ opsLsP_W) :
    stLsP V (no_index (Proc.devRef .tc r)) = V (Proc.devRef .tc r) := opsLsP_keep V r h
set_option maxRecDepth 8192 in
set_option maxHeartbeats 1600000 in
theorem stLsP_val (V : Val) : stLsP V (no_index (Proc.devRef .tc main_v60)) = lsigV bcast_S_S65536 (V (Proc.devRef .tc main_v37)) := by
  unfold stLsP
  simp only [opsLsP]
  after_results_simp <;> rfl

/-- The contents after the negative log-sigmoids's operations. -/
def stLsN (V : Val) : Val := after (opsLsN (F := Ideal)) V
theorem stLsN_keep (V : Val) (r : Ref sig .tc) (h : r ∉ opsLsN_W) :
    stLsN V (no_index (Proc.devRef .tc r)) = V (Proc.devRef .tc r) := opsLsN_keep V r h
set_option maxRecDepth 8192 in
set_option maxHeartbeats 1600000 in
theorem stLsN_val (V : Val) : stLsN V (no_index (Proc.devRef .tc main_v61)) = lsigV bcast_S_S65536x2 (V (Proc.devRef .tc main_v59)) := by
  unfold stLsN
  simp only [opsLsN]
  after_results_simp <;> rfl

/-- The contents after the loss's operations. -/
def stEnd (V : Val) : Val := after (opsEnd (F := Ideal)) V
theorem stEnd_keep (V : Val) (r : Ref sig .tc) (h : r ∉ opsEnd_W) :
    stEnd V (no_index (Proc.devRef .tc r)) = V (Proc.devRef .tc r) := opsEnd_keep V r h
set_option maxRecDepth 8192 in
set_option maxHeartbeats 1600000 in
theorem stEnd_val (V : Val) : stEnd V (no_index (Proc.devRef .tc main_v63)) = lossV (V (Proc.devRef .tc main_v60)) (V (Proc.devRef .tc main_v61)) := by
  unfold stEnd
  simp only [opsEnd]
  after_results_simp <;> rfl

/-- The contents after the five gathers. -/
def gathV (V : Val) : Val := stTakeD (stTakeN (stTakeH (stTakeY (stTakeX (V)))))

/-- The contents after the twelve pieces that follow the gathers. -/
def tailV (V : Val) : Val := stEnd (stLsN (stLsP (stNlam (stNalpha (stNmu (stPlam (stDecay (stSoft (stAlpha (stPmu (stDt (V))))))))))))

/-- The whole line is the gathers, then the rest. -/
theorem after_ops_eq (V : Val) : after (ops (F := Ideal)) V = tailV (gathV V) := after_ops V

set_option maxRecDepth 8192 in
/-- After the pieces that follow the gathers the result buffer holds `refLoss` of what those pieces found in the five
    gathered arrays' buffers and in the event-time, history-time and mask arguments. -/
theorem tail_val (V : Val) :
    tailV V (Proc.devRef .tc main_v63) = refLoss (V (Proc.devRef .tc main_v0)) (V (Proc.devRef .tc main_v1)) (V (Proc.devRef .tc main_v2)) (V (Proc.devRef .tc main_v3))
      (V (Proc.devRef .tc main_v4)) (V (Proc.devRef .tc main_arg2)) (V (Proc.devRef .tc main_arg4)) (V (Proc.devRef .tc main_arg6)) := by
  unfold tailV
  simp (disch := decide) only [stEnd_val, stLsN_val, stLsP_val, stNlam_val, stNalpha_val, stNmu_val, stPlam_val, stDecay_val, stSoft_val, stAlpha_val, stPmu_val, stDt_val,
    stEnd_keep, stLsN_keep, stLsP_keep, stNlam_keep, stNalpha_keep, stNmu_keep, stPlam_keep, stDecay_keep, stSoft_keep, stAlpha_keep, stPmu_keep, stDt_keep] <;> rfl

theorem tail_keep_v0 (V : Val) : tailV V (Proc.devRef .tc main_v0) = V (Proc.devRef .tc main_v0) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_v1 (V : Val) : tailV V (Proc.devRef .tc main_v1) = V (Proc.devRef .tc main_v1) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_v2 (V : Val) : tailV V (Proc.devRef .tc main_v2) = V (Proc.devRef .tc main_v2) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_v3 (V : Val) : tailV V (Proc.devRef .tc main_v3) = V (Proc.devRef .tc main_v3) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_v4 (V : Val) : tailV V (Proc.devRef .tc main_v4) = V (Proc.devRef .tc main_v4) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg0 (V : Val) : tailV V (Proc.devRef .tc main_arg0) = V (Proc.devRef .tc main_arg0) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg1 (V : Val) : tailV V (Proc.devRef .tc main_arg1) = V (Proc.devRef .tc main_arg1) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg2 (V : Val) : tailV V (Proc.devRef .tc main_arg2) = V (Proc.devRef .tc main_arg2) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg3 (V : Val) : tailV V (Proc.devRef .tc main_arg3) = V (Proc.devRef .tc main_arg3) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg4 (V : Val) : tailV V (Proc.devRef .tc main_arg4) = V (Proc.devRef .tc main_arg4) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg5 (V : Val) : tailV V (Proc.devRef .tc main_arg5) = V (Proc.devRef .tc main_arg5) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg6 (V : Val) : tailV V (Proc.devRef .tc main_arg6) = V (Proc.devRef .tc main_arg6) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg7 (V : Val) : tailV V (Proc.devRef .tc main_arg7) = V (Proc.devRef .tc main_arg7) := by
  unfold tailV; simp (disch := decide) only [stEnd_keep, stLsN_keep, stLsP_keep, stNlam_keep, stNalpha_keep, stNmu_keep, stPlam_keep, stDecay_keep, stSoft_keep, stAlpha_keep, stPmu_keep, stDt_keep]
theorem tail_keep_arg8 (V : Val) : tailV V (Proc.devRef .tc main_arg8) = V (Proc.devRef .tc main_arg8) := by
  unfold tailV; simp (disch := decide) only [stEnd_keep, stLsN_keep, stLsP_keep, stNlam_keep, stNalpha_keep, stNmu_keep, stPlam_keep, stDecay_keep, stSoft_keep, stAlpha_keep, stPmu_keep, stDt_keep]
theorem gath_keep_arg0 (V : Val) : gathV V (Proc.devRef .tc main_arg0) = V (Proc.devRef .tc main_arg0) := by
  unfold gathV; simp (disch := decide) only [stTakeD_keep, stTakeN_keep, stTakeH_keep, stTakeY_keep, stTakeX_keep]
theorem gath_keep_arg1 (V : Val) : gathV V (Proc.devRef .tc main_arg1) = V (Proc.devRef .tc main_arg1) := by
  unfold gathV; simp (disch := decide) only [stTakeD_keep, stTakeN_keep, stTakeH_keep, stTakeY_keep, stTakeX_keep]
theorem gath_keep_arg2 (V : Val) : gathV V (Proc.devRef .tc main_arg2) = V (Proc.devRef .tc main_arg2) := by
  unfold gathV; simp (disch := decide) only [stTakeD_keep, stTakeN_keep, stTakeH_keep, stTakeY_keep, stTakeX_keep]
theorem gath_keep_arg3 (V : Val) : gathV V (Proc.devRef .tc main_arg3) = V (Proc.devRef .tc main_arg3) := by
  unfold gathV; simp (disch := decide) only [stTakeD_keep, stTakeN_keep, stTakeH_keep, stTakeY_keep, stTakeX_keep]
theorem gath_keep_arg4 (V : Val) : gathV V (Proc.devRef .tc main_arg4) = V (Proc.devRef .tc main_arg4) := by
  unfold gathV; simp (disch := decide) only [stTakeD_keep, stTakeN_keep, stTakeH_keep, stTakeY_keep, stTakeX_keep]
theorem gath_keep_arg5 (V : Val) : gathV V (Proc.devRef .tc main_arg5) = V (Proc.devRef .tc main_arg5) := by
  unfold gathV; simp (disch := decide) only [stTakeD_keep, stTakeN_keep, stTakeH_keep, stTakeY_keep, stTakeX_keep]
theorem gath_keep_arg6 (V : Val) : gathV V (Proc.devRef .tc main_arg6) = V (Proc.devRef .tc main_arg6) := by
  unfold gathV; simp (disch := decide) only [stTakeD_keep, stTakeN_keep, stTakeH_keep, stTakeY_keep, stTakeX_keep]
theorem gath_keep_arg7 (V : Val) : gathV V (Proc.devRef .tc main_arg7) = V (Proc.devRef .tc main_arg7) := by
  unfold gathV; simp (disch := decide) only [stTakeD_keep, stTakeN_keep, stTakeH_keep, stTakeY_keep, stTakeX_keep]
theorem gath_keep_arg8 (V : Val) : gathV V (Proc.devRef .tc main_arg8) = V (Proc.devRef .tc main_arg8) := by
  unfold gathV; simp (disch := decide) only [stTakeD_keep, stTakeN_keep, stTakeH_keep, stTakeY_keep, stTakeX_keep]

/-- The line's result: `refLoss` of the five gathered arrays as the line leaves them and of three arguments. -/
theorem run_val (V : Val) :
    after (ops (F := Ideal)) V (Proc.devRef .tc main_v63)
      = refLoss (after (ops (F := Ideal)) V (Proc.devRef .tc main_v0)) (after (ops (F := Ideal)) V (Proc.devRef .tc main_v1))
          (after (ops (F := Ideal)) V (Proc.devRef .tc main_v2)) (after (ops (F := Ideal)) V (Proc.devRef .tc main_v3))
          (after (ops (F := Ideal)) V (Proc.devRef .tc main_v4)) (V (Proc.devRef .tc main_arg2)) (V (Proc.devRef .tc main_arg4)) (V (Proc.devRef .tc main_arg6)) := by
  rw [after_ops_eq, tail_val, tail_keep_v0, tail_keep_v1, tail_keep_v2, tail_keep_v3, tail_keep_v4,
    gath_keep_arg2, gath_keep_arg4, gath_keep_arg6]

/-- The line leaves argument 0 as it found it. -/
theorem run_arg0 (V : Val) : after (ops (F := Ideal)) V (Proc.devRef .tc main_arg0) = V (Proc.devRef .tc main_arg0) := by
  rw [after_ops_eq, tail_keep_arg0, gath_keep_arg0]
/-- The line leaves argument 1 as it found it. -/
theorem run_arg1 (V : Val) : after (ops (F := Ideal)) V (Proc.devRef .tc main_arg1) = V (Proc.devRef .tc main_arg1) := by
  rw [after_ops_eq, tail_keep_arg1, gath_keep_arg1]
/-- The line leaves argument 2 as it found it. -/
theorem run_arg2 (V : Val) : after (ops (F := Ideal)) V (Proc.devRef .tc main_arg2) = V (Proc.devRef .tc main_arg2) := by
  rw [after_ops_eq, tail_keep_arg2, gath_keep_arg2]
/-- The line leaves argument 3 as it found it. -/
theorem run_arg3 (V : Val) : after (ops (F := Ideal)) V (Proc.devRef .tc main_arg3) = V (Proc.devRef .tc main_arg3) := by
  rw [after_ops_eq, tail_keep_arg3, gath_keep_arg3]
/-- The line leaves argument 4 as it found it. -/
theorem run_arg4 (V : Val) : after (ops (F := Ideal)) V (Proc.devRef .tc main_arg4) = V (Proc.devRef .tc main_arg4) := by
  rw [after_ops_eq, tail_keep_arg4, gath_keep_arg4]
/-- The line leaves argument 5 as it found it. -/
theorem run_arg5 (V : Val) : after (ops (F := Ideal)) V (Proc.devRef .tc main_arg5) = V (Proc.devRef .tc main_arg5) := by
  rw [after_ops_eq, tail_keep_arg5, gath_keep_arg5]
/-- The line leaves argument 6 as it found it. -/
theorem run_arg6 (V : Val) : after (ops (F := Ideal)) V (Proc.devRef .tc main_arg6) = V (Proc.devRef .tc main_arg6) := by
  rw [after_ops_eq, tail_keep_arg6, gath_keep_arg6]
/-- The line leaves argument 7 as it found it. -/
theorem run_arg7 (V : Val) : after (ops (F := Ideal)) V (Proc.devRef .tc main_arg7) = V (Proc.devRef .tc main_arg7) := by
  rw [after_ops_eq, tail_keep_arg7, gath_keep_arg7]
/-- The line leaves argument 8 as it found it. -/
theorem run_arg8 (V : Val) : after (ops (F := Ideal)) V (Proc.devRef .tc main_arg8) = V (Proc.devRef .tc main_arg8) := by
  rw [after_ops_eq, tail_keep_arg8, gath_keep_arg8]

end Cert.ReferenceIdeal.Hand

end
-- ==== Proof.RefStageIdx.lean ====
/-
  The reference's stage functions read at an index, and their composition as the specification.
  A layout step (a row value spread over slots, a row beside each history or negative row) reads its operand at
  the index with the new axis dropped; a sum along the last or the slot axis is the finite sum over that axis's
  coordinate, started from the zero word, which is 0; the row maximum is the fold of max from the word of −∞.
  With these every stage function at row b (and slot h, negative j) is the specification's expression of row b's
  entries: −sqd, soft, decay, the two scores, lsig (the test y ≠ y is false on the extended reals, and y − 0 = y),
  and the loss. No law beyond 0 + a = a and a − 0 = a is used.
-/
import proofs.«155322_j32083405701144_2_alg».proof.Proof.RefStageFns
import proofs.«155322_j32083405701144_2_alg».proof.Proof.Spec
import Idealize.ShloMosaic.Lib.ValueIdx
import Idealize.ShloMosaic.Lib.Pipeline.Value
import Idealize.ShloMosaic.Lib.IdealHost
import Idealize.ShloMosaic.PureOps.Ideal.Laws
import Idealize.ShloMosaic.PureOps.Reduce

noncomputable section

namespace Cert.ReferenceIdeal.Hand

open Cert.ReferenceIdeal Cert.ReferenceIdeal.Gen Idealize.ShloMosaic Idealize.ShloMosaic.ValueIdx

/-! ## Layout steps read at an index -/

theorem colBc_apply (v : FVec Ideal S65536 .f32) (b : Fin 65536) (h : Fin 5) : colBc v (ix2 b h) = v (ix1 b) := by
  unfold colBc
  exact (broadcastInDim_apply _ _ _ (ix2 b h) (ix2 b (0 : Fin 1)) (fun a => by match a with | ⟨0, _⟩ => rfl | ⟨1, _⟩ => rfl)).trans
    (broadcastInDim_apply _ _ _ (ix2 b (0 : Fin 1)) (ix1 b) (fun a => by match a with | ⟨0, _⟩ => rfl))

theorem dlBc_apply (Dl : FVec Ideal S65536x1 .f32) (b : Fin 65536) (h : Fin 5) :
    broadcastInDim S65536x5 ![0, 1] bcast_S65536x1_S65536x5_0_1 Dl (ix2 b h) = Dl (ix2 b (0 : Fin 1)) :=
  broadcastInDim_apply _ _ _ (ix2 b h) (ix2 b (0 : Fin 1)) (fun a => by match a with | ⟨0, _⟩ => rfl | ⟨1, _⟩ => rfl)

theorem xh_apply (X : FVec Ideal S65536x128 .f32) (b : Fin 65536) (h : Fin 5) (k : Fin 128) : xh X (ix3 b h k) = X (ix2 b k) := by
  unfold xh
  exact (broadcastInDim_apply _ _ _ (ix3 b h k) (ix3 b (0 : Fin 1) k)
      (fun a => by match a with | ⟨0, _⟩ => rfl | ⟨1, _⟩ => rfl | ⟨2, _⟩ => rfl)).trans
    (broadcastInDim_apply _ _ _ (ix3 b (0 : Fin 1) k) (ix2 b k) (fun a => by match a with | ⟨0, _⟩ => rfl | ⟨1, _⟩ => rfl))

theorem xn_apply (X : FVec Ideal S65536x128 .f32) (b : Fin 65536) (j : Fin 2) (k : Fin 128) : xn X (ix3 b j k) = X (ix2 b k) := by
  unfold xn
  exact (broadcastInDim_apply _ _ _ (ix3 b j k) (ix3 b (0 : Fin 1) k)
      (fun a => by match a with | ⟨0, _⟩ => rfl | ⟨1, _⟩ => rfl | ⟨2, _⟩ => rfl)).trans
    (broadcastInDim_apply _ _ _ (ix3 b (0 : Fin 1) k) (ix2 b k) (fun a => by match a with | ⟨0, _⟩ => rfl | ⟨1, _⟩ => rfl))

theorem hn4_apply (Hh : FVec Ideal S65536x5x128 .f32) (b : Fin 65536) (h : Fin 5) (j : Fin 2) (k : Fin 128) :
    hn4 Hh (ix4 b h j k) = Hh (ix3 b h k) := by
  unfold hn4
  exact (broadcastInDim_apply _ _ _ (ix4 b h j k) (ix4 b h (0 : Fin 1) k)
      (fun a => by match a with | ⟨0, _⟩ => rfl | ⟨1, _⟩ => rfl | ⟨2, _⟩ => rfl | ⟨3, _⟩ => rfl)).trans
    (broadcastInDim_apply _ _ _ (ix4 b h (0 : Fin 1) k) (ix3 b h k)
      (fun a => by match a with | ⟨0, _⟩ => rfl | ⟨1, _⟩ => rfl | ⟨2, _⟩ => rfl))

theorem nn4_apply (Nn : FVec Ideal S65536x2x128 .f32) (b : Fin 65536) (h : Fin 5) (j : Fin 2) (k : Fin 128) :
    nn4 Nn (ix4 b h j k) = Nn (ix3 b j k) := by
  unfold nn4
  exact (broadcastInDim_apply _ _ _ (ix4 b h j k) (ix4 b (0 : Fin 1) j k)
      (fun a => by match a with | ⟨0, _⟩ => rfl | ⟨1, _⟩ => rfl | ⟨2, _⟩ => rfl | ⟨3, _⟩ => rfl)).trans
    (broadcastInDim_apply _ _ _ (ix4 b (0 : Fin 1) j k) (ix3 b j k)
      (fun a => by match a with | ⟨0, _⟩ => rfl | ⟨1, _⟩ => rfl | ⟨2, _⟩ => rfl))

theorem slot2_apply (v : FVec Ideal S65536x5 .f32) (b : Fin 65536) (h : Fin 5) (j : Fin 2) : slot2 v (ix3 b h j) = v (ix2 b h) := by
  unfold slot2
  exact (broadcastInDim_apply _ _ _ (ix3 b h j) (ix3 b h (0 : Fin 1))
      (fun a => by match a with | ⟨0, _⟩ => rfl | ⟨1, _⟩ => rfl | ⟨2, _⟩ => rfl)).trans
    (broadcastInDim_apply _ _ _ (ix3 b h (0 : Fin 1)) (ix2 b h) (fun a => by match a with | ⟨0, _⟩ => rfl | ⟨1, _⟩ => rfl))

/-- The zero word is 0, wherever it is spread. -/
theorem zeroV_apply {S : Shape} (h : S_.BroadcastsInDim S (![] : Fin 0 → Fin S.rank)) (i : S.Idx) : zeroV h i = (0 : EReal) := by
  unfold zeroV
  exact (broadcastInDim_scalar_apply h zeroS i).trans Ideal.ofBits_zero_f32

/-! ## Sums and the maximum along one axis -/

/-- A host sum along one axis from the zero word: the finite sum over that axis's coordinate. -/
theorem sum_single {s t : Shape} {a : Fin s.rank} (h' : s.ReducesTo [a] t) (h : s.Reduces [a] t) (x : FVec Ideal s .f32) (j : t.Idx) :
    Host.reduceAdd (F := Ideal) x zeroS h' h_S_ j = ∑ k : Fin (s.size a), x (h.lift j k) := by
  rw [hostReduceAdd_apply, Ideal.hostReduceAdd_single h' h,
    show zeroS (Shape.Idx.first h_S_) = (0 : EReal) from Ideal.ofBits_zero_f32, zero_add]

theorem lift_x128 (h : S65536x128.Reduces [1] S65536) (b : Fin 65536) (k : Fin 128) : h.lift (ix1 b) k = ix2 b k := by
  funext d; match d with | ⟨0, _⟩ => rfl | ⟨1, _⟩ => rfl

theorem lift_x5 (h : S65536x5.Reduces [1] S65536) (b : Fin 65536) (k : Fin 5) : h.lift (ix1 b) k = ix2 b k := by
  funext d; match d with | ⟨0, _⟩ => rfl | ⟨1, _⟩ => rfl

theorem lift_x2 (h : S65536x2.Reduces [1] S65536) (b : Fin 65536) (k : Fin 2) : h.lift (ix1 b) k = ix2 b k := by
  funext d; match d with | ⟨0, _⟩ => rfl | ⟨1, _⟩ => rfl

theorem lift_x5x128 (h : S65536x5x128.Reduces [2] S65536x5) (b : Fin 65536) (q : Fin 5) (k : Fin 128) :
    h.lift (ix2 b q) k = ix3 b q k := by
  funext d; match d with | ⟨0, _⟩ => rfl | ⟨1, _⟩ => rfl | ⟨2, _⟩ => rfl

theorem lift_x2x128 (h : S65536x2x128.Reduces [2] S65536x2) (b : Fin 65536) (q : Fin 2) (k : Fin 128) :
    h.lift (ix2 b q) k = ix3 b q k := by
  funext d; match d with | ⟨0, _⟩ => rfl | ⟨1, _⟩ => rfl | ⟨2, _⟩ => rfl

theorem lift_x5x2x128 (h : S65536x5x2x128.Reduces [3] S65536x5x2) (b : Fin 65536) (q : Fin 5) (j : Fin 2) (k : Fin 128) :
    h.lift (ix3 b q j) k = ix4 b q j k := by
  funext d; match d with | ⟨0, _⟩ => rfl | ⟨1, _⟩ => rfl | ⟨2, _⟩ => rfl | ⟨3, _⟩ => rfl

theorem lift_x5x2 (h : S65536x5x2.Reduces [1] S65536x2) (b : Fin 65536) (j : Fin 2) (q : Fin 5) :
    h.lift (ix2 b j) q = ix3 b q j := by
  funext d; match d with | ⟨0, _⟩ => rfl | ⟨1, _⟩ => rfl | ⟨2, _⟩ => rfl

theorem sum_x128 (x : FVec Ideal S65536x128 .f32) (b : Fin 65536) :
    Host.reduceAdd (F := Ideal) x zeroS reducesTo_S65536x128_S65536_d1 h_S_ (ix1 b) = ∑ k : Fin 128, x (ix2 b k) :=
  (sum_single _ (by decide) x (ix1 b)).trans (Finset.sum_congr rfl fun k _ => congrArg x (lift_x128 _ b k))

theorem sum_x5 (x : FVec Ideal S65536x5 .f32) (b : Fin 65536) :
    Host.reduceAdd (F := Ideal) x zeroS reducesTo_S65536x5_S65536_d1 h_S_ (ix1 b) = ∑ k : Fin 5, x (ix2 b k) :=
  (sum_single _ (by decide) x (ix1 b)).trans (Finset.sum_congr rfl fun k _ => congrArg x (lift_x5 _ b k))

theorem sum_x2 (x : FVec Ideal S65536x2 .f32) (b : Fin 65536) :
    Host.reduceAdd (F := Ideal) x zeroS reducesTo_S65536x2_S65536_d1 h_S_ (ix1 b) = ∑ k : Fin 2, x (ix2 b k) :=
  (sum_single _ (by decide) x (ix1 b)).trans (Finset.sum_congr rfl fun k _ => congrArg x (lift_x2 _ b k))

theorem sum_x5x128 (x : FVec Ideal S65536x5x128 .f32) (b : Fin 65536) (q : Fin 5) :
    Host.reduceAdd (F := Ideal) x zeroS reducesTo_S65536x5x128_S65536x5_d2 h_S_ (ix2 b q) = ∑ k : Fin 128, x (ix3 b q k) :=
  (sum_single _ (by decide) x (ix2 b q)).trans (Finset.sum_congr rfl fun k _ => congrArg x (lift_x5x128 _ b q k))

theorem sum_x2x128 (x : FVec Ideal S65536x2x128 .f32) (b : Fin 65536) (q : Fin 2) :
    Host.reduceAdd (F := Ideal) x zeroS reducesTo_S65536x2x128_S65536x2_d2 h_S_ (ix2 b q) = ∑ k : Fin 128, x (ix3 b q k) :=
  (sum_single _ (by decide) x (ix2 b q)).trans (Finset.sum_congr rfl fun k _ => congrArg x (lift_x2x128 _ b q k))

theorem sum_x5x2x128 (x : FVec Ideal S65536x5x2x128 .f32) (b : Fin 65536) (q : Fin 5) (j : Fin 2) :
    Host.reduceAdd (F := Ideal) x zeroS reducesTo_S65536x5x2x128_S65536x5x2_d3 h_S_ (ix3 b q j) = ∑ k : Fin 128, x (ix4 b q j k) :=
  (sum_single _ (by decide) x (ix3 b q j)).trans (Finset.sum_congr rfl fun k _ => congrArg x (lift_x5x2x128 _ b q j k))

theorem sum_x5x2 (x : FVec Ideal S65536x5x2 .f32) (b : Fin 65536) (j : Fin 2) :
    Host.reduceAdd (F := Ideal) x zeroS reducesTo_S65536x5x2_S65536x2_d1 h_S_ (ix2 b j) = ∑ q : Fin 5, x (ix3 b q j) :=
  (sum_single _ (by decide) x (ix2 b j)).trans (Finset.sum_congr rfl fun q _ => congrArg x (lift_x5x2 _ b j q))

/-! ## The stage functions at a row -/

open Cert.Htne in
theorem dtime_apply (E : FVec Ideal S65536 .f32) (T : FVec Ideal S65536x5 .f32) (b : Fin 65536) (h : Fin 5) :
    dtime E T (ix2 b h) = max (E (ix1 b) - T (ix2 b h)) (-(E (ix1 b) - T (ix2 b h))) := by
  show max (colBc E (ix2 b h) - T (ix2 b h)) (-(colBc E (ix2 b h) - T (ix2 b h))) = _
  rw [colBc_apply]

/-- The host's negation at an index. -/
theorem hostNegf_apply {s : Shape} {φ : FTy} (x : FVec Ideal s φ) (i : s.Idx) : Host.negf x i = -(x i) := rfl

theorem pmu_apply (X Y : FVec Ideal S65536x128 .f32) (b : Fin 65536) :
    pmu X Y (ix1 b) = -(Cert.Htne.sqd (fun k => X (ix2 b k)) (fun k => Y (ix2 b k))) := by
  unfold pmu Cert.Htne.sqd
  rw [hostNegf_apply, sum_x128]
  simp only [mulf_apply, subf_apply]

theorem alpha_apply (X : FVec Ideal S65536x128 .f32) (Hh : FVec Ideal S65536x5x128 .f32) (b : Fin 65536) (h : Fin 5) :
    alpha X Hh (ix2 b h) = -(Cert.Htne.sqd (fun k => X (ix2 b k)) (fun k => Hh (ix3 b h k))) := by
  unfold alpha Cert.Htne.sqd
  rw [hostNegf_apply, sum_x5x128]
  simp only [mulf_apply, subf_apply, xh_apply]

theorem nmu_apply (X : FVec Ideal S65536x128 .f32) (Nn : FVec Ideal S65536x2x128 .f32) (b : Fin 65536) (j : Fin 2) :
    nmu X Nn (ix2 b j) = -(Cert.Htne.sqd (fun k => X (ix2 b k)) (fun k => Nn (ix3 b j k))) := by
  unfold nmu Cert.Htne.sqd
  rw [hostNegf_apply, sum_x2x128]
  simp only [mulf_apply, subf_apply, xn_apply]

theorem nalpha_apply (Hh : FVec Ideal S65536x5x128 .f32) (Nn : FVec Ideal S65536x2x128 .f32) (b : Fin 65536) (h : Fin 5) (j : Fin 2) :
    nalpha Hh Nn (ix3 b h j) = -(Cert.Htne.sqd (fun k => Hh (ix3 b h k)) (fun k => Nn (ix3 b j k))) := by
  unfold nalpha Cert.Htne.sqd
  rw [hostNegf_apply, sum_x5x2x128]
  simp only [mulf_apply, subf_apply, hn4_apply, nn4_apply]

/-- The row maximum is the specification's: max of the word of −∞ and the fold of max from it. -/
theorem rowmax_apply (a : FVec Ideal S65536x5 .f32) (b : Fin 65536) :
    rowmax a (ix1 b) = Cert.Htne.rmax (fun h => a (ix2 b h)) := by
  have hr : S65536x5.Reduces [1] S65536 := by decide
  unfold rowmax Cert.Htne.rmax Cert.Htne.ninf
  rw [maximumf_apply, broadcastInDim_scalar_apply,
    Host.reduce_eq_fold_single _ a ninfS reducesTo_S65536x5_S65536_d1 hr h_S_ (ix1 b),
    show (a ∘ hr.lift (ix1 b)) = (fun h : Fin 5 => a (ix2 b h)) from funext fun h => congrArg a (lift_x5 hr b h)]
  simp only [ninfS, constant_apply]
  rfl

theorem expo_apply (a : FVec Ideal S65536x5 .f32) (b : Fin 65536) (h : Fin 5) :
    expo a (ix2 b h) = Ideal.exp (a (ix2 b h) - Cert.Htne.rmax (fun h => a (ix2 b h))) := by
  show Ideal.exp (a (ix2 b h) - colBc (rowmax a) (ix2 b h)) = _
  rw [colBc_apply, rowmax_apply]

theorem attn_apply (a : FVec Ideal S65536x5 .f32) (b : Fin 65536) (h : Fin 5) :
    attn a (ix2 b h) = Cert.Htne.soft (fun h => a (ix2 b h)) h := by
  unfold attn
  rw [hostDivf_apply, colBc_apply, sum_x5]
  simp only [expo_apply]
  rfl

theorem dec_apply (Dl : FVec Ideal S65536x1 .f32) (E : FVec Ideal S65536 .f32) (T M : FVec Ideal S65536x5 .f32) (b : Fin 65536) (h : Fin 5) :
    dec Dl (dtime E T) M (ix2 b h)
      = Cert.Htne.decay (Dl (ix2 b (0 : Fin 1))) (E (ix1 b)) (fun h => T (ix2 b h)) (fun h => M (ix2 b h)) h := by
  show Ideal.exp (broadcastInDim S65536x5 ![0, 1] bcast_S65536x1_S65536x5_0_1 Dl (ix2 b h) * dtime E T (ix2 b h)) * M (ix2 b h) = _
  rw [dlBc_apply, dtime_apply]
  rfl

theorem plam_apply (pm : FVec Ideal S65536 .f32) (w al de : FVec Ideal S65536x5 .f32) (b : Fin 65536) :
    plam pm w al de (ix1 b) = pm (ix1 b) + ∑ h : Fin 5, (w (ix2 b h) * al (ix2 b h)) * de (ix2 b h) := by
  show pm (ix1 b) + Host.reduceAdd (F := Ideal) (mulf (mulf w al) de) zeroS reducesTo_S65536x5_S65536_d1 h_S_ (ix1 b) = _
  rw [sum_x5]; rfl

theorem nlam_apply (nm : FVec Ideal S65536x2 .f32) (w : FVec Ideal S65536x5 .f32) (na : FVec Ideal S65536x5x2 .f32)
    (de : FVec Ideal S65536x5 .f32) (b : Fin 65536) (j : Fin 2) :
    nlam nm w na de (ix2 b j) = nm (ix2 b j) + ∑ h : Fin 5, (w (ix2 b h) * na (ix3 b h j)) * de (ix2 b h) := by
  show nm (ix2 b j) + Host.reduceAdd (F := Ideal) (mulf (mulf (slot2 w) na) (slot2 de)) zeroS reducesTo_S65536x5x2_S65536x2_d1 h_S_ (ix2 b j) = _
  rw [sum_x5x2]
  refine congrArg (nm (ix2 b j) + ·) (Finset.sum_congr rfl fun h _ => ?_)
  show (slot2 w (ix3 b h j) * na (ix3 b h j)) * slot2 de (ix3 b h j) = _
  rw [slot2_apply, slot2_apply]

/-- On the extended reals nothing differs from itself. -/
theorem cmp_une_self (x : EReal) : Ideal.cmp .une x x = 0#1 := by
  simp [Ideal.cmp]

/-- The printed softplus is the specification's: its guard is false, and y − 0 = y, the zero word being 0. -/
theorem splusV_apply {S : Shape} (h : S_.BroadcastsInDim S (![] : Fin 0 → Fin S.rank)) (y : FVec Ideal S .f32) (i : S.Idx) :
    splusV h y i = Cert.Htne.splus (y i) := by
  show Scalar.select (Ideal.cmp .une (y i - zeroV h i) (y i - zeroV h i)) (y i + zeroV h i)
    (max (y i) (zeroV h i) + Ideal.log1p (Ideal.exp (-(max (y i - zeroV h i) (-(y i - zeroV h i)))))) = _
  rw [cmp_une_self, select_zero, zeroV_apply, sub_zero]
  rfl

theorem lsigV_apply {S : Shape} (h : S_.BroadcastsInDim S (![] : Fin 0 → Fin S.rank)) (z : FVec Ideal S .f32) (i : S.Idx) :
    lsigV h z i = Cert.Htne.lsig (z i) := by
  show -(splusV h (Host.negf z) i) = _
  rw [splusV_apply]; rfl

theorem lossV_apply (l1 : FVec Ideal S65536 .f32) (l2 : FVec Ideal S65536x2 .f32) (b : Fin 65536) :
    lossV l1 l2 (ix1 b) = l1 (ix1 b) - ∑ j : Fin 2, l2 (ix2 b j) := by
  show l1 (ix1 b) - Host.reduceAdd (F := Ideal) l2 zeroS reducesTo_S65536x2_S65536_d1 h_S_ (ix1 b) = _
  rw [sum_x2]

/-! ## The composition is the specification -/

/-- The reference's loss array is the specification's function of the same arrays. -/
theorem refLoss_eq_G (X Y : FVec Ideal S65536x128 .f32) (Hh : FVec Ideal S65536x5x128 .f32) (Nn : FVec Ideal S65536x2x128 .f32)
    (Dl : FVec Ideal S65536x1 .f32) (E : FVec Ideal S65536 .f32) (T M : FVec Ideal S65536x5 .f32) :
    refLoss X Y Hh Nn Dl E T M = Cert.Htne.G X Y Hh Nn Dl E T M := by
  funext i
  obtain ⟨b, rfl⟩ : ∃ b : Fin 65536, i = ix1 b := ⟨i 0, eq_ix1 i⟩
  rw [Cert.Htne.G_apply]
  unfold refLoss
  rw [lossV_apply, lsigV_apply, plam_apply, pmu_apply]
  simp only [lsigV_apply, nlam_apply, nmu_apply, nalpha_apply, attn_apply, alpha_apply, dec_apply]
  rfl

end Cert.ReferenceIdeal.Hand

end
-- ==== Proof.RefValue.lean ====
/-
  The reference's run, read at its result: the result buffer holds the specification's loss array `G` of the five
  gathered arrays as the run leaves them, of the event times, of the history times and of the mask; and the run
  leaves its nine arguments as it found them. The first is the run by pieces (the result is `refLoss` of those
  arrays) followed by the index-by-index reading of `refLoss` as `G`.
-/
import proofs.«155322_j32083405701144_2_alg».proof.Proof.RefStageRun
import proofs.«155322_j32083405701144_2_alg».proof.Proof.RefStageIdx

noncomputable section

namespace Cert.ReferenceIdeal.Hand

open Cert.ReferenceIdeal Cert.ReferenceIdeal.Gen Idealize.ShloMosaic Idealize.ShloMosaic.TcCoe Idealize.SL.Sem Idealize.ShloMosaic.StableHlo

/-- Device `c`'s buffer contents after the reference's line, from the launch memory `m`. -/
abbrev W (m : (ℓ : Loc nD τ sig) → Buf (Elt Ideal) ℓ) (c : Dev nD) : Valuation τ sig (Elt Ideal) :=
  after (ops (F := Ideal)) (launchContents m c)

/-- The result is the specification's loss array of the gathered arrays, the event times, the history times and the mask. -/
theorem result_eq (m : (ℓ : Loc nD τ sig) → Buf (Elt Ideal) ℓ) (c : Dev nD) :
    W m c (main_v63 : DevRef τ sig)
      = Cert.Htne.G (W m c (main_v0 : DevRef τ sig)) (W m c (main_v1 : DevRef τ sig)) (W m c (main_v2 : DevRef τ sig)) (W m c (main_v3 : DevRef τ sig))
          (W m c (main_v4 : DevRef τ sig)) (m ((c.tc : Thread nD τ).loc main_arg2)) (m ((c.tc : Thread nD τ).loc main_arg4)) (m ((c.tc : Thread nD τ).loc main_arg6)) :=
  (run_val (launchContents m c)).trans (refLoss_eq_G _ _ _ _ _ _ _ _)

theorem arg_eq0 (m : (ℓ : Loc nD τ sig) → Buf (Elt Ideal) ℓ) (c : Dev nD) :
    W m c (main_arg0 : DevRef τ sig) = m ((c.tc : Thread nD τ).loc main_arg0) := run_arg0 (launchContents m c)

theorem arg_eq1 (m : (ℓ : Loc nD τ sig) → Buf (Elt Ideal) ℓ) (c : Dev nD) :
    W m c (main_arg1 : DevRef τ sig) = m ((c.tc : Thread nD τ).loc main_arg1) := run_arg1 (launchContents m c)

theorem arg_eq2 (m : (ℓ : Loc nD τ sig) → Buf (Elt Ideal) ℓ) (c : Dev nD) :
    W m c (main_arg2 : DevRef τ sig) = m ((c.tc : Thread nD τ).loc main_arg2) := run_arg2 (launchContents m c)

theorem arg_eq3 (m : (ℓ : Loc nD τ sig) → Buf (Elt Ideal) ℓ) (c : Dev nD) :
    W m c (main_arg3 : DevRef τ sig) = m ((c.tc : Thread nD τ).loc main_arg3) := run_arg3 (launchContents m c)

theorem arg_eq4 (m : (ℓ : Loc nD τ sig) → Buf (Elt Ideal) ℓ) (c : Dev nD) :
    W m c (main_arg4 : DevRef τ sig) = m ((c.tc : Thread nD τ).loc main_arg4) := run_arg4 (launchContents m c)

theorem arg_eq5 (m : (ℓ : Loc nD τ sig) → Buf (Elt Ideal) ℓ) (c : Dev nD) :
    W m c (main_arg5 : DevRef τ sig) = m ((c.tc : Thread nD τ).loc main_arg5) := run_arg5 (launchContents m c)

theorem arg_eq6 (m : (ℓ : Loc nD τ sig) → Buf (Elt Ideal) ℓ) (c : Dev nD) :
    W m c (main_arg6 : DevRef τ sig) = m ((c.tc : Thread nD τ).loc main_arg6) := run_arg6 (launchContents m c)

theorem arg_eq7 (m : (ℓ : Loc nD τ sig) → Buf (Elt Ideal) ℓ) (c : Dev nD) :
    W m c (main_arg7 : DevRef τ sig) = m ((c.tc : Thread nD τ).loc main_arg7) := run_arg7 (launchContents m c)

theorem arg_eq8 (m : (ℓ : Loc nD τ sig) → Buf (Elt Ideal) ℓ) (c : Dev nD) :
    W m c (main_arg8 : DevRef τ sig) = m ((c.tc : Thread nD τ).loc main_arg8) := run_arg8 (launchContents m c)

end Cert.ReferenceIdeal.Hand

end
-- ==== Proof.lean ====
/-
  The certificate of a temporal-network-embedding loss kernel against its jnp reference.

  Both programs first gather embedding rows (source, target, five history and two negative rows per batch row, and a
  decay rate) from one table by the same `jnp.take`; the kernel then computes, 1024 batch rows at a grid point, what the
  reference computes on whole arrays: squared distances, a softmax over the five history slots, an exponential time
  decay, a positive and two negative scores, their log-sigmoids and the row's loss.

  On the extended reals the two are one function `Cert.Htne.G` of the gathered arrays (Proof/Spec.lean):
    * the kernel writes a negated sum as  0 − s  where the reference writes  −s;
    * the kernel accumulates the five history slots' contributions to a negative score one after another from 0, each
      as  (softmax · decay) · distance, where the reference sums  (softmax · distance) · decay  over the slot axis:
      equal by commutativity and associativity of · and of +, which hold at the infinities too;
    * both guard the log-sigmoid's  log(1 + exp(−|y|))  against a NaN by comparing  y − 0  with itself, a test that is
      never true on the extended reals, so both take the same branch.
  No law that needs finiteness is used, so the precondition is never opened.

  The parts: the gathers as pure functions and both programs' arrays as those functions of the launch memory
  (TakesK, TakesR); the kernel's blocks at a row, then its output array and the column taken from it after the
  region (Ker*); the reference's operation line, its run, and its result read row by row (Ref*).
  `preserves` is `True`: the idealized kernel is the kernel's own text read at the extended reals.
-/
import proofs.«155322_j32083405701144_2_alg».proof.Defs
import proofs.«155322_j32083405701144_2_alg».proof.Proof.Gen.Kernel
import proofs.«155322_j32083405701144_2_alg».proof.Proof.Gen.Kernel.Skeleton
import proofs.«155322_j32083405701144_2_alg».proof.Proof.Gen.Kernel.Launch
import proofs.«155322_j32083405701144_2_alg».proof.Proof.Gen.Kernel.Points
import proofs.«155322_j32083405701144_2_alg».proof.Proof.Gen.Kernel.Frame
import proofs.«155322_j32083405701144_2_alg».proof.Proof.Gen.KernelIdeal
import proofs.«155322_j32083405701144_2_alg».proof.Proof.Gen.KernelIdeal.Skeleton
import proofs.«155322_j32083405701144_2_alg».proof.Proof.Gen.KernelIdeal.Launch
import proofs.«155322_j32083405701144_2_alg».proof.Proof.Gen.KernelIdeal.Points
import proofs.«155322_j32083405701144_2_alg».proof.Proof.Gen.KernelIdeal.Frame
import proofs.«155322_j32083405701144_2_alg».proof.Proof.Gen.ReferenceIdeal
import proofs.«155322_j32083405701144_2_alg».proof.Proof.Gen.Pre_finite_inputs
import proofs.«155322_j32083405701144_2_alg».proof.Proof.Spec
import proofs.«155322_j32083405701144_2_alg».proof.Proof.TakesK
import proofs.«155322_j32083405701144_2_alg».proof.Proof.TakesR
import proofs.«155322_j32083405701144_2_alg».proof.Proof.KerValue
import proofs.«155322_j32083405701144_2_alg».proof.Proof.RefValue
import Idealize.ShloMosaic.Adequacy
import Idealize.ShloMosaic.Init

noncomputable section

namespace Cert.Proof

open Idealize.ShloMosaic Idealize.ShloMosaic.TcCoe Idealize.ShloMosaic.StableHlo Idealize.SL.Sem

/-- The kernel program runs and leaves its arguments alone (the generated frame). -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations none of which writes an argument array. -/
theorem frame_referenceIdeal : Cert.frame_ReferenceIdeal := fun m ρ _ =>
  (θ_run (Cert.ReferenceIdeal.defs (F := Ideal)) _ _).mono
    (fun r h c => ⟨(h c Cert.ReferenceIdeal.main_arg0).trans (Cert.ReferenceIdeal.Hand.arg_eq0 m c),
      (h c Cert.ReferenceIdeal.main_arg1).trans (Cert.ReferenceIdeal.Hand.arg_eq1 m c),
      (h c Cert.ReferenceIdeal.main_arg2).trans (Cert.ReferenceIdeal.Hand.arg_eq2 m c),
      (h c Cert.ReferenceIdeal.main_arg3).trans (Cert.ReferenceIdeal.Hand.arg_eq3 m c),
      (h c Cert.ReferenceIdeal.main_arg4).trans (Cert.ReferenceIdeal.Hand.arg_eq4 m c),
      (h c Cert.ReferenceIdeal.main_arg5).trans (Cert.ReferenceIdeal.Hand.arg_eq5 m c),
      (h c Cert.ReferenceIdeal.main_arg6).trans (Cert.ReferenceIdeal.Hand.arg_eq6 m c),
      (h c Cert.ReferenceIdeal.main_arg7).trans (Cert.ReferenceIdeal.Hand.arg_eq7 m c),
      (h c Cert.ReferenceIdeal.main_arg8).trans (Cert.ReferenceIdeal.Hand.arg_eq8 m c)⟩)
    (Cert.ReferenceIdeal.Hand.run_main (F := Ideal) m ρ)

/-- The idealization rewrote no operation. -/
theorem preserves : Cert.preserves_Kernel_KernelIdeal := trivial

/-- Both runs end with the loss array `G` of the same gathers of the same launch memory. -/
theorem algebraic : Cert.algebraic_KernelIdeal_ReferenceIdeal := by
  intro m ρ m' ρ' _ hagree
  refine ⟨fun c => Cert.Htne.G
      (Cert.KernelIdeal.Hand.takeRows (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg0)))
      (Cert.KernelIdeal.Hand.takeRows (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg1)))
      (Cert.KernelIdeal.Hand.takeRows5 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg3)))
      (Cert.KernelIdeal.Hand.takeRows2 (F := Ideal) (m ((c.tc : Thread Cert.KernelIdeal.nD Cert.KernelIdeal.τ).loc Cert.KernelIdeal.main_arg7)) (m ((c.tc : Thread Cert.KernelIdeal.nD Cert.KernelIdeal.τ).loc Cert.KernelIdeal.main_arg5)))
      (Cert.KernelIdeal.Hand.takeCol (F := Ideal) (m ((c.tc : Thread Cert.KernelIdeal.nD Cert.KernelIdeal.τ).loc Cert.KernelIdeal.main_arg8)) (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), ?_, ?_⟩
  · refine (θ_run (Cert.KernelIdeal.defs (F := Ideal)) _ _).mono (fun r h c => ⟨?_, (h c).2⟩) (Cert.KernelIdeal.Hand.run m ρ)
    rw [(h c).1, Cert.KernelIdeal.Hand.V_v0, Cert.KernelIdeal.Hand.V_v1, Cert.KernelIdeal.Hand.V_v2, Cert.KernelIdeal.Hand.V_v3,
      Cert.KernelIdeal.Hand.V_v4]
  · refine (θ_run (Cert.ReferenceIdeal.defs (F := Ideal)) _ _).mono (fun r h c => ?_)
      (Cert.ReferenceIdeal.Hand.run_main (F := Ideal) m' ρ')
    obtain ⟨a0, a1, a2, a3, a4, a5, a6, a7, a8⟩ := hagree c
    refine ⟨?_, (h c Cert.ReferenceIdeal.main_arg0).trans (Cert.ReferenceIdeal.Hand.arg_eq0 m' c),
      (h c Cert.ReferenceIdeal.main_arg1).trans (Cert.ReferenceIdeal.Hand.arg_eq1 m' c),
      (h c Cert.ReferenceIdeal.main_arg2).trans (Cert.ReferenceIdeal.Hand.arg_eq2 m' c),
      (h c Cert.ReferenceIdeal.main_arg3).trans (Cert.ReferenceIdeal.Hand.arg_eq3 m' c),
      (h c Cert.ReferenceIdeal.main_arg4).trans (Cert.ReferenceIdeal.Hand.arg_eq4 m' c),
      (h c Cert.ReferenceIdeal.main_arg5).trans (Cert.ReferenceIdeal.Hand.arg_eq5 m' c),
      (h c Cert.ReferenceIdeal.main_arg6).trans (Cert.ReferenceIdeal.Hand.arg_eq6 m' c),
      (h c Cert.ReferenceIdeal.main_arg7).trans (Cert.ReferenceIdeal.Hand.arg_eq7 m' c),
      (h c Cert.ReferenceIdeal.main_arg8).trans (Cert.ReferenceIdeal.Hand.arg_eq8 m' c)⟩
    refine (h c Cert.ReferenceIdeal.main_v63).trans ((Cert.ReferenceIdeal.Hand.result_eq m' c).trans ?_)
    rw [show Cert.ReferenceIdeal.Hand.W m' c (Cert.ReferenceIdeal.main_v0 : DevRef Cert.ReferenceIdeal.τ Cert.ReferenceIdeal.sig) = _ from Cert.ReferenceIdeal.Hand.W_v0 m' c,
      show Cert.ReferenceIdeal.Hand.W m' c (Cert.ReferenceIdeal.main_v1 : DevRef Cert.ReferenceIdeal.τ Cert.ReferenceIdeal.sig) = _ from Cert.ReferenceIdeal.Hand.W_v1 m' c,
      show Cert.ReferenceIdeal.Hand.W m' c (Cert.ReferenceIdeal.main_v2 : DevRef Cert.ReferenceIdeal.τ Cert.ReferenceIdeal.sig) = _ from Cert.ReferenceIdeal.Hand.W_v2 m' c,
      show Cert.ReferenceIdeal.Hand.W m' c (Cert.ReferenceIdeal.main_v3 : DevRef Cert.ReferenceIdeal.τ Cert.ReferenceIdeal.sig) = _ from Cert.ReferenceIdeal.Hand.W_v3 m' c,
      show Cert.ReferenceIdeal.Hand.W m' c (Cert.ReferenceIdeal.main_v4 : DevRef Cert.ReferenceIdeal.τ Cert.ReferenceIdeal.sig) = _ from Cert.ReferenceIdeal.Hand.W_v4 m' c,
      a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
